-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.named_const.Statement Cert.KernelIdeal.κ "one_minus_dt" .f32 0x3F666666#32 ((120795955 / 134217728 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_1)) (v1 : (c : Dev Cert.KernelIdeal.nD) → Buf (Elt Ideal) ((c.tc : Thread Cert.KernelIdeal.nD Cert.KernelIdeal.τ).loc Cert.KernelIdeal.main_v0_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_1) = v0 c
          ∧ r.2.mem ((c.tc : Thread Cert.KernelIdeal.nD Cert.KernelIdeal.τ).loc Cert.KernelIdeal.main_v0_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x16 : Shape := ⟨2, ![512, 16]⟩
abbrev S512x8192 : Shape := ⟨2, ![512, 8192]⟩
abbrev S8192x16 : Shape := ⟨2, ![8192, 16]⟩
abbrev S8192x8 : Shape := ⟨2, ![8192, 8]⟩
abbrev S8x8192 : Shape := ⟨2, ![8, 8192]⟩
abbrev S4x8192 : Shape := ⟨2, ![4, 8192]⟩
abbrev S_ : Shape := ⟨0, ![]⟩

class Facts : Prop where
  bcast_S_S512x16 : S_.BroadcastsInDim S512x16 (![] : Fin 0 → Fin S512x16.rank)
  reducesTo_S512x16_S_d0_1 : S512x16.ReducesTo [0, 1] S_
  h_S_ : 0 < S_.numel
  bcast_S_S512x8192 : S_.BroadcastsInDim S512x8192 (![] : Fin 0 → Fin S512x8192.rank)
  reducesTo_S512x8192_S_d0_1 : S512x8192.ReducesTo [0, 1] S_
  bcast_S_S8192x16 : S_.BroadcastsInDim S8192x16 (![] : Fin 0 → Fin S8192x16.rank)
  reducesTo_S8192x16_S_d0_1 : S8192x16.ReducesTo [0, 1] S_
  bcast_S_S8192x8 : S_.BroadcastsInDim S8192x8 (![] : Fin 0 → Fin S8192x8.rank)
  reducesTo_S8192x8_S_d0_1 : S8192x8.ReducesTo [0, 1] S_
  bcast_S_S8x8192 : S_.BroadcastsInDim S8x8192 (![] : Fin 0 → Fin S8x8192.rank)
  reducesTo_S8x8192_S_d0_1 : S8x8192.ReducesTo [0, 1] S_
  bcast_S_S4x8192 : S_.BroadcastsInDim S4x8192 (![] : Fin 0 → Fin S4x8192.rank)
  reducesTo_S4x8192_S_d0_1 : S4x8192.ReducesTo [0, 1] S_

variable [Facts]

def fn_part1 {F : FTy → Type} [FloatOps F] (main_arg4 : FVec F S8x8192 .f32) (main_arg5 : FVec F S4x8192 .f32) (main_v13 : IVec S_ 1) (main_v16 : IVec S8192x8 1) : IVec S_ 1 :=
  let main_c_5 : IVec S_ 1 := constantI S_ 1 1#1
  let main_v17 : IVec S_ 1 := (fun x v => Host.reduce IntOp.andi x v reducesTo_S8192x8_S_d0_1 h_S_) main_v16 main_c_5
  let main_v18 : IVec S_ 1 := andi main_v13 main_v17
  let main_v19 : FVec F S8x8192 .f32 := Host.absf main_arg4
  let main_cst_6 : FVec F S_ .f32 := constant S_ .f32 0x7F800000#32
  let main_v20 : FVec F S8x8192 .f32 := broadcastInDim S8x8192 ![] bcast_S_S8x8192 main_cst_6
  let main_v21 : IVec S8x8192 1 := cmpf .olt main_v19 main_v20
  let main_c_7 : IVec S_ 1 := constantI S_ 1 1#1
  let main_v22 : IVec S_ 1 := (fun x v => Host.reduce IntOp.andi x v reducesTo_S8x8192_S_d0_1 h_S_) main_v21 main_c_7
  let main_v23 : IVec S_ 1 := andi main_v18 main_v22
  let main_v24 : FVec F S4x8192 .f32 := Host.absf main_arg5
  let main_cst_8 : FVec F S_ .f32 := constant S_ .f32 0x7F800000#32
  let main_v25 : FVec F S4x8192 .f32 := broadcastInDim S4x8192 ![] bcast_S_S4x8192 main_cst_8
  let main_v26 : IVec S4x8192 1 := cmpf .olt main_v24 main_v25
  let main_c_9 : IVec S_ 1 := constantI S_ 1 1#1
  let main_v27 : IVec S_ 1 := (fun x v => Host.reduce IntOp.andi x v reducesTo_S4x8192_S_d0_1 h_S_) main_v26 main_c_9
  let main_v28 : IVec S_ 1 := andi main_v23 main_v27
  main_v28

def fn {F : FTy → Type} [FloatOps F] (main_arg0 : FVec F S512x16 .f32) (main_arg1 : FVec F S512x8192 .f32) (main_arg2 : FVec F S8192x16 .f32) (main_arg3 : FVec F S8192x8 .f32) (main_arg4 : FVec F S8x8192 .f32) (main_arg5 : FVec F S4x8192 .f32) : IVec S_ 1 :=
  let main_v0 : FVec F S512x16 .f32 := Host.absf main_arg0
  let main_cst : FVec F S_ .f32 := constant S_ .f32 0x7F800000#32
  let main_v1 : FVec F S512x16 .f32 := broadcastInDim S512x16 ![] bcast_S_S512x16 main_cst
  let main_v2 : IVec S512x16 1 := cmpf .olt main_v0 main_v1
  let main_c : IVec S_ 1 := constantI S_ 1 1#1
  let main_v3 : IVec S_ 1 := (fun x v => Host.reduce IntOp.andi x v reducesTo_S512x16_S_d0_1 h_S_) main_v2 main_c
  let main_v4 : FVec F S512x8192 .f32 := Host.absf main_arg1
  let main_cst_0 : FVec F S_ .f32 := constant S_ .f32 0x7F800000#32
  let main_v5 : FVec F S512x8192 .f32 := broadcastInDim S512x8192 ![] bcast_S_S512x8192 main_cst_0
  let main_v6 : IVec S512x8192 1 := cmpf .olt main_v4 main_v5
  let main_c_1 : IVec S_ 1 := constantI S_ 1 1#1
  let main_v7 : IVec S_ 1 := (fun x v => Host.reduce IntOp.andi x v reducesTo_S512x8192_S_d0_1 h_S_) main_v6 main_c_1
  let main_v8 : IVec S_ 1 := andi main_v3 main_v7
  let main_v9 : FVec F S8192x16 .f32 := Host.absf main_arg2
  let main_cst_2 : FVec F S_ .f32 := constant S_ .f32 0x7F800000#32
  let main_v10 : FVec F S8192x16 .f32 := broadcastInDim S8192x16 ![] bcast_S_S8192x16 main_cst_2
  let main_v11 : IVec S8192x16 1 := cmpf .olt main_v9 main_v10
  let main_c_3 : IVec S_ 1 := constantI S_ 1 1#1
  let main_v12 : IVec S_ 1 := (fun x v => Host.reduce IntOp.andi x v reducesTo_S8192x16_S_d0_1 h_S_) main_v11 main_c_3
  let main_v13 : IVec S_ 1 := andi main_v8 main_v12
  let main_v14 : FVec F S8192x8 .f32 := Host.absf main_arg3
  let main_cst_4 : FVec F S_ .f32 := constant S_ .f32 0x7F800000#32
  let main_v15 : FVec F S8192x8 .f32 := broadcastInDim S8192x8 ![] bcast_S_S8192x8 main_cst_4
  let main_v16 : IVec S8192x8 1 := cmpf .olt main_v14 main_v15
  fn_part1 (F := F) main_arg4 main_arg5 main_v13 main_v16
-- ==== Kernel.lean ====
abbrev S512x16 : Shape := ⟨2, ![512, 16]⟩
abbrev S512x8192 : Shape := ⟨2, ![512, 8192]⟩
abbrev S8192x16 : Shape := ⟨2, ![8192, 16]⟩
abbrev S8192x8 : Shape := ⟨2, ![8192, 8]⟩
abbrev S8x8192 : Shape := ⟨2, ![8, 8192]⟩
abbrev S4x8192 : Shape := ⟨2, ![4, 8192]⟩
abbrev S512x4 : Shape := ⟨2, ![512, 4]⟩
abbrev S256x2048 : Shape := ⟨2, ![256, 2048]⟩
abbrev S8x2048 : Shape := ⟨2, ![8, 2048]⟩
abbrev S256x16 : Shape := ⟨2, ![256, 16]⟩
abbrev S2048x16 : Shape := ⟨2, ![2048, 16]⟩
abbrev S2048x8 : Shape := ⟨2, ![2048, 8]⟩
abbrev S4x2048 : Shape := ⟨2, ![4, 2048]⟩
abbrev S256x4 : Shape := ⟨2, ![256, 4]⟩
abbrev S256x8 : Shape := ⟨2, ![256, 8]⟩

abbrev nBuf : Space → Nat
  | .hbm => 8
  | .vmem => 17
  | .smem => 0
  | _ => 0

abbrev bufTy : (tb : Table) → Fin (tcTables nBuf tb) → BufTy
  | .hbm, ⟨0, _⟩ => ⟨S512x16, .f32⟩
  | .hbm, ⟨1, _⟩ => ⟨S512x8192, .f32⟩
  | .hbm, ⟨2, _⟩ => ⟨S8192x16, .f32⟩
  | .hbm, ⟨3, _⟩ => ⟨S8192x8, .f32⟩
  | .hbm, ⟨4, _⟩ => ⟨S8x8192, .f32⟩
  | .hbm, ⟨5, _⟩ => ⟨S4x8192, .f32⟩
  | .hbm, ⟨6, _⟩ => ⟨S512x8192, .f32⟩
  | .hbm, ⟨7, _⟩ => ⟨S512x4, .f32⟩
  | .local _ .vmem, ⟨0, _⟩ => ⟨S256x2048, .f32⟩
  | .local _ .vmem, ⟨1, _⟩ => ⟨S256x2048, .f32⟩
  | .local _ .vmem, ⟨2, _⟩ => ⟨S8x2048, .f32⟩
  | .local _ .vmem, ⟨3, _⟩ => ⟨S8x2048, .f32⟩
  | .local _ .vmem, ⟨4, _⟩ => ⟨S256x16, .f32⟩
  | .local _ .vmem, ⟨5, _⟩ => ⟨S256x16, .f32⟩
  | .local _ .vmem, ⟨6, _⟩ => ⟨S2048x16, .f32⟩
  | .local _ .vmem, ⟨7, _⟩ => ⟨S2048x16, .f32⟩
  | .local _ .vmem, ⟨8, _⟩ => ⟨S2048x8, .f32⟩
  | .local _ .vmem, ⟨9, _⟩ => ⟨S2048x8, .f32⟩
  | .local _ .vmem, ⟨10, _⟩ => ⟨S4x2048, .f32⟩
  | .local _ .vmem, ⟨11, _⟩ => ⟨S4x2048, .f32⟩
  | .local _ .vmem, ⟨12, _⟩ => ⟨S256x2048, .f32⟩
  | .local _ .vmem, ⟨13, _⟩ => ⟨S256x2048, .f32⟩
  | .local _ .vmem, ⟨14, _⟩ => ⟨S256x4, .f32⟩
  | .local _ .vmem, ⟨15, _⟩ => ⟨S256x4, .f32⟩
  | .local _ .vmem, ⟨16, _⟩ => ⟨S256x8, .f32⟩
  | _, _ => ⟨S512x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg1 : BitVec 32 := BitVec.ofNat 32 (i 1).val
  let c1_i32 : BitVec 32 := 1#32
  let v8 : BitVec 1 := Scalar.cmpi .eq arg1 c1_i32
  let v9 : BitVec 32 := Scalar.extui v8
  let c0_i32_4 : BitVec 32 := 0#32
  let v10 : BitVec 1 := Scalar.cmpi .ne v9 c0_i32_4
  v10

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let arg2 : BitVec 32 := BitVec.ofNat 32 (i 2).val
  let c0_i32_0 : BitVec 32 := 0#32
  let v1 : BitVec 1 := Scalar.cmpi .eq arg2 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi c1_i32 arg1
  let v1 : BitVec 32 := Scalar.muli arg2 v0
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.muli arg2 arg1
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.muli arg2 arg1
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.muli arg2 arg1
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.muli arg2 arg1
  let c0_i32 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S2048x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S2048x8 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S4x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S256x4 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

class Facts₀ : Prop where
  inb_S256x8_S256x8_0_0 : ∀ a, (![0, 0] : Fin 2 → Nat) a + S256x8.size a ≤ S256x8.size a
  h_S256x8 : 0 < S256x8.numel
  shapeCasts_S256x8_S256x8 : S256x8.ShapeCasts S256x8
  inb_S256x4_S256x4_0_0 : ∀ a, (![0, 0] : Fin 2 → Nat) a + S256x4.size a ≤ S256x4.size a
  h_S256x4 : 0 < S256x4.numel
  inb_S256x2048_S256x2048_0_0 : ∀ a, (![0, 0] : Fin 2 → Nat) a + S256x2048.size a ≤ S256x2048.size a
  h_S256x2048 : 0 < S256x2048.numel
  bitsLt_bf16_f32 : FTy.bits .bf16 < FTy.bits .f32
  inb_S8x2048_S8x2048_0_0 : ∀ a, (![0, 0] : Fin 2 → Nat) a + S8x2048.size a ≤ S8x2048.size a
  h_S8x2048 : 0 < S8x2048.numel
  inb_S256x16_S256x16_0_0 : ∀ a, (![0, 0] : Fin 2 → Nat) a + S256x16.size a ≤ S256x16.size a
  h_S256x16 : 0 < S256x16.numel
  inb_S2048x16_S2048x16_0_0 : ∀ a, (![0, 0] : Fin 2 → Nat) a + S2048x16.size a ≤ S2048x16.size a
  h_S2048x16 : 0 < S2048x16.numel
  inb_S2048x8_S2048x8_0_0 : ∀ a, (![0, 0] : Fin 2 → Nat) a + S2048x8.size a ≤ S2048x8.size a
  h_S2048x8 : 0 < S2048x8.numel
  inb_S4x2048_S4x2048_0_0 : ∀ a, (![0, 0] : Fin 2 → Nat) a + S4x2048.size a ≤ S4x2048.size a
  h_S4x2048 : 0 < S4x2048.numel
  shapeCasts_S256x4_S256x4 : S256x4.ShapeCasts S256x4
  dot_S256x2048_S8x2048_S256x8_1_1_0_0_n_n_wf : DotDims.WF S256x2048 S8x2048 S256x8 [1] [1] [0] [0] [] []
  dot_S256x16_S2048x16_S256x2048_1_1_0_0_n_n_wf : DotDims.WF S256x16 S2048x16 S256x2048 [1] [1] [0] [0] [] []
  dot_S256x8_S2048x8_S256x2048_1_1_0_0_n_n_wf : DotDims.WF S256x8 S2048x8 S256x2048 [1] [1] [0] [0] [] []
  dot_S256x2048_S4x2048_S256x4_1_1_0_0_n_n_wf : DotDims.WF S256x2048 S4x2048 S256x4 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S512x8192.size a
  hwx0_0 : ∀ i : grid0.Coords, EltTy.bits .f32 = 32 ∨ (Rect.block (s := S512x8192) S256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x2048.size a ≤ S8x8192.size a
  hwx0_1 : ∀ i : grid0.Coords, EltTy.bits .f32 = 32 ∨ (Rect.block (s := S8x8192) S8x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x16.size a ≤ S512x16.size a
  hwx0_2 : ∀ i : grid0.Coords, EltTy.bits .f32 = 32 ∨ (Rect.block (s := S512x16) S256x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x16.size a ≤ S8192x16.size a
  hwx0_3 : ∀ i : grid0.Coords, EltTy.bits .f32 = 32 ∨ (Rect.block (s := S8192x16) S2048x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x8.size a ≤ S8192x8.size a
  hwx0_4 : ∀ i : grid0.Coords, EltTy.bits .f32 = 32 ∨ (Rect.block (s := S8192x8) S2048x8.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4x2048.size a ≤ S4x8192.size a
  hwx0_5 : ∀ i : grid0.Coords, EltTy.bits .f32 = 32 ∨ (Rect.block (s := S4x8192) S4x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x2048.size a ≤ S512x8192.size a
  hwx0_6 : ∀ i : grid0.Coords, EltTy.bits .f32 = 32 ∨ (Rect.block (s := S512x8192) S256x2048.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x4.size a ≤ S512x4.size a
  hwx0_7 : ∀ i : grid0.Coords, EltTy.bits .f32 = 32 ∨ (Rect.block (s := S512x4) S256x4.size (cc0_transform_7 i) (hinb0_7 i)).WholeWords (EltTy.packing .f32)

variable [Facts₀]

def dot_S256x2048_S8x2048_S256x8_1_1_0_0_n_n : DotDims S256x2048 S8x2048 S256x8 where
  lhsContracting := [1]
  rhsContracting := [1]
  lhsNonContracting := [0]
  rhsNonContracting := [0]
  lhsBatch := []
  rhsBatch := []
  wf := dot_S256x2048_S8x2048_S256x8_1_1_0_0_n_n_wf
def dot_S256x16_S2048x16_S256x2048_1_1_0_0_n_n : DotDims S256x16 S2048x16 S256x2048 where
  lhsContracting := [1]
  rhsContracting := [1]
  lhsNonContracting := [0]
  rhsNonContracting := [0]
  lhsBatch := []
  rhsBatch := []
  wf := dot_S256x16_S2048x16_S256x2048_1_1_0_0_n_n_wf
def dot_S256x8_S2048x8_S256x2048_1_1_0_0_n_n : DotDims S256x8 S2048x8 S256x2048 where
  lhsContracting := [1]
  rhsContracting := [1]
  lhsNonContracting := [0]
  rhsNonContracting := [0]
  lhsBatch := []
  rhsBatch := []
  wf := dot_S256x8_S2048x8_S256x2048_1_1_0_0_n_n_wf
def dot_S256x2048_S4x2048_S256x4_1_1_0_0_n_n : DotDims S256x2048 S4x2048 S256x4 where
  lhsContracting := [1]
  rhsContracting := [1]
  lhsNonContracting := [0]
  rhsNonContracting := [0]
  lhsBatch := []
  rhsBatch := []
  wf := dot_S256x2048_S4x2048_S256x4_1_1_0_0_n_n_wf

abbrev win0_0 : Pipeline.Window sig grid0 :=
  Pipeline.Window.ofSpec (Memref.whole main_arg1) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S8x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S256x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S2048x16.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S2048x8.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S4x2048.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_0) S256x2048.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0_1) S256x4.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun i => !(k0_cond3 i == 1#1) | 7 => fun i => !(k0_cond1 i == 1#1) && !(k0_cond3 i == 1#1) | ⟨_ + 8, h⟩ => absurd h (Nat.not_lt.2 (Nat.le_add_left _ _))

class Facts : Prop extends Facts₀ where

variable [Facts]
-- ==== ReferenceIdeal.lean ====
abbrev S512x16 : Shape := ⟨2, ![512, 16]⟩
abbrev S512x8192 : Shape := ⟨2, ![512, 8192]⟩
abbrev S8192x16 : Shape := ⟨2, ![8192, 16]⟩
abbrev S8192x8 : Shape := ⟨2, ![8192, 8]⟩
abbrev S8x8192 : Shape := ⟨2, ![8, 8192]⟩
abbrev S4x8192 : Shape := ⟨2, ![4, 8192]⟩
abbrev S16x8192 : Shape := ⟨2, ![16, 8192]⟩
abbrev S8192x8192 : Shape := ⟨2, ![8192, 8192]⟩
abbrev S_ : Shape := ⟨0, ![]⟩
abbrev S8192x4 : Shape := ⟨2, ![8192, 4]⟩
abbrev S512x4 : Shape := ⟨2, ![512, 4]⟩

abbrev nBuf : Space → Nat
  | .hbm => 31
  | .vmem => 0
  | .smem => 0
  | _ => 0

abbrev bufTy : (tb : Table) → Fin (tcTables nBuf tb) → BufTy
  | .hbm, ⟨0, _⟩ => ⟨S512x16, .f32⟩
  | .hbm, ⟨1, _⟩ => ⟨S512x8192, .f32⟩
  | .hbm, ⟨2, _⟩ => ⟨S8192x16, .f32⟩
  | .hbm, ⟨3, _⟩ => ⟨S8192x8, .f32⟩
  | .hbm, ⟨4, _⟩ => ⟨S8x8192, .f32⟩
  | .hbm, ⟨5, _⟩ => ⟨S4x8192, .f32⟩
  | .hbm, ⟨6, _⟩ => ⟨S16x8192, .f32⟩
  | .hbm, ⟨7, _⟩ => ⟨S512x8192, .f32⟩
  | .hbm, ⟨8, _⟩ => ⟨S8192x8192, .f32⟩
  | .hbm, ⟨9, _⟩ => ⟨S_, .f32⟩
  | .hbm, ⟨10, _⟩ => ⟨S8192x8192, .f32⟩
  | .hbm, ⟨11, _⟩ => ⟨S8192x8192, .f32⟩
  | .hbm, ⟨12, _⟩ => ⟨S512x8192, .f32⟩
  | .hbm, ⟨13, _⟩ => ⟨S512x8192, .f32⟩
  | .hbm, ⟨14, _⟩ => ⟨S8192x8192, .f32⟩
  | .hbm, ⟨15, _⟩ => ⟨S512x8192, .f32⟩
  | .hbm, ⟨16, _⟩ => ⟨S512x8192, .f32⟩
  | .hbm, ⟨17, _⟩ => ⟨S512x8192, .f32⟩
  | .hbm, ⟨18, _⟩ => ⟨S_, .f32⟩
  | .hbm, ⟨19, _⟩ => ⟨S512x8192, .f32⟩
  | .hbm, ⟨20, _⟩ => ⟨S512x8192, .f32⟩
  | .hbm, ⟨21, _⟩ => ⟨S_, .f32⟩
  | .hbm, ⟨22, _⟩ => ⟨S512x8192, .f32⟩
  | .hbm, ⟨23, _⟩ => ⟨S512x8192, .f32⟩
  | .hbm, ⟨24, _⟩ => ⟨S512x8192, .f32⟩
  | .hbm, ⟨25, _⟩ => ⟨S512x8192, .f32⟩
  | .hbm, ⟨26, _⟩ => ⟨S8192x4, .f32⟩
  | .hbm, ⟨27, _⟩ => ⟨S512x4, .f32⟩
  | .hbm, ⟨28, _⟩ => ⟨S_, .f32⟩
  | .hbm, ⟨29, _⟩ => ⟨S512x4, .f32⟩
  | .hbm, ⟨30, _⟩ => ⟨S512x4, .f32⟩
  | _, _ => ⟨S512x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩

abbrev nD : Nat := 1
abbrev τ : Topo := Topo.v7x

variable {F : FTy → Type} [FloatOps F]

class Facts₀ : Prop where
  transposes_S8192x16_S16x8192_1_0 : S8192x16.Transposes [1, 0] S16x8192
  bcast_S_S8192x8192 : S_.BroadcastsInDim S8192x8192 (![] : Fin 0 → Fin S8192x8192.rank)
  transposes_S8192x8192_S8192x8192_1_0 : S8192x8192.Transposes [1, 0] S8192x8192
  bcast_S_S512x8192 : S_.BroadcastsInDim S512x8192 (![] : Fin 0 → Fin S512x8192.rank)
  transposes_S4x8192_S8192x4_1_0 : S4x8192.Transposes [1, 0] S8192x4
  bcast_S_S512x4 : S_.BroadcastsInDim S512x4 (![] : Fin 0 → Fin S512x4.rank)
  dot_S512x16_S16x8192_S512x8192_1_0_0_1_n_n_wf : DotDims.WF S512x16 S16x8192 S512x8192 [1] [0] [0] [1] [] []
  dot_S8192x8_S8x8192_S8192x8192_1_0_0_1_n_n_wf : DotDims.WF S8192x8 S8x8192 S8192x8192 [1] [0] [0] [1] [] []
  dot_S512x8192_S8192x8192_S512x8192_1_0_0_1_n_n_wf : DotDims.WF S512x8192 S8192x8192 S512x8192 [1] [0] [0] [1] [] []
  dot_S512x8192_S8192x4_S512x4_1_0_0_1_n_n_wf : DotDims.WF S512x8192 S8192x4 S512x4 [1] [0] [0] [1] [] []

variable [Facts₀]

def dot_S512x16_S16x8192_S512x8192_1_0_0_1_n_n : DotDims S512x16 S16x8192 S512x8192 where
  lhsContracting := [1]
  rhsContracting := [0]
  lhsNonContracting := [0]
  rhsNonContracting := [1]
  lhsBatch := []
  rhsBatch := []
  wf := dot_S512x16_S16x8192_S512x8192_1_0_0_1_n_n_wf
def dot_S8192x8_S8x8192_S8192x8192_1_0_0_1_n_n : DotDims S8192x8 S8x8192 S8192x8192 where
  lhsContracting := [1]
  rhsContracting := [0]
  lhsNonContracting := [0]
  rhsNonContracting := [1]
  lhsBatch := []
  rhsBatch := []
  wf := dot_S8192x8_S8x8192_S8192x8192_1_0_0_1_n_n_wf
def dot_S512x8192_S8192x8192_S512x8192_1_0_0_1_n_n : DotDims S512x8192 S8192x8192 S512x8192 where
  lhsContracting := [1]
  rhsContracting := [0]
  lhsNonContracting := [0]
  rhsNonContracting := [1]
  lhsBatch := []
  rhsBatch := []
  wf := dot_S512x8192_S8192x8192_S512x8192_1_0_0_1_n_n_wf
def dot_S512x8192_S8192x4_S512x4_1_0_0_1_n_n : DotDims S512x8192 S8192x4 S512x4 where
  lhsContracting := [1]
  rhsContracting := [0]
  lhsNonContracting := [0]
  rhsNonContracting := [1]
  lhsBatch := []
  rhsBatch := []
  wf := dot_S512x8192_S8192x4_S512x4_1_0_0_1_n_n_wf

class Facts : Prop extends Facts₀ where

variable [Facts]
-- ==== Proof.K.Cases.lean ====
/-
  The grid of the one region is 2 × 2 × 4 = 16 points, the point t standing for the batch half t / 8, the phase
  (t / 4) % 2 and the hidden tile t % 4. The body has three conditionals on the point: "first tile of phase 0"
  (t % 8 = 0: the rank-8 accumulator and the readout block are zeroed), "phase 0" (t % 8 < 4: the accumulator takes the
  tile's contribution) and "phase 1" (4 ≤ t % 8: the new hidden tile is stored and the readout block takes the tile's
  contribution). Here: the three conditions decided over the grid in that closed form, where the two output windows are
  idle and where they are written back, and the names the per-case runs are stated over.
-/
import proofs.«168527_j76141180223841_2_alg».proof.Proof.Gen.Kernel.Launch
import proofs.«168527_j76141180223841_2_alg».proof.Proof.Gen.Kernel.Skeleton
import proofs.«168527_j76141180223841_2_alg».proof.Proof.Gen.Kernel.Points
import proofs.«168527_j76141180223841_2_alg».proof.Proof.Gen.Kernel.Frame
import Idealize.ShloMosaic.Lib.Pipeline.FrameBody
import Idealize.ShloMosaic.Lib.Pipeline.TableIdle
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The three conditions of the body, decided over the grid -/

/-- "first tile of phase 0". -/
abbrev cond0_0 (i : grid0.Coords) : Prop := k0_cond1 i = 1#1
/-- "phase 0", the scalar chain the body computes. -/
abbrev cond0_1 (i : grid0.Coords) : Prop :=
  (Scalar.cmpi .ne (Scalar.extui (Scalar.cmpi .eq (BitVec.ofNat 32 (i 1).val) 0#32)) 0#32) = 1#1
/-- "phase 1". -/
abbrev cond0_2 (i : grid0.Coords) : Prop := k0_cond3 i = 1#1

theorem hcond0_0 : ∀ t : Fin cfg0.N, cond0_0 (grid0.coords t) ↔ t.val % 8 = 0 :=
  (by decide +kernel : ∀ t : Fin grid0.N, cond0_0 (grid0.coords t) ↔ t.val % 8 = 0)
theorem hcond0_1 : ∀ t : Fin cfg0.N, cond0_1 (grid0.coords t) ↔ t.val % 8 < 4 :=
  (by decide +kernel : ∀ t : Fin grid0.N, cond0_1 (grid0.coords t) ↔ t.val % 8 < 4)
theorem hcond0_2 : ∀ t : Fin cfg0.N, cond0_2 (grid0.coords t) ↔ 4 ≤ t.val % 8 :=
  (by decide +kernel : ∀ t : Fin grid0.N, cond0_2 (grid0.coords t) ↔ 4 ≤ t.val % 8)

/-! ## Where the windows are idle, written back, and fresh -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl

/-- In phase 0 the new-hidden window is idle and not written back. -/
theorem idleAt0_6 : ∀ t : Fin cfg0.N, t.val % 8 < 4 → cfg0.idle 6 (grid0.coords t) = true ∧ (cfg0.win 6).flush t = false :=
  (by decide +kernel : ∀ t : Fin grid0.N, t.val % 8 < 4 → cfg0.idle 6 (grid0.coords t) = true ∧ (cfg0.win 6).flush t = false)
/-- In phase 1 it is live. -/
theorem liveAt0_6 : ∀ t : Fin cfg0.N, 4 ≤ t.val % 8 → cfg0.idle 6 (grid0.coords t) = false :=
  (by decide +kernel : ∀ t : Fin grid0.N, 4 ≤ t.val % 8 → cfg0.idle 6 (grid0.coords t) = false)
/-- At the later tiles of phase 0 the readout window is idle and not written back. -/
theorem idleAt0_7 : ∀ t : Fin cfg0.N, t.val % 8 ≠ 0 → t.val % 8 < 4 → cfg0.idle 7 (grid0.coords t) = true ∧ (cfg0.win 7).flush t = false :=
  (by decide +kernel : ∀ t : Fin grid0.N, t.val % 8 ≠ 0 → t.val % 8 < 4 → cfg0.idle 7 (grid0.coords t) = true ∧ (cfg0.win 7).flush t = false)
/-- At the first tile of phase 0 and in phase 1 it is live. -/
theorem liveAt0_7 : ∀ t : Fin cfg0.N, (t.val % 8 = 0 ∨ 4 ≤ t.val % 8) → cfg0.idle 7 (grid0.coords t) = false :=
  (by decide +kernel : ∀ t : Fin grid0.N, (t.val % 8 = 0 ∨ 4 ≤ t.val % 8) → cfg0.idle 7 (grid0.coords t) = false)
/-- In phase 1 the readout window's buffer holds what the body stored since the last write-back. -/
theorem stale0_7 : ∀ t : Fin cfg0.N, 4 ≤ t.val % 8 → cfg0.fresh 7 t.val = false :=
  (by decide +kernel : ∀ t : Fin grid0.N, 4 ≤ t.val % 8 → cfg0.fresh 7 t.val = false)
/-- The new-hidden window is written back exactly in phase 1, the readout window at the last tile of phase 1. -/
theorem flushAt0_6 : ∀ t : Fin cfg0.N, (cfg0.win 6).flush t = true ↔ 4 ≤ t.val % 8 :=
  (by decide +kernel : ∀ t : Fin grid0.N, (cfg0.win 6).flush t = true ↔ 4 ≤ t.val % 8)

/-! ## The staging memrefs at a point, and the scratch -/

abbrev ms0_0 (t : Fin cfg0.N) : Memref sig .tc .vmem S256x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x16 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x16 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x8 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S4x2048 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x2048 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x4 .f32 := win0_7.stage (cfg0.slots t 7)
abbrev hs0_7 (t : Fin cfg0.N) : (ms0_7 t).IsWhole := hstage0_7 ((cfg0.slots t 7).cast nbuf0_7)
/-- The rank-8 accumulator: a whole scoped buffer of the kernel's own. -/
abbrev scM0_0 : Memref sig .tc .vmem S256x8 .f32 := Memref.whole cc0_scratch0

/-- The region's invariant with the accumulator as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Gen

end
-- ==== Proof.K.RunA.lean ====
/-
  The body at the first tile of phase 0 (t % 8 = 0): it zeroes the rank-8 accumulator and the readout block, then adds
  the tile's contribution tanh(hidden tile) · (R tile)ᵀ onto the accumulator. It reads the hidden-state tile and the R
  tile, and leaves the other windows untouched.
-/
import proofs.«168527_j76141180223841_2_alg».proof.Proof.K.Cases

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the readout block's buffer (`L7`) and in the accumulator (`LS0`) at a point
    of this case, with the run that finds them: from the two tiles it reads at their contents, the readout buffer and the
    accumulator at anything, to the continuation holding the tiles as they were and the two written buffers. -/
noncomputable def kernelRun0_A (c : Dev nD) (i : grid0.Coords) (arg3 : Memref sig .tc .vmem S256x2048 .f32) (harg3 : arg3.IsWhole) (arg4 : Memref sig .tc .vmem S8x2048 .f32) (harg4 : arg4.IsWhole) (arg5 : Memref sig .tc .vmem S256x16 .f32) (harg5 : arg5.IsWhole) (arg6 : Memref sig .tc .vmem S2048x16 .f32) (harg6 : arg6.IsWhole) (arg7 : Memref sig .tc .vmem S2048x8 .f32) (harg7 : arg7.IsWhole) (arg8 : Memref sig .tc .vmem S4x2048 .f32) (harg8 : arg8.IsWhole) (arg9 : Memref sig .tc .vmem S256x2048 .f32) (harg9 : arg9.IsWhole) (arg10 : Memref sig .tc .vmem S256x4 .f32) (harg10 : arg10.IsWhole) (arg11 : Memref sig .tc .vmem S256x8 .f32) (harg11 : arg11.IsWhole) (hc0 : cond0_0 i) (hc1 : cond0_1 i) (hc2 : ¬cond0_2 i)
    (x0 : Vec F S256x2048 .f32) (x1 : Vec F S8x2048 .f32) :
    Σ' (L7 : List (View.Piece (Elt F) S256x4 .f32)), { LS0 : List (View.Piece (Elt F) S256x8 .f32) //
      ∀ (E : Set ℕ) (K : PUnit → sProp 𝕄),
        iprop(owns (c : Thread nD τ) arg3 fullShare x0 ∗ owns (c : Thread nD τ) arg4 fullShare x1 ∗ (∃ d, owns (c : Thread nD τ) arg10 fullShare d) ∗ (∃ d, owns (c : Thread nD τ) arg11 fullShare d)
            ∗ (iprop(owns (c : Thread nD τ) arg3 fullShare x0 ∗ owns (c : Thread nD τ) arg4 fullShare x1 ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f LS0)) -∗ K ⟨⟩))
          ⊢ wp frame (wpE (defs₀ (F := F)) Variants.none c none) E (cc0__kernel i arg3 harg3 arg4 harg4 arg5 harg5 arg6 harg6 arg7 harg7 arg8 harg8 arg9 harg9 arg10 harg10 arg11 harg11) K } := by
  refine ⟨?_, ?_, fun E K => ?run⟩
  case run =>
    simp only [cc0__kernel_eq_skeleton]; unfold cc0__kernel_skel
    unfold owns
    iintro ⟨⟨%f0, %hf0, H0⟩, ⟨%f1, %hf1, H1⟩, ⟨%d7, %f7, -, H7⟩, ⟨%ds0, %fs0, -, HS0⟩, Hk⟩
    obtain rfl := harg3.eq_unread hf0; obtain rfl := harg4.eq_unread hf1
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H7]; · iexists _; iexact H7
    iexists _; iexact HS0

end Cert.Kernel.Gen

end
-- ==== Proof.K.RunB.lean ====
/-
  The body at a later tile of phase 0 (t % 8 = 1, 2, 3): it adds the tile's contribution tanh(hidden tile) · (R tile)ᵀ
  onto the rank-8 accumulator, which it finds at what the tile before left. It reads the hidden-state tile and the R
  tile, and leaves the other windows untouched.
-/
import proofs.«168527_j76141180223841_2_alg».proof.Proof.K.RunA

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's store leaves in the accumulator (`LS0`) at a point of this case, with the run that finds
    them: from the two tiles at their contents and the accumulator at `xs0`. -/
noncomputable def kernelRun0_B (c : Dev nD) (i : grid0.Coords) (arg3 : Memref sig .tc .vmem S256x2048 .f32) (harg3 : arg3.IsWhole) (arg4 : Memref sig .tc .vmem S8x2048 .f32) (harg4 : arg4.IsWhole) (arg5 : Memref sig .tc .vmem S256x16 .f32) (harg5 : arg5.IsWhole) (arg6 : Memref sig .tc .vmem S2048x16 .f32) (harg6 : arg6.IsWhole) (arg7 : Memref sig .tc .vmem S2048x8 .f32) (harg7 : arg7.IsWhole) (arg8 : Memref sig .tc .vmem S4x2048 .f32) (harg8 : arg8.IsWhole) (arg9 : Memref sig .tc .vmem S256x2048 .f32) (harg9 : arg9.IsWhole) (arg10 : Memref sig .tc .vmem S256x4 .f32) (harg10 : arg10.IsWhole) (arg11 : Memref sig .tc .vmem S256x8 .f32) (harg11 : arg11.IsWhole) (hc0 : ¬cond0_0 i) (hc1 : cond0_1 i) (hc2 : ¬cond0_2 i)
    (x0 : Vec F S256x2048 .f32) (x1 : Vec F S8x2048 .f32) (xs0 : Vec F S256x8 .f32) :
    { LS0 : List (View.Piece (Elt F) S256x8 .f32) //
      ∀ (E : Set ℕ) (K : PUnit → sProp 𝕄),
        iprop(owns (c : Thread nD τ) arg3 fullShare x0 ∗ owns (c : Thread nD τ) arg4 fullShare x1 ∗ owns (c : Thread nD τ) arg11 fullShare xs0
            ∗ (iprop(owns (c : Thread nD τ) arg3 fullShare x0 ∗ owns (c : Thread nD τ) arg4 fullShare x1 ∗ (∃ f, arg11.view.loc (c : Thread nD τ) ↦[arg11.view.set]{fullShare} arg11.view.writes (Elt F) f LS0)) -∗ K ⟨⟩))
          ⊢ wp frame (wpE (defs₀ (F := F)) Variants.none c none) E (cc0__kernel i arg3 harg3 arg4 harg4 arg5 harg5 arg6 harg6 arg7 harg7 arg8 harg8 arg9 harg9 arg10 harg10 arg11 harg11) K } := by
  refine ⟨?_, fun E K => ?run⟩
  case run =>
    simp only [cc0__kernel_eq_skeleton]; unfold cc0__kernel_skel
    unfold owns
    iintro ⟨⟨%f0, %hf0, H0⟩, ⟨%f1, %hf1, H1⟩, ⟨%fs0, %hfs0, HS0⟩, Hk⟩
    obtain rfl := harg3.eq_unread hf0; obtain rfl := harg4.eq_unread hf1; obtain rfl := harg11.eq_unread hfs0
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    iexists _; iexact HS0

end Cert.Kernel.Gen

end
-- ==== Proof.K.RunC.lean ====
/-
  The body in phase 1 (4 ≤ t % 8): from the hidden-state tile, the input block, the tiles of the input weights, of L and
  of the readout weights, and the finished rank-8 accumulator, it stores the new hidden tile and adds the tile's
  contribution onto the readout block, which it finds at what the point before left. The accumulator is only read.
-/
import proofs.«168527_j76141180223841_2_alg».proof.Proof.K.RunB

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the new-hidden tile's buffer (`L6`) and in the readout block's (`L7`) at a
    point of this case, with the run that finds them. -/
noncomputable def kernelRun0_C (c : Dev nD) (i : grid0.Coords) (arg3 : Memref sig .tc .vmem S256x2048 .f32) (harg3 : arg3.IsWhole) (arg4 : Memref sig .tc .vmem S8x2048 .f32) (harg4 : arg4.IsWhole) (arg5 : Memref sig .tc .vmem S256x16 .f32) (harg5 : arg5.IsWhole) (arg6 : Memref sig .tc .vmem S2048x16 .f32) (harg6 : arg6.IsWhole) (arg7 : Memref sig .tc .vmem S2048x8 .f32) (harg7 : arg7.IsWhole) (arg8 : Memref sig .tc .vmem S4x2048 .f32) (harg8 : arg8.IsWhole) (arg9 : Memref sig .tc .vmem S256x2048 .f32) (harg9 : arg9.IsWhole) (arg10 : Memref sig .tc .vmem S256x4 .f32) (harg10 : arg10.IsWhole) (arg11 : Memref sig .tc .vmem S256x8 .f32) (harg11 : arg11.IsWhole) (hc0 : ¬cond0_0 i) (hc1 : ¬cond0_1 i) (hc2 : cond0_2 i)
    (x0 : Vec F S256x2048 .f32) (x2 : Vec F S256x16 .f32) (x3 : Vec F S2048x16 .f32) (x4 : Vec F S2048x8 .f32) (x5 : Vec F S4x2048 .f32)
    (xo7 : Vec F S256x4 .f32) (xs0 : Vec F S256x8 .f32) :
    Σ' (L6 : List (View.Piece (Elt F) S256x2048 .f32)), { L7 : List (View.Piece (Elt F) S256x4 .f32) //
      ∀ (E : Set ℕ) (K : PUnit → sProp 𝕄),
        iprop(owns (c : Thread nD τ) arg3 fullShare x0 ∗ owns (c : Thread nD τ) arg5 fullShare x2 ∗ owns (c : Thread nD τ) arg6 fullShare x3 ∗ owns (c : Thread nD τ) arg7 fullShare x4 ∗ owns (c : Thread nD τ) arg8 fullShare x5
            ∗ (∃ d, owns (c : Thread nD τ) arg9 fullShare d) ∗ owns (c : Thread nD τ) arg10 fullShare xo7 ∗ owns (c : Thread nD τ) arg11 fullShare xs0
            ∗ (iprop(owns (c : Thread nD τ) arg3 fullShare x0 ∗ owns (c : Thread nD τ) arg5 fullShare x2 ∗ owns (c : Thread nD τ) arg6 fullShare x3 ∗ owns (c : Thread nD τ) arg7 fullShare x4 ∗ owns (c : Thread nD τ) arg8 fullShare x5
                ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f L7) ∗ owns (c : Thread nD τ) arg11 fullShare xs0) -∗ K ⟨⟩))
          ⊢ wp frame (wpE (defs₀ (F := F)) Variants.none c none) E (cc0__kernel i arg3 harg3 arg4 harg4 arg5 harg5 arg6 harg6 arg7 harg7 arg8 harg8 arg9 harg9 arg10 harg10 arg11 harg11) K } := by
  refine ⟨?_, ?_, fun E K => ?run⟩
  case run =>
    simp only [cc0__kernel_eq_skeleton]; unfold cc0__kernel_skel
    unfold owns
    iintro ⟨⟨%f0, %hf0, H0⟩, ⟨%f2, %hf2, H2⟩, ⟨%f3, %hf3, H3⟩, ⟨%f4, %hf4, H4⟩, ⟨%f5, %hf5, H5⟩, ⟨%d6, %f6, -, H6⟩, ⟨%f7, %hf7, H7⟩, ⟨%fs0, %hfs0, HS0⟩, Hk⟩
    obtain rfl := harg3.eq_unread hf0; obtain rfl := harg5.eq_unread hf2; obtain rfl := harg6.eq_unread hf3
    obtain rfl := harg7.eq_unread hf4; obtain rfl := harg8.eq_unread hf5; obtain rfl := harg10.eq_unread hf7
    obtain rfl := harg11.eq_unread hfs0
    sl_exec (disch := first | exact hc0 | exact hc1 | exact hc2)
    sl_step
    iapply Hk
    isplitl [H0]
    · iexists _; isplitr; · ipureintro; exact harg3.read_unread _
      iexact H0
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    isplitl [H7]; · iexists _; iexact H7
    iexists _; isplitr; · ipureintro; exact harg11.read_unread _
    iexact HS0

end Cert.Kernel.Gen

end
-- ==== Proof.K.Frame.lean ====
/-
  The frame of the region, and what its two output windows' buffers and the rank-8 accumulator hold after every point.

  After point t (batch half t / 8, phase (t / 4) % 2, tile t % 4) the three carried buffers are, by recursion on t:
    first tile of phase 0:  new-hidden buffer as before · readout block zeroed · accumulator = 0 + this tile's contribution
    later tile of phase 0:  new-hidden buffer as before · readout block as before · accumulator = before + this tile's
    phase 1:                new-hidden buffer = the Euler step of this tile · readout block = before + this tile's ·
                            accumulator as before.
  Each "what the stores leave" is the pieces the case's run found, read back; the pipeline's proof data states them, the
  body obligation is the three runs, and the library's frame run concludes.
-/
import proofs.«168527_j76141180223841_2_alg».proof.Proof.K.RunC

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- One staging buffer of each output window and the accumulator, as views through which contents are stated. -/
abbrev VO0_6 : View sig .tc .vmem S256x2048 .f32 := (Memref.whole cc0_stg6_0 : Memref sig .tc .vmem S256x2048 .f32).view
abbrev VO0_7 : View sig .tc .vmem S256x4 .f32 := (Memref.whole cc0_stg7_0 : Memref sig .tc .vmem S256x4 .f32).view
abbrev VS0_0 : View sig .tc .vmem S256x8 .f32 := scM0_0.view

/-- The run of the first-tile case at point `t`, on the point's staging buffers and blocks. -/
abbrev runA (c : Dev nD) (t : Fin cfg0.N) (h0 : t.val % 8 = 0) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _)
    ((hcond0_0 t).mpr h0) ((hcond0_1 t).mpr (by omega)) (fun hh => absurd ((hcond0_2 t).mp hh) (by omega))
    (iblk m c 0 t) (iblk m c 1 t)

/-- The run of the later-tiles case at point `t`, the accumulator found at `xs`. -/
abbrev runB (c : Dev nD) (t : Fin cfg0.N) (h0 : t.val % 8 ≠ 0) (h1 : t.val % 8 < 4) (xs : Vec F S256x8 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _)
    (fun hh => h0 ((hcond0_0 t).mp hh)) ((hcond0_1 t).mpr h1) (fun hh => absurd ((hcond0_2 t).mp hh) (by omega))
    (iblk m c 0 t) (iblk m c 1 t) xs

/-- The run of the phase-1 case at point `t`, the readout block found at `xo` and the accumulator at `xs`. -/
abbrev runC (c : Dev nD) (t : Fin cfg0.N) (h2 : 4 ≤ t.val % 8) (xo : Vec F S256x4 .f32) (xs : Vec F S256x8 .f32) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _)
    (fun hh => absurd ((hcond0_0 t).mp hh) (by omega)) (fun hh => absurd ((hcond0_1 t).mp hh) (by omega)) ((hcond0_2 t).mpr h2)
    (iblk m c 0 t) (iblk m c 2 t) (iblk m c 3 t) (iblk m c 4 t) (iblk m c 5 t) xo xs

def outA_7 (c : Dev nD) (t : Fin cfg0.N) (h0 : t.val % 8 = 0) : Vec F S256x4 .f32 :=
  VO0_7.read (Elt F) (VO0_7.writes (Elt F) VO0_7.junk (runA m c t h0).1)
def soutA (c : Dev nD) (t : Fin cfg0.N) (h0 : t.val % 8 = 0) : Vec F S256x8 .f32 :=
  VS0_0.read (Elt F) (VS0_0.writes (Elt F) VS0_0.junk (runA m c t h0).2.1)
def soutB (c : Dev nD) (t : Fin cfg0.N) (h0 : t.val % 8 ≠ 0) (h1 : t.val % 8 < 4) (xs : Vec F S256x8 .f32) : Vec F S256x8 .f32 :=
  VS0_0.read (Elt F) (VS0_0.writes (Elt F) VS0_0.junk (runB m c t h0 h1 xs).1)
def outC_6 (c : Dev nD) (t : Fin cfg0.N) (h2 : 4 ≤ t.val % 8) (xo : Vec F S256x4 .f32) (xs : Vec F S256x8 .f32) : Vec F S256x2048 .f32 :=
  VO0_6.read (Elt F) (VO0_6.writes (Elt F) VO0_6.junk (runC m c t h2 xo xs).1)
def outC_7 (c : Dev nD) (t : Fin cfg0.N) (h2 : 4 ≤ t.val % 8) (xo : Vec F S256x4 .f32) (xs : Vec F S256x8 .f32) : Vec F S256x4 .f32 :=
  VO0_7.read (Elt F) (VO0_7.writes (Elt F) VO0_7.junk (runC m c t h2 xo xs).2.1)

/-- Each case's pieces cover the buffer they are stored into: one whole-buffer store (the last) tiles it. -/
theorem coverA_7 (c : Dev nD) (t : Fin cfg0.N) (h0 : t.val % 8 = 0) (y : S256x4.Idx) : ∃ pc ∈ (runA m c t h0).1, y ∈ pc.1.set :=
  View.cover_of_tiledL (runA m c t h0).1 S256x4.size (by sl_kernel_rfl) y
theorem scoverA (c : Dev nD) (t : Fin cfg0.N) (h0 : t.val % 8 = 0) (y : S256x8.Idx) : ∃ pc ∈ (runA m c t h0).2.1, y ∈ pc.1.set :=
  View.cover_of_tiledL (runA m c t h0).2.1 S256x8.size (by sl_kernel_rfl) y
theorem scoverB (c : Dev nD) (t : Fin cfg0.N) (h0 : t.val % 8 ≠ 0) (h1 : t.val % 8 < 4) (xs : Vec F S256x8 .f32) (y : S256x8.Idx) :
    ∃ pc ∈ (runB m c t h0 h1 xs).1, y ∈ pc.1.set :=
  View.cover_of_tiledL (runB m c t h0 h1 xs).1 S256x8.size (by sl_kernel_rfl) y
theorem coverC_6 (c : Dev nD) (t : Fin cfg0.N) (h2 : 4 ≤ t.val % 8) (xo : Vec F S256x4 .f32) (xs : Vec F S256x8 .f32) (y : S256x2048.Idx) :
    ∃ pc ∈ (runC m c t h2 xo xs).1, y ∈ pc.1.set :=
  View.cover_of_tiledL (runC m c t h2 xo xs).1 S256x2048.size (by sl_kernel_rfl) y
theorem coverC_7 (c : Dev nD) (t : Fin cfg0.N) (h2 : 4 ≤ t.val % 8) (xo : Vec F S256x4 .f32) (xs : Vec F S256x8 .f32) (y : S256x4.Idx) :
    ∃ pc ∈ (runC m c t h2 xo xs).2.1, y ∈ pc.1.set :=
  View.cover_of_tiledL (runC m c t h2 xo xs).2.1 S256x4.size (by sl_kernel_rfl) y

/-! ## The three carried buffers, point by point -/

/-- New-hidden buffer, readout block, accumulator. -/
abbrev St (F : FTy → Type) [FloatOps F] : Type := Vec F S256x2048 .f32 × Vec F S256x4 .f32 × Vec F S256x8 .f32

/-- Contents nothing names: what the buffers hold before the first point. -/
def junkSt : St F :=
  (VO0_6.read (Elt F) VO0_6.junk, VO0_7.read (Elt F) VO0_7.junk, VS0_0.read (Elt F) VS0_0.junk)

/-- One point's effect on the three carried buffers, by the point's case. -/
def stepAt (c : Dev nD) (t : Fin cfg0.N) (prev : St F) : St F :=
  if h0 : t.val % 8 = 0 then (prev.1, outA_7 m c t h0, soutA m c t h0)
  else if h1 : t.val % 8 < 4 then (prev.1, prev.2.1, soutB m c t h0 h1 prev.2.2)
  else (outC_6 m c t (by omega) prev.2.1 prev.2.2, outC_7 m c t (by omega) prev.2.1 prev.2.2, prev.2.2)

/-- The three carried buffers after the body at position `n`. -/
def outsAt0 (c : Dev nD) : (n : ℕ) → n < cfg0.N → St F
  | 0, hn => stepAt m c ⟨0, hn⟩ junkSt
  | n + 1, hn => stepAt m c ⟨n + 1, hn⟩ (outsAt0 c n (Nat.lt_of_succ_lt hn))

/-- What the body finds at `t`: what the point before left, or unnamed contents at the first point. -/
def prevAt0 (c : Dev nD) (t : Fin cfg0.N) : St F :=
  if h : t.val = 0 then junkSt else outsAt0 m c (t.val - 1) (Nat.lt_of_le_of_lt (Nat.sub_le _ _) t.isLt)

theorem outsAt0_step (c : Dev nD) (t : Fin cfg0.N) : outsAt0 m c t.val t.isLt = stepAt m c t (prevAt0 m c t) := by
  obtain ⟨n, hn⟩ := t
  cases n with
  | zero => rfl
  | succ n => rfl

theorem prevAt0_pos (c : Dev nD) (t : Fin cfg0.N) (ht : t.val ≠ 0) :
    prevAt0 m c t = outsAt0 m c (t.val - 1) (Nat.lt_of_le_of_lt (Nat.sub_le _ _) t.isLt) := dif_neg ht

theorem stepAt_A (c : Dev nD) (t : Fin cfg0.N) (prev : St F) (h0 : t.val % 8 = 0) :
    stepAt m c t prev = (prev.1, outA_7 m c t h0, soutA m c t h0) := dif_pos h0
theorem stepAt_B (c : Dev nD) (t : Fin cfg0.N) (prev : St F) (h0 : t.val % 8 ≠ 0) (h1 : t.val % 8 < 4) :
    stepAt m c t prev = (prev.1, prev.2.1, soutB m c t h0 h1 prev.2.2) := (dif_neg h0).trans (dif_pos h1)
theorem stepAt_C (c : Dev nD) (t : Fin cfg0.N) (prev : St F) (h2 : 4 ≤ t.val % 8) :
    stepAt m c t prev = (outC_6 m c t h2 prev.2.1 prev.2.2, outC_7 m c t h2 prev.2.1 prev.2.2, prev.2.2) :=
  (dif_neg (by omega)).trans (dif_neg (by omega))

/-! ## The invariant: the accumulator at what the point before left -/

def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2)) ∗ (∃ r, prngReg c r)) := by
  cases n with
  | zero => exact absurd rfl hz
  | succ n => rfl

/-- At any point the invariant holds the accumulator at SOME contents. -/
theorem PhiS_any (c : Dev nD) (n : ℕ) (h : n ≤ cfg0.N) :
    PhiS m c n h ⊢ iprop(iprop((∃ d, owns (c : Thread nD τ) scM0_0 fullShare d)) ∗ (∃ r, prngReg c r)) := by
  cases n with
  | zero => rw [PhiS_zero m c 0 h rfl, PhiA0_eq]
  | succ n =>
    rw [PhiS_succ]
    iintro ⟨HS, Hg⟩
    isplitl [HS]
    · iexists _; iexact HS
    iexact Hg

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).1
    | ⟨7, _⟩ => (outsAt0 m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_6 (c : Dev nD) (t : Fin cfg0.N) : (dats m 0 c).after 6 t = (outsAt0 m c t.val t.isLt).1 := by dsimp only [dats]
theorem after0_7 (c : Dev nD) (t : Fin cfg0.N) : (dats m 0 c).after 7 t = (outsAt0 m c t.val t.isLt).2.1 := by dsimp only [dats]

theorem before0_0 (c : Dev nD) (t : Fin cfg0.N) (d) : (dats m 0 c).before 0 t d = iblk m c 0 t :=
  before0_0_of m (dats m 0 c) (A_eq m c 0) (fun _ => rfl) t d
theorem before0_1 (c : Dev nD) (t : Fin cfg0.N) (d) : (dats m 0 c).before 1 t d = iblk m c 1 t :=
  before0_1_of m (dats m 0 c) (A_eq m c 1) (fun _ => rfl) t d
theorem before0_2 (c : Dev nD) (t : Fin cfg0.N) (d) : (dats m 0 c).before 2 t d = iblk m c 2 t :=
  before0_2_of m (dats m 0 c) (A_eq m c 2) (fun _ => rfl) t d
theorem before0_3 (c : Dev nD) (t : Fin cfg0.N) (d) : (dats m 0 c).before 3 t d = iblk m c 3 t :=
  before0_3_of m (dats m 0 c) (A_eq m c 3) (fun _ => rfl) t d
theorem before0_4 (c : Dev nD) (t : Fin cfg0.N) (d) : (dats m 0 c).before 4 t d = iblk m c 4 t :=
  before0_4_of m (dats m 0 c) (A_eq m c 4) (fun _ => rfl) t d
theorem before0_5 (c : Dev nD) (t : Fin cfg0.N) (d) : (dats m 0 c).before 5 t d = iblk m c 5 t :=
  before0_5_of m (dats m 0 c) (A_eq m c 5) (fun _ => rfl) t d

theorem leaves0_0 (c : Dev nD) (t : Fin cfg0.N) :
    (dats m 0 c).leavesExact 0 t = owns (c : Thread nD τ) (ms0_0 t) fullShare (iblk m c 0 t) := by
  unfold Dat.leavesExact; rw [liveAt0_0 t]; rfl
theorem leaves0_1 (c : Dev nD) (t : Fin cfg0.N) :
    (dats m 0 c).leavesExact 1 t = owns (c : Thread nD τ) (ms0_1 t) fullShare (iblk m c 1 t) := by
  unfold Dat.leavesExact; rw [liveAt0_1 t]; rfl
theorem leaves0_2 (c : Dev nD) (t : Fin cfg0.N) :
    (dats m 0 c).leavesExact 2 t = owns (c : Thread nD τ) (ms0_2 t) fullShare (iblk m c 2 t) := by
  unfold Dat.leavesExact; rw [liveAt0_2 t]; rfl
theorem leaves0_3 (c : Dev nD) (t : Fin cfg0.N) :
    (dats m 0 c).leavesExact 3 t = owns (c : Thread nD τ) (ms0_3 t) fullShare (iblk m c 3 t) := by
  unfold Dat.leavesExact; rw [liveAt0_3 t]; rfl
theorem leaves0_4 (c : Dev nD) (t : Fin cfg0.N) :
    (dats m 0 c).leavesExact 4 t = owns (c : Thread nD τ) (ms0_4 t) fullShare (iblk m c 4 t) := by
  unfold Dat.leavesExact; rw [liveAt0_4 t]; rfl
theorem leaves0_5 (c : Dev nD) (t : Fin cfg0.N) :
    (dats m 0 c).leavesExact 5 t = owns (c : Thread nD τ) (ms0_5 t) fullShare (iblk m c 5 t) := by
  unfold Dat.leavesExact; rw [liveAt0_5 t]; rfl

/-- Where the readout window is idle: the later tiles of phase 0. -/
theorem idle0_7_iff : ∀ t : Fin cfg0.N, cfg0.idle 7 (grid0.coords t) = true → t.val % 8 ≠ 0 ∧ t.val % 8 < 4 :=
  (by decide +kernel : ∀ t : Fin grid0.N, cfg0.idle 7 (grid0.coords t) = true → t.val % 8 ≠ 0 ∧ t.val % 8 < 4)

/-- In phase 1 the body finds the readout block at what the point before left: the readout window is never fetched,
    not written back between, and through the idle tiles of phase 0 its stated contents are carried. -/
theorem before0_7_C (c : Dev nD) (t : Fin cfg0.N) (h2 : 4 ≤ t.val % 8) (d) :
    (dats m 0 c).before 7 t d = (prevAt0 m c t).2.1 := by
  have ht : t.val ≠ 0 := by omega
  rw [(dats m 0 c).before_out_traj 7 rfl (fun _ _ => rfl)
    (fun u hu hi _ => by
      obtain ⟨h0, h1⟩ := idle0_7_iff u hi
      rw [after0_7, after0_7, outsAt0_step, stepAt_B m c u _ h0 h1, prevAt0_pos m c u hu]) t.val t rfl d,
    stale0_7 t h2, if_neg Bool.false_ne_true, after0_7, prevAt0_pos m c t ht]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t
    ∗ (dats m 0 c).leavesExact 6 t ∗ (dats m 0 c).leavesExact 7 t)

set_option maxHeartbeats 4800000 in
/-- The body at any point: the point's case by its position in the batch half; the inputs' buffers hold their blocks;
    an idle output's buffer is handed back as found; the accumulator comes from the invariant and goes back at this
    point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3, leaves0_4, leaves0_5]
  rw [PhiS_castSucc m c t]
  by_cases h0 : t.val % 8 = 0
  · -- first tile of phase 0
    rw [Dat.leavesExact_idle (dats m 0 c) 6 t (idleAt0_6 t (by omega)).1 (idleAt0_6 t (by omega)).2]
    rw [show (dats m 0 c).leavesExact 7 t = owns (c : Thread nD τ) (ms0_7 t) fullShare ((dats m 0 c).after 7 t) from by
      unfold Dat.leavesExact; rw [liveAt0_7 t (Or.inl h0)], after0_7]
    rw [outsAt0_step, stepAt_A m c t _ h0]
    dsimp only
    unfold outA_7 soutA
    iintro ⟨HP, Ho, ⟨%d0, H0⟩, ⟨%d1, H1⟩, ⟨%d2, H2⟩, ⟨%d3, H3⟩, ⟨%d4, H4⟩, ⟨%d5, H5⟩, H6, ⟨%d7, H7⟩⟩
    ihave HP2 := (PhiS_any m c _ _) $$ HP
    icases HP2 with ⟨⟨%ds, HS⟩, Hg⟩
    iapply ((runA m c t h0).2.2 Set.univ _)
    isplitl [H0]; · iexact H0
    isplitl [H1]; · iexact H1
    isplitl [H7]; · iexists _; iexact H7
    isplitl [HS]; · iexists _; iexact HS
    iintro ⟨H0, H1, ⟨%e7, H7⟩, ⟨%es, HS⟩⟩
    isplitl [HS Hg]
    · isplitl [HS]
      · unfold owns; iexists _; isplitr
        swap; · iexact HS
        ipureintro; exact View.read_writes_of_cover _ _ _ _ _ (scoverA m c t h0)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact View.read_writes_of_cover _ _ _ _ _ (coverA_7 m c t h0)
  · by_cases h1 : t.val % 8 < 4
    · -- a later tile of phase 0
      have ht : t.val ≠ 0 := fun h => h0 (by rw [h])
      rw [Dat.leavesExact_idle (dats m 0 c) 6 t (idleAt0_6 t h1).1 (idleAt0_6 t h1).2]
      rw [Dat.leavesExact_idle (dats m 0 c) 7 t (idleAt0_7 t h0 h1).1 (idleAt0_7 t h0 h1).2]
      rw [outsAt0_step, stepAt_B m c t _ h0 h1]
      dsimp only
      unfold soutB
      rw [PhiS_pos m c _ _ ht, ← prevAt0_pos m c t ht]
      iintro ⟨⟨HS, Hg⟩, Ho, ⟨%d0, H0⟩, ⟨%d1, H1⟩, ⟨%d2, H2⟩, ⟨%d3, H3⟩, ⟨%d4, H4⟩, ⟨%d5, H5⟩, H6, H7⟩
      iapply ((runB m c t h0 h1 (prevAt0 m c t).2.2).2 Set.univ _)
      isplitl [H0]; · iexact H0
      isplitl [H1]; · iexact H1
      isplitl [HS]; · iexact HS
      iintro ⟨H0, H1, ⟨%es, HS⟩⟩
      isplitl [HS Hg]
      · isplitl [HS]
        · unfold owns; iexists _; isplitr
          swap; · iexact HS
          ipureintro; exact View.read_writes_of_cover _ _ _ _ _ (scoverB m c t h0 h1 _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · -- phase 1
      have h2 : 4 ≤ t.val % 8 := by omega
      have ht : t.val ≠ 0 := fun h => h0 (by rw [h])
      rw [show (dats m 0 c).leavesExact 6 t = owns (c : Thread nD τ) (ms0_6 t) fullShare ((dats m 0 c).after 6 t) from by
        unfold Dat.leavesExact; rw [liveAt0_6 t h2], after0_6]
      rw [show (dats m 0 c).leavesExact 7 t = owns (c : Thread nD τ) (ms0_7 t) fullShare ((dats m 0 c).after 7 t) from by
        unfold Dat.leavesExact; rw [liveAt0_7 t (Or.inr h2)], after0_7]
      simp only [before0_7_C m c t h2]
      rw [outsAt0_step, stepAt_C m c t _ h2]
      dsimp only
      unfold outC_6 outC_7
      rw [PhiS_pos m c _ _ ht, ← prevAt0_pos m c t ht]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runC m c t h2 (prevAt0 m c t).2.1 (prevAt0 m c t).2.2).2.2 Set.univ _)
      isplitl [H0]; · iexact H0
      isplitl [H2]; · iexact H2
      isplitl [H3]; · iexact H3
      isplitl [H4]; · iexact H4
      isplitl [H5]; · iexact H5
      isplitl [H6]; · iexists _; iexact H6
      isplitl [H7]; · iexact H7
      isplitl [HS]; · iexact HS
      iintro ⟨H0, H2, H3, H4, H5, ⟨%e6, H6⟩, ⟨%e7, H7⟩, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (coverC_6 m c t h2 _ _)
      unfold owns; iexists _; isplitr
      swap; · iexact H7
      ipureintro; exact View.read_writes_of_cover _ _ _ _ _ (coverC_7 m c t h2 _ _)

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl, PhiA0_eq]
  exact PhiS_any m c _ _

/-! ## The run and the frame -/

set_option backward.isDefEq.respectTransparency.types false in
/-- Every weakly fair execution of @main terminates, and every final state has each array of the pipeline at what the
    library computes from the proof data and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the run terminates, nothing faults, and the six argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Gen

end
-- ==== Proof.KI.Cases.lean ====
/-
  The grid of the one region is 2 × 2 × 4 = 16 points, the point t standing for the batch half t / 8, the phase
  (t / 4) % 2 and the hidden tile t % 4. The body has three conditionals on the point: "first tile of phase 0"
  (t % 8 = 0: the rank-8 accumulator and the readout block are zeroed), "phase 0" (t % 8 < 4: the accumulator takes the
  tile's contribution) and "phase 1" (4 ≤ t % 8: the new hidden tile is stored and the readout block takes the tile's
  contribution). Here: the three conditions decided over the grid in that closed form, where the two output windows are
  idle and where they are written back, and the names the per-case runs are stated over.
-/
import proofs.«168527_j76141180223841_2_alg».proof.Proof.Gen.KernelIdeal.Launch
import proofs.«168527_j76141180223841_2_alg».proof.Proof.Gen.KernelIdeal.Skeleton
import proofs.«168527_j76141180223841_2_alg».proof.Proof.Gen.KernelIdeal.Points
import proofs.«168527_j76141180223841_2_alg».proof.Proof.Gen.KernelIdeal.Frame
import Idealize.ShloMosaic.Lib.Pipeline.FrameBody
import Idealize.ShloMosaic.Lib.Pipeline.TableIdle
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The three conditions of the body, decided over the grid -/

/-- "first tile of phase 0". -/
abbrev cond0_0 (i : grid0.Coords) : Prop := k0_cond1 i = 1#1
/-- "phase 0", the scalar chain the body computes. -/
abbrev cond0_1 (i : grid0.Coords) : Prop :=
  (Scalar.cmpi .ne (Scalar.extui (Scalar.cmpi .eq (BitVec.ofNat 32 (i 1).val) 0#32)) 0#32) = 1#1
/-- "phase 1". -/
abbrev cond0_2 (i : grid0.Coords) : Prop := k0_cond3 i = 1#1

theorem hcond0_0 : ∀ t : Fin cfg0.N, cond0_0 (grid0.coords t) ↔ t.val % 8 = 0 :=
  (by decide +kernel : ∀ t : Fin grid0.N, cond0_0 (grid0.coords t) ↔ t.val % 8 = 0)
theorem hcond0_1 : ∀ t : Fin cfg0.N, cond0_1 (grid0.coords t) ↔ t.val % 8 < 4 :=
  (by decide +kernel : ∀ t : Fin grid0.N, cond0_1 (grid0.coords t) ↔ t.val % 8 < 4)
theorem hcond0_2 : ∀ t : Fin cfg0.N, cond0_2 (grid0.coords t) ↔ 4 ≤ t.val % 8 :=
  (by decide +kernel : ∀ t : Fin grid0.N, cond0_2 (grid0.coords t) ↔ 4 ≤ t.val % 8)

/-! ## Where the windows are idle, written back, and fresh -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl

/-- In phase 0 the new-hidden window is idle and not written back. -/
theorem idleAt0_6 : ∀ t : Fin cfg0.N, t.val % 8 < 4 → cfg0.idle 6 (grid0.coords t) = true ∧ (cfg0.win 6).flush t = false :=
  (by decide +kernel : ∀ t : Fin grid0.N, t.val % 8 < 4 → cfg0.idle 6 (grid0.coords t) = true ∧ (cfg0.win 6).flush t = false)
/-- In phase 1 it is live. -/
theorem liveAt0_6 : ∀ t : Fin cfg0.N, 4 ≤ t.val % 8 → cfg0.idle 6 (grid0.coords t) = false :=
  (by decide +kernel : ∀ t : Fin grid0.N, 4 ≤ t.val % 8 → cfg0.idle 6 (grid0.coords t) = false)
/-- At the later tiles of phase 0 the readout window is idle and not written back. -/
theorem idleAt0_7 : ∀ t : Fin cfg0.N, t.val % 8 ≠ 0 → t.val % 8 < 4 → cfg0.idle 7 (grid0.coords t) = true ∧ (cfg0.win 7).flush t = false :=
  (by decide +kernel : ∀ t : Fin grid0.N, t.val % 8 ≠ 0 → t.val % 8 < 4 → cfg0.idle 7 (grid0.coords t) = true ∧ (cfg0.win 7).flush t = false)
/-- At the first tile of phase 0 and in phase 1 it is live. -/
theorem liveAt0_7 : ∀ t : Fin cfg0.N, (t.val % 8 = 0 ∨ 4 ≤ t.val % 8) → cfg0.idle 7 (grid0.coords t) = false :=
  (by decide +kernel : ∀ t : Fin grid0.N, (t.val % 8 = 0 ∨ 4 ≤ t.val % 8) → cfg0.idle 7 (grid0.coords t) = false)
/-- In phase 1 the readout window's buffer holds what the body stored since the last write-back. -/
theorem stale0_7 : ∀ t : Fin cfg0.N, 4 ≤ t.val % 8 → cfg0.fresh 7 t.val = false :=
  (by decide +kernel : ∀ t : Fin grid0.N, 4 ≤ t.val % 8 → cfg0.fresh 7 t.val = false)
/-- The new-hidden window is written back exactly in phase 1, the readout window at the last tile of phase 1. -/
theorem flushAt0_6 : ∀ t : Fin cfg0.N, (cfg0.win 6).flush t = true ↔ 4 ≤ t.val % 8 :=
  (by decide +kernel : ∀ t : Fin grid0.N, (cfg0.win 6).flush t = true ↔ 4 ≤ t.val % 8)

/-! ## The staging memrefs at a point, and the scratch -/

abbrev ms0_0 (t : Fin cfg0.N) : Memref sig .tc .vmem S256x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x16 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x16 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x8 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S4x2048 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x2048 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x4 .f32 := win0_7.stage (cfg0.slots t 7)
abbrev hs0_7 (t : Fin cfg0.N) : (ms0_7 t).IsWhole := hstage0_7 ((cfg0.slots t 7).cast nbuf0_7)
/-- The rank-8 accumulator: a whole scoped buffer of the kernel's own. -/
abbrev scM0_0 : Memref sig .tc .vmem S256x8 .f32 := Memref.whole cc0_scratch0

/-- The region's invariant with the accumulator as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Gen

end
-- ==== Proof.KI.RunA.lean ====
/-
  The body at the first tile of phase 0 (t % 8 = 0): it zeroes the rank-8 accumulator and the readout block, then adds
  the tile's contribution tanh(hidden tile) · (R tile)ᵀ onto the accumulator. It reads the hidden-state tile and the R
  tile, and leaves the other windows untouched.
-/
import proofs.«168527_j76141180223841_2_alg».proof.Proof.KI.Cases

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the readout block's buffer (`L7`) and in the accumulator (`LS0`) at a point
    of this case, with the run that finds them: from the two tiles it reads at their contents, the readout buffer and the
    accumulator at anything, to the continuation holding the tiles as they were and the two written buffers. -/
noncomputable def kernelRun0_A (c : Dev nD) (i : grid0.Coords) (arg3 : Memref sig .tc .vmem S256x2048 .f32) (harg3 : arg3.IsWhole) (arg4 : Memref sig .tc .vmem S8x2048 .f32) (harg4 : arg4.IsWhole) (arg5 : Memref sig .tc .vmem S256x16 .f32) (harg5 : arg5.IsWhole) (arg6 : Memref sig .tc .vmem S2048x16 .f32) (harg6 : arg6.IsWhole) (arg7 : Memref sig .tc .vmem S2048x8 .f32) (harg7 : arg7.IsWhole) (arg8 : Memref sig .tc .vmem S4x2048 .f32) (harg8 : arg8.IsWhole) (arg9 : Memref sig .tc .vmem S256x2048 .f32) (harg9 : arg9.IsWhole) (arg10 : Memref sig .tc .vmem S256x4 .f32) (harg10 : arg10.IsWhole) (arg11 : Memref sig .tc .vmem S256x8 .f32) (harg11 : arg11.IsWhole) (hc0 : cond0_0 i) (hc1 : cond0_1 i) (hc2 : ¬cond0_2 i)
    (x0 : Vec F S256x2048 .f32) (x1 : Vec F S8x2048 .f32) :
    Σ' (L7 : List (View.Piece (Elt F) S256x4 .f32)), { LS0 : List (View.Piece (Elt F) S256x8 .f32) //
      ∀ (E : Set ℕ) (K : PUnit → sProp 𝕄),
        iprop(owns (c : Thread nD τ) arg3 fullShare x0 ∗ owns (c : Thread nD τ) arg4 fullShare x1 ∗ (∃ d, owns (c : Thread nD τ) arg10 fullShare d) ∗ (∃ d, owns (c : Thread nD τ) arg11 fullShare d)
            ∗ (iprop(owns (c : Thread nD τ) arg3 fullShare x0 ∗ owns (c : Thread nD τ) arg4 fullShare x1 ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f LS0)) -∗ K ⟨⟩))
          ⊢ wp frame (wpE (defs₀ (F := F)) Variants.none c none) E (cc0__kernel i arg3 harg3 arg4 harg4 arg5 harg5 arg6 harg6 arg7 harg7 arg8 harg8 arg9 harg9 arg10 harg10 arg11 harg11) K } := by
  refine ⟨?_, ?_, fun E K => ?run⟩
  case run =>
    simp only [cc0__kernel_eq_skeleton]; unfold cc0__kernel_skel
    unfold owns
    iintro ⟨⟨%f0, %hf0, H0⟩, ⟨%f1, %hf1, H1⟩, ⟨%d7, %f7, -, H7⟩, ⟨%ds0, %fs0, -, HS0⟩, Hk⟩
    obtain rfl := harg3.eq_unread hf0; obtain rfl := harg4.eq_unread hf1
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H7]; · iexists _; iexact H7
    iexists _; iexact HS0

end Cert.KernelIdeal.Gen

end
-- ==== Proof.KI.RunB.lean ====
/-
  The body at a later tile of phase 0 (t % 8 = 1, 2, 3): it adds the tile's contribution tanh(hidden tile) · (R tile)ᵀ
  onto the rank-8 accumulator, which it finds at what the tile before left. It reads the hidden-state tile and the R
  tile, and leaves the other windows untouched.
-/
import proofs.«168527_j76141180223841_2_alg».proof.Proof.KI.RunA

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's store leaves in the accumulator (`LS0`) at a point of this case, with the run that finds
    them: from the two tiles at their contents and the accumulator at `xs0`. -/
noncomputable def kernelRun0_B (c : Dev nD) (i : grid0.Coords) (arg3 : Memref sig .tc .vmem S256x2048 .f32) (harg3 : arg3.IsWhole) (arg4 : Memref sig .tc .vmem S8x2048 .f32) (harg4 : arg4.IsWhole) (arg5 : Memref sig .tc .vmem S256x16 .f32) (harg5 : arg5.IsWhole) (arg6 : Memref sig .tc .vmem S2048x16 .f32) (harg6 : arg6.IsWhole) (arg7 : Memref sig .tc .vmem S2048x8 .f32) (harg7 : arg7.IsWhole) (arg8 : Memref sig .tc .vmem S4x2048 .f32) (harg8 : arg8.IsWhole) (arg9 : Memref sig .tc .vmem S256x2048 .f32) (harg9 : arg9.IsWhole) (arg10 : Memref sig .tc .vmem S256x4 .f32) (harg10 : arg10.IsWhole) (arg11 : Memref sig .tc .vmem S256x8 .f32) (harg11 : arg11.IsWhole) (hc0 : ¬cond0_0 i) (hc1 : cond0_1 i) (hc2 : ¬cond0_2 i)
    (x0 : Vec F S256x2048 .f32) (x1 : Vec F S8x2048 .f32) (xs0 : Vec F S256x8 .f32) :
    { LS0 : List (View.Piece (Elt F) S256x8 .f32) //
      ∀ (E : Set ℕ) (K : PUnit → sProp 𝕄),
        iprop(owns (c : Thread nD τ) arg3 fullShare x0 ∗ owns (c : Thread nD τ) arg4 fullShare x1 ∗ owns (c : Thread nD τ) arg11 fullShare xs0
            ∗ (iprop(owns (c : Thread nD τ) arg3 fullShare x0 ∗ owns (c : Thread nD τ) arg4 fullShare x1 ∗ (∃ f, arg11.view.loc (c : Thread nD τ) ↦[arg11.view.set]{fullShare} arg11.view.writes (Elt F) f LS0)) -∗ K ⟨⟩))
          ⊢ wp frame (wpE (defs₀ (F := F)) Variants.none c none) E (cc0__kernel i arg3 harg3 arg4 harg4 arg5 harg5 arg6 harg6 arg7 harg7 arg8 harg8 arg9 harg9 arg10 harg10 arg11 harg11) K } := by
  refine ⟨?_, fun E K => ?run⟩
  case run =>
    simp only [cc0__kernel_eq_skeleton]; unfold cc0__kernel_skel
    unfold owns
    iintro ⟨⟨%f0, %hf0, H0⟩, ⟨%f1, %hf1, H1⟩, ⟨%fs0, %hfs0, HS0⟩, Hk⟩
    obtain rfl := harg3.eq_unread hf0; obtain rfl := harg4.eq_unread hf1; obtain rfl := harg11.eq_unread hfs0
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    iexists _; iexact HS0

end Cert.KernelIdeal.Gen

end
-- ==== Proof.KI.RunC.lean ====
/-
  The body in phase 1 (4 ≤ t % 8): from the hidden-state tile, the input block, the tiles of the input weights, of L and
  of the readout weights, and the finished rank-8 accumulator, it stores the new hidden tile and adds the tile's
  contribution onto the readout block, which it finds at what the point before left. The accumulator is only read.
-/
import proofs.«168527_j76141180223841_2_alg».proof.Proof.KI.RunB

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the new-hidden tile's buffer (`L6`) and in the readout block's (`L7`) at a
    point of this case, with the run that finds them. -/
noncomputable def kernelRun0_C (c : Dev nD) (i : grid0.Coords) (arg3 : Memref sig .tc .vmem S256x2048 .f32) (harg3 : arg3.IsWhole) (arg4 : Memref sig .tc .vmem S8x2048 .f32) (harg4 : arg4.IsWhole) (arg5 : Memref sig .tc .vmem S256x16 .f32) (harg5 : arg5.IsWhole) (arg6 : Memref sig .tc .vmem S2048x16 .f32) (harg6 : arg6.IsWhole) (arg7 : Memref sig .tc .vmem S2048x8 .f32) (harg7 : arg7.IsWhole) (arg8 : Memref sig .tc .vmem S4x2048 .f32) (harg8 : arg8.IsWhole) (arg9 : Memref sig .tc .vmem S256x2048 .f32) (harg9 : arg9.IsWhole) (arg10 : Memref sig .tc .vmem S256x4 .f32) (harg10 : arg10.IsWhole) (arg11 : Memref sig .tc .vmem S256x8 .f32) (harg11 : arg11.IsWhole) (hc0 : ¬cond0_0 i) (hc1 : ¬cond0_1 i) (hc2 : cond0_2 i)
    (x0 : Vec F S256x2048 .f32) (x2 : Vec F S256x16 .f32) (x3 : Vec F S2048x16 .f32) (x4 : Vec F S2048x8 .f32) (x5 : Vec F S4x2048 .f32)
    (xo7 : Vec F S256x4 .f32) (xs0 : Vec F S256x8 .f32) :
    Σ' (L6 : List (View.Piece (Elt F) S256x2048 .f32)), { L7 : List (View.Piece (Elt F) S256x4 .f32) //
      ∀ (E : Set ℕ) (K : PUnit → sProp 𝕄),
        iprop(owns (c : Thread nD τ) arg3 fullShare x0 ∗ owns (c : Thread nD τ) arg5 fullShare x2 ∗ owns (c : Thread nD τ) arg6 fullShare x3 ∗ owns (c : Thread nD τ) arg7 fullShare x4 ∗ owns (c : Thread nD τ) arg8 fullShare x5
            ∗ (∃ d, owns (c : Thread nD τ) arg9 fullShare d) ∗ owns (c : Thread nD τ) arg10 fullShare xo7 ∗ owns (c : Thread nD τ) arg11 fullShare xs0
            ∗ (iprop(owns (c : Thread nD τ) arg3 fullShare x0 ∗ owns (c : Thread nD τ) arg5 fullShare x2 ∗ owns (c : Thread nD τ) arg6 fullShare x3 ∗ owns (c : Thread nD τ) arg7 fullShare x4 ∗ owns (c : Thread nD τ) arg8 fullShare x5
                ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f L7) ∗ owns (c : Thread nD τ) arg11 fullShare xs0) -∗ K ⟨⟩))
          ⊢ wp frame (wpE (defs₀ (F := F)) Variants.none c none) E (cc0__kernel i arg3 harg3 arg4 harg4 arg5 harg5 arg6 harg6 arg7 harg7 arg8 harg8 arg9 harg9 arg10 harg10 arg11 harg11) K } := by
  refine ⟨?_, ?_, fun E K => ?run⟩
  case run =>
    simp only [cc0__kernel_eq_skeleton]; unfold cc0__kernel_skel
    unfold owns
    iintro ⟨⟨%f0, %hf0, H0⟩, ⟨%f2, %hf2, H2⟩, ⟨%f3, %hf3, H3⟩, ⟨%f4, %hf4, H4⟩, ⟨%f5, %hf5, H5⟩, ⟨%d6, %f6, -, H6⟩, ⟨%f7, %hf7, H7⟩, ⟨%fs0, %hfs0, HS0⟩, Hk⟩
    obtain rfl := harg3.eq_unread hf0; obtain rfl := harg5.eq_unread hf2; obtain rfl := harg6.eq_unread hf3
    obtain rfl := harg7.eq_unread hf4; obtain rfl := harg8.eq_unread hf5; obtain rfl := harg10.eq_unread hf7
    obtain rfl := harg11.eq_unread hfs0
    sl_exec (disch := first | exact hc0 | exact hc1 | exact hc2)
    sl_step
    iapply Hk
    isplitl [H0]
    · iexists _; isplitr; · ipureintro; exact harg3.read_unread _
      iexact H0
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    isplitl [H7]; · iexists _; iexact H7
    iexists _; isplitr; · ipureintro; exact harg11.read_unread _
    iexact HS0

end Cert.KernelIdeal.Gen

end
-- ==== Proof.KI.Frame.lean ====
/-
  The frame of the region, and what its two output windows' buffers and the rank-8 accumulator hold after every point.

  After point t (batch half t / 8, phase (t / 4) % 2, tile t % 4) the three carried buffers are, by recursion on t:
    first tile of phase 0:  new-hidden buffer as before · readout block zeroed · accumulator = 0 + this tile's contribution
    later tile of phase 0:  new-hidden buffer as before · readout block as before · accumulator = before + this tile's
    phase 1:                new-hidden buffer = the Euler step of this tile · readout block = before + this tile's ·
                            accumulator as before.
  Each "what the stores leave" is the pieces the case's run found, read back; the pipeline's proof data states them, the
  body obligation is the three runs, and the library's frame run concludes.
-/
import proofs.«168527_j76141180223841_2_alg».proof.Proof.KI.RunC

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What each case leaves -/

/-- One staging buffer of each output window and the accumulator, as views through which contents are stated. -/
abbrev VO0_6 : View sig .tc .vmem S256x2048 .f32 := (Memref.whole cc0_stg6_0 : Memref sig .tc .vmem S256x2048 .f32).view
abbrev VO0_7 : View sig .tc .vmem S256x4 .f32 := (Memref.whole cc0_stg7_0 : Memref sig .tc .vmem S256x4 .f32).view
abbrev VS0_0 : View sig .tc .vmem S256x8 .f32 := scM0_0.view

/-- The run of the first-tile case at point `t`, on the point's staging buffers and blocks. -/
abbrev runA (c : Dev nD) (t : Fin cfg0.N) (h0 : t.val % 8 = 0) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _)
    ((hcond0_0 t).mpr h0) ((hcond0_1 t).mpr (by omega)) (fun hh => absurd ((hcond0_2 t).mp hh) (by omega))
    (iblk m c 0 t) (iblk m c 1 t)

/-- The run of the later-tiles case at point `t`, the accumulator found at `xs`. -/
abbrev runB (c : Dev nD) (t : Fin cfg0.N) (h0 : t.val % 8 ≠ 0) (h1 : t.val % 8 < 4) (xs : Vec F S256x8 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _)
    (fun hh => h0 ((hcond0_0 t).mp hh)) ((hcond0_1 t).mpr h1) (fun hh => absurd ((hcond0_2 t).mp hh) (by omega))
    (iblk m c 0 t) (iblk m c 1 t) xs

/-- The run of the phase-1 case at point `t`, the readout block found at `xo` and the accumulator at `xs`. -/
abbrev runC (c : Dev nD) (t : Fin cfg0.N) (h2 : 4 ≤ t.val % 8) (xo : Vec F S256x4 .f32) (xs : Vec F S256x8 .f32) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _)
    (fun hh => absurd ((hcond0_0 t).mp hh) (by omega)) (fun hh => absurd ((hcond0_1 t).mp hh) (by omega)) ((hcond0_2 t).mpr h2)
    (iblk m c 0 t) (iblk m c 2 t) (iblk m c 3 t) (iblk m c 4 t) (iblk m c 5 t) xo xs

def outA_7 (c : Dev nD) (t : Fin cfg0.N) (h0 : t.val % 8 = 0) : Vec F S256x4 .f32 :=
  VO0_7.read (Elt F) (VO0_7.writes (Elt F) VO0_7.junk (runA m c t h0).1)
def soutA (c : Dev nD) (t : Fin cfg0.N) (h0 : t.val % 8 = 0) : Vec F S256x8 .f32 :=
  VS0_0.read (Elt F) (VS0_0.writes (Elt F) VS0_0.junk (runA m c t h0).2.1)
def soutB (c : Dev nD) (t : Fin cfg0.N) (h0 : t.val % 8 ≠ 0) (h1 : t.val % 8 < 4) (xs : Vec F S256x8 .f32) : Vec F S256x8 .f32 :=
  VS0_0.read (Elt F) (VS0_0.writes (Elt F) VS0_0.junk (runB m c t h0 h1 xs).1)
def outC_6 (c : Dev nD) (t : Fin cfg0.N) (h2 : 4 ≤ t.val % 8) (xo : Vec F S256x4 .f32) (xs : Vec F S256x8 .f32) : Vec F S256x2048 .f32 :=
  VO0_6.read (Elt F) (VO0_6.writes (Elt F) VO0_6.junk (runC m c t h2 xo xs).1)
def outC_7 (c : Dev nD) (t : Fin cfg0.N) (h2 : 4 ≤ t.val % 8) (xo : Vec F S256x4 .f32) (xs : Vec F S256x8 .f32) : Vec F S256x4 .f32 :=
  VO0_7.read (Elt F) (VO0_7.writes (Elt F) VO0_7.junk (runC m c t h2 xo xs).2.1)

/-- Each case's pieces cover the buffer they are stored into: one whole-buffer store (the last) tiles it. -/
theorem coverA_7 (c : Dev nD) (t : Fin cfg0.N) (h0 : t.val % 8 = 0) (y : S256x4.Idx) : ∃ pc ∈ (runA m c t h0).1, y ∈ pc.1.set :=
  View.cover_of_tiledL (runA m c t h0).1 S256x4.size (by sl_kernel_rfl) y
theorem scoverA (c : Dev nD) (t : Fin cfg0.N) (h0 : t.val % 8 = 0) (y : S256x8.Idx) : ∃ pc ∈ (runA m c t h0).2.1, y ∈ pc.1.set :=
  View.cover_of_tiledL (runA m c t h0).2.1 S256x8.size (by sl_kernel_rfl) y
theorem scoverB (c : Dev nD) (t : Fin cfg0.N) (h0 : t.val % 8 ≠ 0) (h1 : t.val % 8 < 4) (xs : Vec F S256x8 .f32) (y : S256x8.Idx) :
    ∃ pc ∈ (runB m c t h0 h1 xs).1, y ∈ pc.1.set :=
  View.cover_of_tiledL (runB m c t h0 h1 xs).1 S256x8.size (by sl_kernel_rfl) y
theorem coverC_6 (c : Dev nD) (t : Fin cfg0.N) (h2 : 4 ≤ t.val % 8) (xo : Vec F S256x4 .f32) (xs : Vec F S256x8 .f32) (y : S256x2048.Idx) :
    ∃ pc ∈ (runC m c t h2 xo xs).1, y ∈ pc.1.set :=
  View.cover_of_tiledL (runC m c t h2 xo xs).1 S256x2048.size (by sl_kernel_rfl) y
theorem coverC_7 (c : Dev nD) (t : Fin cfg0.N) (h2 : 4 ≤ t.val % 8) (xo : Vec F S256x4 .f32) (xs : Vec F S256x8 .f32) (y : S256x4.Idx) :
    ∃ pc ∈ (runC m c t h2 xo xs).2.1, y ∈ pc.1.set :=
  View.cover_of_tiledL (runC m c t h2 xo xs).2.1 S256x4.size (by sl_kernel_rfl) y

/-! ## The three carried buffers, point by point -/

/-- New-hidden buffer, readout block, accumulator. -/
abbrev St (F : FTy → Type) [FloatOps F] : Type := Vec F S256x2048 .f32 × Vec F S256x4 .f32 × Vec F S256x8 .f32

/-- Contents nothing names: what the buffers hold before the first point. -/
def junkSt : St F :=
  (VO0_6.read (Elt F) VO0_6.junk, VO0_7.read (Elt F) VO0_7.junk, VS0_0.read (Elt F) VS0_0.junk)

/-- One point's effect on the three carried buffers, by the point's case. -/
def stepAt (c : Dev nD) (t : Fin cfg0.N) (prev : St F) : St F :=
  if h0 : t.val % 8 = 0 then (prev.1, outA_7 m c t h0, soutA m c t h0)
  else if h1 : t.val % 8 < 4 then (prev.1, prev.2.1, soutB m c t h0 h1 prev.2.2)
  else (outC_6 m c t (by omega) prev.2.1 prev.2.2, outC_7 m c t (by omega) prev.2.1 prev.2.2, prev.2.2)

/-- The three carried buffers after the body at position `n`. -/
def outsAt0 (c : Dev nD) : (n : ℕ) → n < cfg0.N → St F
  | 0, hn => stepAt m c ⟨0, hn⟩ junkSt
  | n + 1, hn => stepAt m c ⟨n + 1, hn⟩ (outsAt0 c n (Nat.lt_of_succ_lt hn))

/-- What the body finds at `t`: what the point before left, or unnamed contents at the first point. -/
def prevAt0 (c : Dev nD) (t : Fin cfg0.N) : St F :=
  if h : t.val = 0 then junkSt else outsAt0 m c (t.val - 1) (Nat.lt_of_le_of_lt (Nat.sub_le _ _) t.isLt)

theorem outsAt0_step (c : Dev nD) (t : Fin cfg0.N) : outsAt0 m c t.val t.isLt = stepAt m c t (prevAt0 m c t) := by
  obtain ⟨n, hn⟩ := t
  cases n with
  | zero => rfl
  | succ n => rfl

theorem prevAt0_pos (c : Dev nD) (t : Fin cfg0.N) (ht : t.val ≠ 0) :
    prevAt0 m c t = outsAt0 m c (t.val - 1) (Nat.lt_of_le_of_lt (Nat.sub_le _ _) t.isLt) := dif_neg ht

theorem stepAt_A (c : Dev nD) (t : Fin cfg0.N) (prev : St F) (h0 : t.val % 8 = 0) :
    stepAt m c t prev = (prev.1, outA_7 m c t h0, soutA m c t h0) := dif_pos h0
theorem stepAt_B (c : Dev nD) (t : Fin cfg0.N) (prev : St F) (h0 : t.val % 8 ≠ 0) (h1 : t.val % 8 < 4) :
    stepAt m c t prev = (prev.1, prev.2.1, soutB m c t h0 h1 prev.2.2) := (dif_neg h0).trans (dif_pos h1)
theorem stepAt_C (c : Dev nD) (t : Fin cfg0.N) (prev : St F) (h2 : 4 ≤ t.val % 8) :
    stepAt m c t prev = (outC_6 m c t h2 prev.2.1 prev.2.2, outC_7 m c t h2 prev.2.1 prev.2.2, prev.2.2) :=
  (dif_neg (by omega)).trans (dif_neg (by omega))

/-! ## The invariant: the accumulator at what the point before left -/

def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2)) ∗ (∃ r, prngReg c r)) := by
  cases n with
  | zero => exact absurd rfl hz
  | succ n => rfl

/-- At any point the invariant holds the accumulator at SOME contents. -/
theorem PhiS_any (c : Dev nD) (n : ℕ) (h : n ≤ cfg0.N) :
    PhiS m c n h ⊢ iprop(iprop((∃ d, owns (c : Thread nD τ) scM0_0 fullShare d)) ∗ (∃ r, prngReg c r)) := by
  cases n with
  | zero => rw [PhiS_zero m c 0 h rfl, PhiA0_eq]
  | succ n =>
    rw [PhiS_succ]
    iintro ⟨HS, Hg⟩
    isplitl [HS]
    · iexists _; iexact HS
    iexact Hg

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).1
    | ⟨7, _⟩ => (outsAt0 m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_6 (c : Dev nD) (t : Fin cfg0.N) : (dats m 0 c).after 6 t = (outsAt0 m c t.val t.isLt).1 := by dsimp only [dats]
theorem after0_7 (c : Dev nD) (t : Fin cfg0.N) : (dats m 0 c).after 7 t = (outsAt0 m c t.val t.isLt).2.1 := by dsimp only [dats]

theorem before0_0 (c : Dev nD) (t : Fin cfg0.N) (d) : (dats m 0 c).before 0 t d = iblk m c 0 t :=
  before0_0_of m (dats m 0 c) (A_eq m c 0) (fun _ => rfl) t d
theorem before0_1 (c : Dev nD) (t : Fin cfg0.N) (d) : (dats m 0 c).before 1 t d = iblk m c 1 t :=
  before0_1_of m (dats m 0 c) (A_eq m c 1) (fun _ => rfl) t d
theorem before0_2 (c : Dev nD) (t : Fin cfg0.N) (d) : (dats m 0 c).before 2 t d = iblk m c 2 t :=
  before0_2_of m (dats m 0 c) (A_eq m c 2) (fun _ => rfl) t d
theorem before0_3 (c : Dev nD) (t : Fin cfg0.N) (d) : (dats m 0 c).before 3 t d = iblk m c 3 t :=
  before0_3_of m (dats m 0 c) (A_eq m c 3) (fun _ => rfl) t d
theorem before0_4 (c : Dev nD) (t : Fin cfg0.N) (d) : (dats m 0 c).before 4 t d = iblk m c 4 t :=
  before0_4_of m (dats m 0 c) (A_eq m c 4) (fun _ => rfl) t d
theorem before0_5 (c : Dev nD) (t : Fin cfg0.N) (d) : (dats m 0 c).before 5 t d = iblk m c 5 t :=
  before0_5_of m (dats m 0 c) (A_eq m c 5) (fun _ => rfl) t d

theorem leaves0_0 (c : Dev nD) (t : Fin cfg0.N) :
    (dats m 0 c).leavesExact 0 t = owns (c : Thread nD τ) (ms0_0 t) fullShare (iblk m c 0 t) := by
  unfold Dat.leavesExact; rw [liveAt0_0 t]; rfl
theorem leaves0_1 (c : Dev nD) (t : Fin cfg0.N) :
    (dats m 0 c).leavesExact 1 t = owns (c : Thread nD τ) (ms0_1 t) fullShare (iblk m c 1 t) := by
  unfold Dat.leavesExact; rw [liveAt0_1 t]; rfl
theorem leaves0_2 (c : Dev nD) (t : Fin cfg0.N) :
    (dats m 0 c).leavesExact 2 t = owns (c : Thread nD τ) (ms0_2 t) fullShare (iblk m c 2 t) := by
  unfold Dat.leavesExact; rw [liveAt0_2 t]; rfl
theorem leaves0_3 (c : Dev nD) (t : Fin cfg0.N) :
    (dats m 0 c).leavesExact 3 t = owns (c : Thread nD τ) (ms0_3 t) fullShare (iblk m c 3 t) := by
  unfold Dat.leavesExact; rw [liveAt0_3 t]; rfl
theorem leaves0_4 (c : Dev nD) (t : Fin cfg0.N) :
    (dats m 0 c).leavesExact 4 t = owns (c : Thread nD τ) (ms0_4 t) fullShare (iblk m c 4 t) := by
  unfold Dat.leavesExact; rw [liveAt0_4 t]; rfl
theorem leaves0_5 (c : Dev nD) (t : Fin cfg0.N) :
    (dats m 0 c).leavesExact 5 t = owns (c : Thread nD τ) (ms0_5 t) fullShare (iblk m c 5 t) := by
  unfold Dat.leavesExact; rw [liveAt0_5 t]; rfl

/-- Where the readout window is idle: the later tiles of phase 0. -/
theorem idle0_7_iff : ∀ t : Fin cfg0.N, cfg0.idle 7 (grid0.coords t) = true → t.val % 8 ≠ 0 ∧ t.val % 8 < 4 :=
  (by decide +kernel : ∀ t : Fin grid0.N, cfg0.idle 7 (grid0.coords t) = true → t.val % 8 ≠ 0 ∧ t.val % 8 < 4)

/-- In phase 1 the body finds the readout block at what the point before left: the readout window is never fetched,
    not written back between, and through the idle tiles of phase 0 its stated contents are carried. -/
theorem before0_7_C (c : Dev nD) (t : Fin cfg0.N) (h2 : 4 ≤ t.val % 8) (d) :
    (dats m 0 c).before 7 t d = (prevAt0 m c t).2.1 := by
  have ht : t.val ≠ 0 := by omega
  rw [(dats m 0 c).before_out_traj 7 rfl (fun _ _ => rfl)
    (fun u hu hi _ => by
      obtain ⟨h0, h1⟩ := idle0_7_iff u hi
      rw [after0_7, after0_7, outsAt0_step, stepAt_B m c u _ h0 h1, prevAt0_pos m c u hu]) t.val t rfl d,
    stale0_7 t h2, if_neg Bool.false_ne_true, after0_7, prevAt0_pos m c t ht]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t
    ∗ (dats m 0 c).leavesExact 6 t ∗ (dats m 0 c).leavesExact 7 t)

set_option maxHeartbeats 4800000 in
/-- The body at any point: the point's case by its position in the batch half; the inputs' buffers hold their blocks;
    an idle output's buffer is handed back as found; the accumulator comes from the invariant and goes back at this
    point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3, leaves0_4, leaves0_5]
  rw [PhiS_castSucc m c t]
  by_cases h0 : t.val % 8 = 0
  · -- first tile of phase 0
    rw [Dat.leavesExact_idle (dats m 0 c) 6 t (idleAt0_6 t (by omega)).1 (idleAt0_6 t (by omega)).2]
    rw [show (dats m 0 c).leavesExact 7 t = owns (c : Thread nD τ) (ms0_7 t) fullShare ((dats m 0 c).after 7 t) from by
      unfold Dat.leavesExact; rw [liveAt0_7 t (Or.inl h0)], after0_7]
    rw [outsAt0_step, stepAt_A m c t _ h0]
    dsimp only
    unfold outA_7 soutA
    iintro ⟨HP, Ho, ⟨%d0, H0⟩, ⟨%d1, H1⟩, ⟨%d2, H2⟩, ⟨%d3, H3⟩, ⟨%d4, H4⟩, ⟨%d5, H5⟩, H6, ⟨%d7, H7⟩⟩
    ihave HP2 := (PhiS_any m c _ _) $$ HP
    icases HP2 with ⟨⟨%ds, HS⟩, Hg⟩
    iapply ((runA m c t h0).2.2 Set.univ _)
    isplitl [H0]; · iexact H0
    isplitl [H1]; · iexact H1
    isplitl [H7]; · iexists _; iexact H7
    isplitl [HS]; · iexists _; iexact HS
    iintro ⟨H0, H1, ⟨%e7, H7⟩, ⟨%es, HS⟩⟩
    isplitl [HS Hg]
    · isplitl [HS]
      · unfold owns; iexists _; isplitr
        swap; · iexact HS
        ipureintro; exact View.read_writes_of_cover _ _ _ _ _ (scoverA m c t h0)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact View.read_writes_of_cover _ _ _ _ _ (coverA_7 m c t h0)
  · by_cases h1 : t.val % 8 < 4
    · -- a later tile of phase 0
      have ht : t.val ≠ 0 := fun h => h0 (by rw [h])
      rw [Dat.leavesExact_idle (dats m 0 c) 6 t (idleAt0_6 t h1).1 (idleAt0_6 t h1).2]
      rw [Dat.leavesExact_idle (dats m 0 c) 7 t (idleAt0_7 t h0 h1).1 (idleAt0_7 t h0 h1).2]
      rw [outsAt0_step, stepAt_B m c t _ h0 h1]
      dsimp only
      unfold soutB
      rw [PhiS_pos m c _ _ ht, ← prevAt0_pos m c t ht]
      iintro ⟨⟨HS, Hg⟩, Ho, ⟨%d0, H0⟩, ⟨%d1, H1⟩, ⟨%d2, H2⟩, ⟨%d3, H3⟩, ⟨%d4, H4⟩, ⟨%d5, H5⟩, H6, H7⟩
      iapply ((runB m c t h0 h1 (prevAt0 m c t).2.2).2 Set.univ _)
      isplitl [H0]; · iexact H0
      isplitl [H1]; · iexact H1
      isplitl [HS]; · iexact HS
      iintro ⟨H0, H1, ⟨%es, HS⟩⟩
      isplitl [HS Hg]
      · isplitl [HS]
        · unfold owns; iexists _; isplitr
          swap; · iexact HS
          ipureintro; exact View.read_writes_of_cover _ _ _ _ _ (scoverB m c t h0 h1 _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · -- phase 1
      have h2 : 4 ≤ t.val % 8 := by omega
      have ht : t.val ≠ 0 := fun h => h0 (by rw [h])
      rw [show (dats m 0 c).leavesExact 6 t = owns (c : Thread nD τ) (ms0_6 t) fullShare ((dats m 0 c).after 6 t) from by
        unfold Dat.leavesExact; rw [liveAt0_6 t h2], after0_6]
      rw [show (dats m 0 c).leavesExact 7 t = owns (c : Thread nD τ) (ms0_7 t) fullShare ((dats m 0 c).after 7 t) from by
        unfold Dat.leavesExact; rw [liveAt0_7 t (Or.inr h2)], after0_7]
      simp only [before0_7_C m c t h2]
      rw [outsAt0_step, stepAt_C m c t _ h2]
      dsimp only
      unfold outC_6 outC_7
      rw [PhiS_pos m c _ _ ht, ← prevAt0_pos m c t ht]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runC m c t h2 (prevAt0 m c t).2.1 (prevAt0 m c t).2.2).2.2 Set.univ _)
      isplitl [H0]; · iexact H0
      isplitl [H2]; · iexact H2
      isplitl [H3]; · iexact H3
      isplitl [H4]; · iexact H4
      isplitl [H5]; · iexact H5
      isplitl [H6]; · iexists _; iexact H6
      isplitl [H7]; · iexact H7
      isplitl [HS]; · iexact HS
      iintro ⟨H0, H2, H3, H4, H5, ⟨%e6, H6⟩, ⟨%e7, H7⟩, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (coverC_6 m c t h2 _ _)
      unfold owns; iexists _; isplitr
      swap; · iexact H7
      ipureintro; exact View.read_writes_of_cover _ _ _ _ _ (coverC_7 m c t h2 _ _)

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl, PhiA0_eq]
  exact PhiS_any m c _ _

/-! ## The run and the frame -/

set_option backward.isDefEq.respectTransparency.types false in
/-- Every weakly fair execution of @main terminates, and every final state has each array of the pipeline at what the
    library computes from the proof data and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the run terminates, nothing faults, and the six argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Gen

end
-- ==== Proof.KI.Pieces.lean ====
/-
  What each case's stores leave, as the body's own arithmetic of the blocks it read: the zeroed readout block; the
  accumulator as "what it held plus this tile's contribution" (from zero at a first tile); the new hidden tile; and the
  readout block as "what it held plus this tile's contribution". Every load and store of the body covers its whole
  buffer, so a buffer read back after the last store is that store's value.
-/
import proofs.«168527_j76141180223841_2_alg».proof.Proof.KI.Frame
import Idealize.ShloMosaic.Lib.Pipeline.Value
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → Nat) = fun _ => 0 := funext fun a => by fin_cases a <;> rfl

/-- A later tile of phase 0 leaves the accumulator at its contribution added onto what it held. -/
theorem soutB_eq (c : Dev nD) (t : Fin cfg0.N) (h0 : t.val % 8 ≠ 0) (h1 : t.val % 8 < 4) (xs : Vec F S256x8 .f32) :
    soutB m c t h0 h1 xs = k0_pay3 (iblk m c 0 t) (iblk m c 1 t) xs := by
  unfold soutB
  rw [View.read_writes_eq_canon _ _ _ (scoverB m c t h0 h1 xs)]
  unfold runB kernelRun0_B
  dsimp only
  rw [View.canon_unit_zero hz2]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (Memref.isWhole_whole cc0_scratch0).read_unread, View.ld_unit_zero (S := S256x2048) hz2, View.ld_unit_zero (S := S8x2048) hz2, View.ld_unit_zero (S := S256x16) hz2, View.ld_unit_zero (S := S2048x16) hz2, View.ld_unit_zero (S := S2048x8) hz2, View.ld_unit_zero (S := S4x2048) hz2, View.ld_unit_zero (S := S256x4) hz2, View.ld_unit_zero (S := S256x8) hz2]

/-- The first tile of phase 0 leaves the accumulator at its contribution added onto the zero block it has just stored. -/
theorem soutA_eq (c : Dev nD) (t : Fin cfg0.N) (h0 : t.val % 8 = 0) :
    soutA m c t h0 = k0_pay3 (iblk m c 0 t) (iblk m c 1 t) (k0_pay1 (F := F)) := by
  unfold soutA
  rw [View.read_writes_eq_canon _ _ _ (scoverA m c t h0)]
  unfold runA kernelRun0_A
  dsimp only
  sl_unfold_words
  rw [View.canon_cons_unit_zero (S := S256x8) hz2, View.readCov_unit_zero (S := S256x8) _ hz2]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (Memref.isWhole_whole cc0_scratch0).read_unread, View.ld_unit_zero (S := S256x2048) hz2, View.ld_unit_zero (S := S8x2048) hz2, View.ld_unit_zero (S := S256x16) hz2, View.ld_unit_zero (S := S2048x16) hz2, View.ld_unit_zero (S := S2048x8) hz2, View.ld_unit_zero (S := S4x2048) hz2, View.ld_unit_zero (S := S256x4) hz2, View.ld_unit_zero (S := S256x8) hz2]

/-- The first tile of phase 0 leaves the readout block zeroed. -/
theorem outA_7_eq (c : Dev nD) (t : Fin cfg0.N) (h0 : t.val % 8 = 0) :
    outA_7 m c t h0 = k0_pay2 (F := F) := by
  unfold outA_7
  rw [View.read_writes_eq_canon _ _ _ (coverA_7 m c t h0)]
  unfold runA kernelRun0_A
  dsimp only
  rw [View.canon_unit_zero hz2]

/-- Phase 1 leaves the new hidden tile. -/
theorem outC_6_eq (c : Dev nD) (t : Fin cfg0.N) (h2 : 4 ≤ t.val % 8) (xo : Vec F S256x4 .f32) (xs : Vec F S256x8 .f32) :
    outC_6 m c t h2 xo xs = k0_pay4 (iblk m c 0 t) (iblk m c 2 t) (iblk m c 3 t) xs (iblk m c 4 t) := by
  unfold outC_6
  rw [View.read_writes_eq_canon _ _ _ (coverC_6 m c t h2 xo xs)]
  unfold runC kernelRun0_C
  dsimp only
  rw [View.canon_unit_zero hz2]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (Memref.isWhole_whole cc0_scratch0).read_unread, View.ld_unit_zero (S := S256x2048) hz2, View.ld_unit_zero (S := S8x2048) hz2, View.ld_unit_zero (S := S256x16) hz2, View.ld_unit_zero (S := S2048x16) hz2, View.ld_unit_zero (S := S2048x8) hz2, View.ld_unit_zero (S := S4x2048) hz2, View.ld_unit_zero (S := S256x4) hz2, View.ld_unit_zero (S := S256x8) hz2]

/-- Phase 1 leaves the readout block at the tile's contribution added onto what it held. -/
theorem outC_7_eq (c : Dev nD) (t : Fin cfg0.N) (h2 : 4 ≤ t.val % 8) (xo : Vec F S256x4 .f32) (xs : Vec F S256x8 .f32) :
    outC_7 m c t h2 xo xs = k0_pay5 (iblk m c 0 t) (iblk m c 2 t) (iblk m c 3 t) xs (iblk m c 4 t) (iblk m c 5 t) xo := by
  unfold outC_7
  rw [View.read_writes_eq_canon _ _ _ (coverC_7 m c t h2 xo xs)]
  unfold runC kernelRun0_C
  dsimp only
  rw [View.canon_unit_zero hz2]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (Memref.isWhole_whole cc0_scratch0).read_unread, View.ld_unit_zero (S := S256x2048) hz2, View.ld_unit_zero (S := S8x2048) hz2, View.ld_unit_zero (S := S256x16) hz2, View.ld_unit_zero (S := S2048x16) hz2, View.ld_unit_zero (S := S2048x8) hz2, View.ld_unit_zero (S := S4x2048) hz2, View.ld_unit_zero (S := S256x4) hz2, View.ld_unit_zero (S := S256x8) hz2]

end Cert.KernelIdeal.Gen

end
-- ==== Proof.Spec.lean ====
/-
  The low-rank recurrent step as ONE function of the six argument arrays, over the reals.

  With x : [512,16] the input, hs : [512,8192] the hidden state, Wi : [8192,16] the input weights,
  L : [8192,8] and R : [8,8192] the two low-rank factors and Wo : [4,8192] the readout weights:

    proj b r      = ∑ j, tanh (hs b j) · R r j                 (the rank-8 projection of tanh hs)
    recur b h     = ∑ r, proj b r · L h r                      (back up to the hidden width)
    drive b h     = ∑ i, x b i · Wi h i                        (the feed-forward term)
    newHidden b h = hs b h · (1 - δ) + δ · (recur b h · 2⁻¹³ + drive b h)
    readout b o   = (∑ h, tanh (newHidden b h) · Wo o h) · 2⁻¹³

  where δ is the real number the single-precision word of 0.1 encodes (13421773 / 2²⁷), so that
  1 - δ = 120795955 / 2²⁷, and 2⁻¹³ = 1/8192 is the reciprocal of the hidden width.
-/
import Idealize.ShloMosaic.Lib.ValueIdx

noncomputable section

namespace Cert.Spec

open Idealize.ShloMosaic Idealize.ShloMosaic.ValueIdx

/-- The step δ: the real the single-precision word 0x3DCCCCCD encodes. -/
def δ : ℝ := 13421773 / 134217728
/-- One minus the step. -/
def γ : ℝ := 120795955 / 134217728
/-- The reciprocal of the hidden width 8192. -/
def σ : ℝ := 1 / 8192

theorem γ_eq : γ = 1 - δ := by unfold γ δ; norm_num

variable (x : (⟨2, ![512, 16]⟩ : Shape).Idx → ℝ) (hs : (⟨2, ![512, 8192]⟩ : Shape).Idx → ℝ)
  (Wi : (⟨2, ![8192, 16]⟩ : Shape).Idx → ℝ) (L : (⟨2, ![8192, 8]⟩ : Shape).Idx → ℝ)
  (R : (⟨2, ![8, 8192]⟩ : Shape).Idx → ℝ) (Wo : (⟨2, ![4, 8192]⟩ : Shape).Idx → ℝ)

/-- The rank-8 projection of tanh of the hidden state. -/
def proj (b : Fin 512) (r : Fin 8) : ℝ := ∑ j : Fin 8192, Real.tanh (hs (ix2 b j)) * R (ix2 r j)

/-- The recurrent term before its scale: the projection expanded by L. -/
def recur (b : Fin 512) (h : Fin 8192) : ℝ := ∑ r : Fin 8, proj hs R b r * L (ix2 h r)

/-- The feed-forward term. -/
def drive (b : Fin 512) (h : Fin 8192) : ℝ := ∑ i : Fin 16, x (ix2 b i) * Wi (ix2 h i)

/-- The hidden state after one Euler step. -/
def newHidden (b : Fin 512) (h : Fin 8192) : ℝ :=
  hs (ix2 b h) * γ + δ * (recur hs L R b h * σ + drive x Wi b h)

/-- The readout of the new hidden state. -/
def readout (b : Fin 512) (o : Fin 4) : ℝ :=
  (∑ h : Fin 8192, Real.tanh (newHidden x hs Wi L R b h) * Wo (ix2 o h)) * σ

end Cert.Spec

end
-- ==== Proof.LibABt.lean ====
/-
  A matrix product with a transposed right factor, at the ideal instance, read at an entry.

  * `coe_finset_sum`: the inclusion of the reals in the extended reals commutes with a finite sum.
  * `sum_abt`: for a contraction record over shapes [m, K] × [n, K] → [m, n] with no batch axis, the rows of both operands
    free and the second axis of both contracted (A · Bᵀ), the sum over the contraction positions of the operands' products
    at the result entry (p, q) is ∑ k : Fin K, x (p, k) · y (q, k).
  * `matmul_abt`: so a matrix product of that form into the zero accumulator, over the extended reals, is that sum at
    (p, q). The record's six lists are given as equations, which `rfl` proves for a printed record.
  Generic in m, n, K and the operands' formats; imports only the library.
-/
import Idealize.ShloMosaic.Lib.ValueIdx
import Idealize.ShloMosaic.Lib.Pipeline.Value
import Idealize.ShloMosaic.PureOps.Ideal.Laws

noncomputable section

namespace Cert.LibABt

open Idealize.ShloMosaic Idealize.ShloMosaic.ValueIdx

/-! ## Finite sums of reals inside the extended reals -/

/-- The inclusion of the reals commutes with a finite sum. -/
theorem coe_finset_sum {ι : Type*} (s : Finset ι) (f : ι → ℝ) :
    ((∑ k ∈ s, f k : ℝ) : EReal) = ∑ k ∈ s, ((f k : ℝ) : EReal) := by
  classical
  refine Finset.induction_on s (by simp) fun a s ha ih => ?_
  rw [Finset.sum_insert ha, Finset.sum_insert ha, EReal.coe_add, ih]

/-! ## A product with a transposed right factor: contraction of the two second axes -/

section Dot
variable {m n K : ℕ} (D : DotDims ⟨2, ![m, K]⟩ ⟨2, ![n, K]⟩ ⟨2, ![m, n]⟩)

/-- The left operand's row is the result's row. -/
theorem lhs_row (hb : D.lhsBatch = []) (hn : D.lhsNonContracting = [0]) (j : (⟨2, ![m, n]⟩ : Shape).Idx)
    (k : D.contr.Idx) : (D.lhsIdx j k 0).val = (j 0).val := by
  unfold DotDims.lhsIdx
  rw [dif_neg (by rw [hb]; exact List.not_mem_nil), dif_pos (by rw [hn]; exact List.mem_singleton.mpr rfl)]
  simp only [Fin.val_cast]
  have key : ∀ (a b : Nat) (ha : a < 2) (hb : b < 2), a = b → (j ⟨a, ha⟩).val = (j ⟨b, hb⟩).val :=
    fun a b ha hb h => by subst h; rfl
  exact key _ _ _ _ (by simp [hb, hn])

/-- The right operand's row is the result's column. -/
theorem rhs_row (hb : D.lhsBatch = []) (hb' : D.rhsBatch = []) (hn : D.lhsNonContracting = [0]) (hn' : D.rhsNonContracting = [0])
    (j : (⟨2, ![m, n]⟩ : Shape).Idx) (k : D.contr.Idx) : (D.rhsIdx j k 0).val = (j 1).val := by
  unfold DotDims.rhsIdx
  rw [dif_neg (by rw [hb']; exact List.not_mem_nil), dif_pos (by rw [hn']; exact List.mem_singleton.mpr rfl)]
  simp only [Fin.val_cast]
  have key : ∀ (a b : Nat) (ha : a < 2) (hb : b < 2), a = b → (j ⟨a, ha⟩).val = (j ⟨b, hb⟩).val :=
    fun a b ha hb h => by subst h; rfl
  exact key _ _ _ _ (by simp [hb, hn, hn'])

end Dot

section Dot
variable {m n K : ℕ} (D : DotDims ⟨2, ![m, K]⟩ ⟨2, ![n, K]⟩ ⟨2, ![m, n]⟩)

/-- THE CONTRACTION AS A SUM OVER `Fin K`: with one contracting axis, the second of each operand, and no batch axis, the
    sum over the contraction positions of the operands' products at result index `(p, q)` is `∑ k, x (p, k) · y (q, k)`. -/
theorem sum_abt (hb : D.lhsBatch = []) (hb' : D.rhsBatch = []) (hn : D.lhsNonContracting = [0])
    (hn' : D.rhsNonContracting = [0]) (hc : D.lhsContracting = [1]) (hc' : D.rhsContracting = [1])
    (x : (⟨2, ![m, K]⟩ : Shape).Idx → EReal) (y : (⟨2, ![n, K]⟩ : Shape).Idx → EReal) (p : Fin m) (q : Fin n) :
    ∑ k : D.contr.Idx, x (D.lhsIdx (ix2 p q) k) * y (D.rhsIdx (ix2 p q) k) = ∑ k : Fin K, x (ix2 p k) * y (ix2 q k) := by
  have hr : D.contr.rank = 1 := by rw [D.rank_contr, hc]; rfl
  have hs : D.contr.size ⟨0, by omega⟩ = K := by
    rw [D.size_contr 0 (by rw [hc]; exact Nat.one_pos)]
    simp [hc]
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact lhs_row D hb hn _ _
    | ⟨1, _⟩ => exact (D.lhsIdx_val_of_single hc _ _).trans hk)
  have er : D.rhsIdx (ix2 p q) ((contrEquiv1 D K hr hs).symm k) = ix2 q k := funext fun a => Fin.ext (by
    match a with
    | ⟨0, _⟩ => exact rhs_row D hb hb' hn hn' _ _
    | ⟨1, _⟩ => exact (D.rhsIdx_val_of_single hc' _ _).trans hk)
  rw [el, er]

/-- A `tpu.matmul` into the zero accumulator, of that form, read at `(p, q)`. -/
theorem matmul_abt (hb : D.lhsBatch = []) (hb' : D.rhsBatch = []) (hn : D.lhsNonContracting = [0])
    (hn' : D.rhsNonContracting = [0]) (hc : D.lhsContracting = [1]) (hc' : D.rhsContracting = [1]) {φ₁ φ₂ : FTy}
    (x : FVec Ideal ⟨2, ![m, K]⟩ φ₁) (y : FVec Ideal ⟨2, ![n, K]⟩ φ₂) (p : Fin m) (q : Fin n) :
    matmul (F := Ideal) D none x y (constant (F := Ideal) ⟨2, ![m, n]⟩ .f32 0x00000000#32) (ix2 p q)
      = ∑ k : Fin K, x (ix2 p k) * y (ix2 q k) :=
  (Ideal.matmul_constant_zero_apply D none x y (ix2 p q)).trans (sum_abt D hb hb' hn hn' hc hc' x y p q)

end Dot

end Cert.LibABt

end
-- ==== Proof.KIPay.lean ====
/-
  The five values the kernel body stores, read at one index, on real-valued operands.

  At the ideal instance a float is an extended real, a change of format is the identity, and a matrix product into the zero
  accumulator that contracts the second axis of both operands is, at (p, q), the sum over k of x (p, k) · y (q, k). So, of
  arrays of reals read as extended reals (`up`):

    the two initialisations store 0;
    the projection step stores      acc (p, r) + ∑ k, tanh (hs (p, k)) · R (r, k);
    the state update stores         hidTile (p, q) = hs (p, q) · γ + δ · ((∑ r, proj (p, r) · L (q, r)) · σ + ∑ i, x (p, i) · Wi (q, i));
    the readout step stores         acc (p, o) + (∑ k, tanh (hidTile (p, k)) · Wo (o, k)) · σ,

  every one a real: the inclusion of the reals commutes with sums, products, `tanh` and finite sums, and the three scalar
  constants of the body are γ (a named constant), δ and σ (the words 0x3DCCCCCD and 0x39000000).
-/
import proofs.«168527_j76141180223841_2_alg».proof.Proof.Gen.KernelIdeal.Skeleton
import proofs.«168527_j76141180223841_2_alg».proof.Proof.Spec
import proofs.«168527_j76141180223841_2_alg».proof.Proof.LibABt
import Idealize.ShloMosaic.Lib.ValueIdx
import Idealize.ShloMosaic.Lib.Pipeline.Value
import Idealize.ShloMosaic.PureOps.Ideal.Laws

noncomputable section

namespace Cert.KernelIdeal.Pay

open Idealize.ShloMosaic Idealize.ShloMosaic.ValueIdx Cert.KernelIdeal Cert.KernelIdeal.Gen Cert.LibABt

/-- A real array read as extended reals. -/
abbrev up {S : Shape} (a : S.Idx → ℝ) : Vec Ideal S .f32 := fun i => ((a i : ℝ) : EReal)

/-! ## The scalar constants of the body -/

/-- The named factor of the old hidden state is `γ`, by the table of named constants. -/
theorem named_gamma :
    Named.named (F := Ideal) κ "one_minus_dt" (φ := .f32) 0x3F666666#32 = ((Cert.Spec.γ : ℝ) : EReal) :=
  IdealRules.named_const.ideal_named_scalar _ _ _ _ rfl

/-- The word `0x39000000` is `2⁻¹³`, the reciprocal of the hidden width. -/
theorem ofBits_sigma : Ideal.ofBits .f32 0x39000000#32 = ((Cert.Spec.σ : ℝ) : EReal) := by
  unfold Cert.Spec.σ
  simp [Ideal.ofBits, Ideal.ieee, -EReal.coe_mul]; norm_num

/-- The word `0x3DCCCCCD` is the step `δ`. -/
theorem ofBits_delta : Ideal.ofBits .f32 0x3DCCCCCD#32 = ((Cert.Spec.δ : ℝ) : EReal) := by
  unfold Cert.Spec.δ
  simp [Ideal.ofBits, Ideal.ieee, -EReal.coe_mul]; norm_num

/-! ## The payloads -/

/-- The first initialisation writes zero. -/
theorem pay1_eq : k0_pay1 (F := Ideal) = up (fun _ => 0) := by
  funext y
  unfold k0_pay1
  rw [shapeCast_self]
  exact Ideal.ofBits_zero_f32.trans EReal.coe_zero.symm

/-- The second initialisation writes zero. -/
theorem pay2_eq : k0_pay2 (F := Ideal) = up (fun _ => 0) := by
  funext y
  unfold k0_pay2
  exact Ideal.ofBits_zero_f32.trans EReal.coe_zero.symm

/-- The projection step: the accumulator plus `tanh` of the state tile contracted with the factor tile. -/
theorem pay3_eq (a11 : S256x2048.Idx → ℝ) (a14 : S8x2048.Idx → ℝ) (a17 : S256x8.Idx → ℝ) :
    k0_pay3 (F := Ideal) (up a11) (up a14) (up a17)
      = up (fun y => a17 y + ∑ k : Fin 2048, Real.tanh (a11 (ix2 (y 0) k)) * a14 (ix2 (y 1) k)) := by
  funext y
  obtain ⟨p, q, rfl⟩ : ∃ (p : Fin 256) (q : Fin 8), y = ix2 p q := ⟨y 0, y 1, eq_ix2 y⟩
  unfold k0_pay3
  rw [shapeCast_self]
  refine (addf_apply _ _ _).trans ?_
  refine (congrArg (up a17 (ix2 p q) + ·) (matmul_abt dot_S256x2048_S8x2048_S256x8_1_1_0_0_n_n rfl rfl rfl rfl rfl rfl _ _ p q)).trans ?_
  show ((a17 (ix2 p q) : ℝ) : EReal) + ∑ k : Fin 2048, ((Real.tanh (a11 (ix2 p k)) : ℝ) : EReal) * ((a14 (ix2 q k) : ℝ) : EReal)
    = ((a17 (ix2 p q) + ∑ k : Fin 2048, Real.tanh (a11 (ix2 p k)) * a14 (ix2 q k) : ℝ) : EReal)
  rw [EReal.coe_add, coe_finset_sum]
  simp only [EReal.coe_mul]

/-- One element of the new hidden-state tile: the old state scaled by `γ`, plus `δ` times the scaled recurrent term
    and the feed-forward term. -/
def hidTile (a11 : S256x2048.Idx → ℝ) (a12 : S256x16.Idx → ℝ) (a14 : S2048x16.Idx → ℝ) (a17 : S256x8.Idx → ℝ)
    (a19 : S2048x8.Idx → ℝ) (p : Fin 256) (q : Fin 2048) : ℝ :=
  a11 (ix2 p q) * Cert.Spec.γ + Cert.Spec.δ * ((∑ r : Fin 8, a17 (ix2 p r) * a19 (ix2 q r)) * Cert.Spec.σ
    + ∑ i : Fin 16, a12 (ix2 p i) * a14 (ix2 q i))

/-- The state update writes the new hidden-state tile. -/
theorem pay4_eq (a11 : S256x2048.Idx → ℝ) (a12 : S256x16.Idx → ℝ) (a14 : S2048x16.Idx → ℝ) (a17 : S256x8.Idx → ℝ)
    (a19 : S2048x8.Idx → ℝ) :
    k0_pay4 (F := Ideal) (up a11) (up a12) (up a14) (up a17) (up a19)
      = up (fun y => hidTile a11 a12 a14 a17 a19 (y 0) (y 1)) := by
  funext y
  obtain ⟨p, q, rfl⟩ : ∃ (p : Fin 256) (q : Fin 2048), y = ix2 p q := ⟨y 0, y 1, eq_ix2 y⟩
  unfold k0_pay4
  have h16 := matmul_abt dot_S256x16_S2048x16_S256x2048_1_1_0_0_n_n rfl rfl rfl rfl rfl rfl
    (truncf .bf16 (up a12) bitsLt_bf16_f32) (truncf .bf16 (up a14) bitsLt_bf16_f32) p q
  have h21 := matmul_abt dot_S256x8_S2048x8_S256x2048_1_1_0_0_n_n rfl rfl rfl rfl rfl rfl
    (truncf .bf16 (up a17) bitsLt_bf16_f32) (truncf .bf16 (up a19) bitsLt_bf16_f32) p q
  refine (addf_apply _ _ _).trans ?_
  refine (congrArg₂ (· + ·) (mulf_apply _ _ _) ((mulf_apply _ _ _).trans (congrArg (_ * ·) ((addf_apply _ _ _).trans
    (congrArg₂ (· + ·) ((mulf_apply _ _ _).trans (congrArg (· * _) h21)) h16))))).trans ?_
  show ((a11 (ix2 p q) : ℝ) : EReal) * Named.named (F := Ideal) κ "one_minus_dt" (φ := .f32) 0x3F666666#32
      + Ideal.ofBits .f32 0x3DCCCCCD#32 * ((∑ r : Fin 8, ((a17 (ix2 p r) : ℝ) : EReal) * ((a19 (ix2 q r) : ℝ) : EReal))
          * Ideal.ofBits .f32 0x39000000#32 + ∑ i : Fin 16, ((a12 (ix2 p i) : ℝ) : EReal) * ((a14 (ix2 q i) : ℝ) : EReal))
    = ((hidTile a11 a12 a14 a17 a19 p q : ℝ) : EReal)
  rw [named_gamma, ofBits_delta, ofBits_sigma]
  unfold hidTile
  simp only [EReal.coe_add, EReal.coe_mul, coe_finset_sum]

/-- The readout step: the accumulator plus `tanh` of the new hidden-state tile contracted with the readout tile, scaled
    by `σ`. -/
theorem pay5_eq (a11 : S256x2048.Idx → ℝ) (a12 : S256x16.Idx → ℝ) (a14 : S2048x16.Idx → ℝ) (a17 : S256x8.Idx → ℝ)
    (a19 : S2048x8.Idx → ℝ) (a33 : S4x2048.Idx → ℝ) (a38 : S256x4.Idx → ℝ) :
    k0_pay5 (F := Ideal) (up a11) (up a12) (up a14) (up a17) (up a19) (up a33) (up a38)
      = up (fun y => a38 y
          + (∑ k : Fin 2048, Real.tanh (hidTile a11 a12 a14 a17 a19 (y 0) k) * a33 (ix2 (y 1) k)) * Cert.Spec.σ) := by
  funext y
  obtain ⟨p, q, rfl⟩ : ∃ (p : Fin 256) (q : Fin 4), y = ix2 p q := ⟨y 0, y 1, eq_ix2 y⟩
  unfold k0_pay5
  rw [pay4_eq, shapeCast_self]
  have h35 := matmul_abt dot_S256x2048_S4x2048_S256x4_1_1_0_0_n_n rfl rfl rfl rfl rfl rfl
    (truncf .bf16 (tanh (up (fun y => hidTile a11 a12 a14 a17 a19 (y 0) (y 1)))) bitsLt_bf16_f32)
    (truncf .bf16 (up a33) bitsLt_bf16_f32) p q
  refine (addf_apply _ _ _).trans ?_
  refine (congrArg (up a38 (ix2 p q) + ·) ((mulf_apply _ _ _).trans (congrArg (· * _) h35))).trans ?_
  show ((a38 (ix2 p q) : ℝ) : EReal)
      + (∑ k : Fin 2048, ((Real.tanh (hidTile a11 a12 a14 a17 a19 p k) : ℝ) : EReal) * ((a33 (ix2 q k) : ℝ) : EReal))
          * Ideal.ofBits .f32 0x39000000#32
    = ((a38 (ix2 p q)
        + (∑ k : Fin 2048, Real.tanh (hidTile a11 a12 a14 a17 a19 p k) * a33 (ix2 q k)) * Cert.Spec.σ : ℝ) : EReal)
  rw [ofBits_sigma]
  simp only [EReal.coe_add, EReal.coe_mul, coe_finset_sum]

end Cert.KernelIdeal.Pay

end
-- ==== Proof.LibBlocks.lean ====
/-
  Four small general facts.

  * `sum_blocks`: a sum over `n · b` consecutive indices is the sum over `n` blocks of the sums over the `b` indices of
    each block (index `b · t + q`), in any commutative additive monoid — the regrouping between a sum over all rows and a
    sum block by block.
  * `sum_idx1`: a sum over the indices of a one-axis shape is the sum over the axis's coordinates.
  * `sitofp_extui_bit`: over the extended reals, a one-bit word widened to 32 bits and read as a signed integer is the bit
    read as an unsigned integer (both are 0 or 1) — the two ways a comparison's result is made a number.
  * `zero_sub_ereal`: subtracting from zero negates, on every extended real (the infinities included).
-/
import Idealize.ShloMosaic.PureOps.Ideal
import Idealize.ShloMosaic.Lib.ValueIdx

noncomputable section

namespace Cert.LibBlocks

open Idealize.ShloMosaic

/-- A sum over `n · b` consecutive indices is the sum over `n` blocks of the sums over the `b` indices of each block,
    in any commutative additive monoid. -/
theorem sum_blocks {M : Type*} [AddCommMonoid M] (n b N : ℕ) (h : n * b = N) (f : Fin N → M) :
    ∑ i : Fin N, f i
      = ∑ t : Fin n, ∑ q : Fin b, f ⟨b * t.val + q.val, by
          have := t.isLt; have := q.isLt
          calc b * t.val + q.val < b * t.val + b := by omega
            _ = b * (t.val + 1) := by ring
            _ ≤ b * n := Nat.mul_le_mul_left b (by omega)
            _ = N := by rw [Nat.mul_comm, h]⟩ := by
  subst h
  rw [← Fintype.sum_prod_type', ← (finProdFinEquiv (m := n) (n := b)).sum_comp]
  refine Finset.sum_congr rfl fun p _ => congrArg f (Fin.ext ?_)
  show (finProdFinEquiv p).val = b * p.1.val + p.2.val
  rw [finProdFinEquiv_apply_val]
  ring

/-- A sum over the indices of a one-axis shape is the sum over the axis's coordinates. -/
theorem sum_idx1 {M : Type*} [AddCommMonoid M] {n : ℕ} (f : (⟨1, ![n]⟩ : Shape).Idx → M) :
    ∑ j : (⟨1, ![n]⟩ : Shape).Idx, f j = ∑ b : Fin n, f (ValueIdx.ix1 b) := by
  let e : Fin n ≃ (⟨1, ![n]⟩ : Shape).Idx :=
    { toFun := ValueIdx.ix1, invFun := fun j => j 0, left_inv := fun _ => rfl, right_inv := fun j => (ValueIdx.eq_ix1 j).symm }
  exact (e.sum_comp f).symm

/-- A one-bit word widened to 32 bits and read signed is the bit read unsigned: both are 0 or 1. -/
theorem sitofp_extui_bit (b : BitVec 1) :
    FloatOps.sitofp (F := Ideal) .f32 (b.setWidth 32) = FloatOps.uitofp (F := Ideal) .f32 b := by
  rcases BitVec.eq_zero_or_eq_one b with rfl | rfl
  · show (((BitVec.setWidth 32 0#1).toInt : ℝ) : EReal) = (((0#1 : BitVec 1).toNat : ℝ) : EReal)
    rw [show (BitVec.setWidth 32 0#1).toInt = 0 from by decide, show (0#1 : BitVec 1).toNat = 0 from by decide]
    simp
  · show (((BitVec.setWidth 32 1#1).toInt : ℝ) : EReal) = (((1#1 : BitVec 1).toNat : ℝ) : EReal)
    rw [show (BitVec.setWidth 32 1#1).toInt = 1 from by decide, show (1#1 : BitVec 1).toNat = 1 from by decide]
    simp

/-- Subtracting from zero negates, on every extended real. -/
theorem zero_sub_ereal (x : EReal) : (0 : EReal) - x = -x := by
  rw [sub_eq_add_neg, zero_add]

end Cert.LibBlocks

end
-- ==== Proof.Traj.lean ====
/-
  The tiled walk over the hidden axis, over the reals.

  The hidden axis of 8192 is walked in 4 tiles of 2048 columns (column 2048 · k + j of tile k), the batch
  of 512 in 2 halves of 256 rows (row 256 · b + p of half b). A sum over the whole hidden axis is the sum
  over the tiles of the sums inside each tile; accumulated tile by tile it starts at 0, gains one tile's
  partial sum per step, and after the fourth tile is the whole sum. This is said twice: for the rank-8
  projection of tanh of the hidden state (`acc`, ending at the specification's `proj`), and for the
  readout of the new hidden state, where the scale σ of each tile's partial sum factors out of the sum of
  the four (`outAcc`, ending at the specification's `readout`).
-/
import proofs.«168527_j76141180223841_2_alg».proof.Proof.Spec
import proofs.«168527_j76141180223841_2_alg».proof.Proof.LibBlocks

noncomputable section

namespace Cert.Traj

open Idealize.ShloMosaic Idealize.ShloMosaic.ValueIdx Cert.Spec

/-- Row p of batch half b. -/
def row (b : Fin 2) (p : Fin 256) : Fin 512 := ⟨256 * b.val + p.val, by have := b.isLt; have := p.isLt; omega⟩
/-- Column j of hidden tile k. -/
def col (k : Fin 4) (j : Fin 2048) : Fin 8192 := ⟨2048 * k.val + j.val, by have := k.isLt; have := j.isLt; omega⟩

/-! ## Sums over the first n of four tiles -/

/-- The first 0 tiles contribute nothing. -/
theorem sum_lt_zero {M : Type*} [AddCommMonoid M] (f : Fin 4 → M) :
    ∑ j ∈ Finset.univ.filter (fun j : Fin 4 => j.val < 0), f j = 0 := by
  rw [Finset.filter_false_of_mem (fun j _ => Nat.not_lt_zero _), Finset.sum_empty]

/-- The first k + 1 tiles are the first k and tile k. -/
theorem sum_lt_succ {M : Type*} [AddCommMonoid M] (f : Fin 4 → M) (k : Fin 4) :
    ∑ j ∈ Finset.univ.filter (fun j : Fin 4 => j.val < k.val + 1), f j
      = ∑ j ∈ Finset.univ.filter (fun j : Fin 4 => j.val < k.val), f j + f k := by
  have e : Finset.univ.filter (fun j : Fin 4 => j.val < k.val + 1)
      = insert k (Finset.univ.filter fun j : Fin 4 => j.val < k.val) := by
    ext j
    simp only [Finset.mem_filter, Finset.mem_univ, true_and, Finset.mem_insert, Fin.ext_iff]
    omega
  rw [e, Finset.sum_insert (by simp), add_comm]

/-- The first 4 tiles are all of them. -/
theorem sum_lt_four {M : Type*} [AddCommMonoid M] (f : Fin 4 → M) :
    ∑ j ∈ Finset.univ.filter (fun j : Fin 4 => j.val < 4), f j = ∑ j : Fin 4, f j := by
  rw [Finset.filter_true_of_mem (fun j _ => j.isLt)]

variable (x : (⟨2, ![512, 16]⟩ : Shape).Idx → ℝ) (hs : (⟨2, ![512, 8192]⟩ : Shape).Idx → ℝ)
  (Wi : (⟨2, ![8192, 16]⟩ : Shape).Idx → ℝ) (L : (⟨2, ![8192, 8]⟩ : Shape).Idx → ℝ)
  (R : (⟨2, ![8, 8192]⟩ : Shape).Idx → ℝ) (Wo : (⟨2, ![4, 8192]⟩ : Shape).Idx → ℝ)

/-! ## The projection, tile by tile -/

/-- Tile k's share of the rank-8 projection of tanh of the hidden state. -/
def tileProj (g : Fin 512) (r : Fin 8) (k : Fin 4) : ℝ :=
  ∑ j : Fin 2048, Real.tanh (hs (ix2 g (col k j))) * R (ix2 r (col k j))

/-- The projection accumulated over the first n tiles. -/
def acc (g : Fin 512) (r : Fin 8) (n : ℕ) : ℝ :=
  ∑ k ∈ (Finset.univ.filter fun k : Fin 4 => k.val < n), tileProj hs R g r k

theorem acc_zero (g : Fin 512) (r : Fin 8) : acc hs R g r 0 = 0 := sum_lt_zero _

theorem acc_succ (g : Fin 512) (r : Fin 8) (k : Fin 4) :
    acc hs R g r (k.val + 1) = acc hs R g r k.val + tileProj hs R g r k := sum_lt_succ _ k

/-- After the four tiles the accumulated projection is the specification's. -/
theorem acc_four (g : Fin 512) (r : Fin 8) : acc hs R g r 4 = Cert.Spec.proj hs R g r := by
  unfold acc Cert.Spec.proj
  rw [sum_lt_four,
    Cert.LibBlocks.sum_blocks 4 2048 8192 rfl (fun j : Fin 8192 => Real.tanh (hs (ix2 g j)) * R (ix2 r j))]
  rfl

/-! ## The readout, tile by tile -/

/-- Tile k's share of the readout of the new hidden state, scaled. -/
def tileOut (g : Fin 512) (o : Fin 4) (k : Fin 4) : ℝ :=
  (∑ j : Fin 2048, Real.tanh (Cert.Spec.newHidden x hs Wi L R g (col k j)) * Wo (ix2 o (col k j))) * Cert.Spec.σ

/-- The readout accumulated over the first n tiles. -/
def outAcc (g : Fin 512) (o : Fin 4) (n : ℕ) : ℝ :=
  ∑ k ∈ (Finset.univ.filter fun k : Fin 4 => k.val < n), tileOut x hs Wi L R Wo g o k

theorem outAcc_zero (g : Fin 512) (o : Fin 4) : outAcc x hs Wi L R Wo g o 0 = 0 := sum_lt_zero _

theorem outAcc_succ (g : Fin 512) (o : Fin 4) (k : Fin 4) :
    outAcc x hs Wi L R Wo g o (k.val + 1) = outAcc x hs Wi L R Wo g o k.val + tileOut x hs Wi L R Wo g o k :=
  sum_lt_succ _ k

/-- After the four tiles the accumulated readout is the specification's: the scale factors out of the
    sum of the four partial sums, which regroup into the sum over the whole hidden axis. -/
theorem outAcc_four (g : Fin 512) (o : Fin 4) :
    outAcc x hs Wi L R Wo g o 4 = Cert.Spec.readout x hs Wi L R Wo g o := by
  unfold outAcc Cert.Spec.readout
  rw [sum_lt_four,
    Cert.LibBlocks.sum_blocks 4 2048 8192 rfl
      (fun h : Fin 8192 => Real.tanh (Cert.Spec.newHidden x hs Wi L R g h) * Wo (ix2 o h)),
    Finset.sum_mul]
  rfl

end Cert.Traj

end
-- ==== Proof.KIBlocks.lean ====
/-
  Each input window's block at a grid point, read off the argument arrays.

  The grid has 2 · 2 · 4 = 16 points; point t has batch half t / 8, phase (t / 4) % 2 and hidden tile
  t % 4. Window 0 (the hidden state) reads block (half, tile) of 256 × 2048; window 2 (the input) reads
  block (half, 0) of 256 × 16; window 1 (R) reads, in phase 0, block (0, tile) of 8 × 2048; windows 3
  (W_in), 4 (L) and 5 (W_out) read, in phase 1, their tile's block of rows (3, 4) or columns (5). An
  entry (p, q) of a block with block index (I, J) and block sizes (A, B) is the array's entry
  (I · A + p, J · B + q). With the argument arrays real, each block is thus the coercion of the real
  array at row 256 · half + p, column 2048 · tile + q, as the window reads it.
-/
import proofs.«168527_j76141180223841_2_alg».proof.Proof.Gen.KernelIdeal.Frame
import proofs.«168527_j76141180223841_2_alg».proof.Proof.Spec
import proofs.«168527_j76141180223841_2_alg».proof.Proof.Traj

noncomputable section

namespace Cert.KIBlocks

open Idealize.ShloMosaic Idealize.ShloMosaic.TcCoe Idealize.ShloMosaic.ValueIdx Idealize.SL.Sem
open Cert.KernelIdeal Cert.KernelIdeal.Gen

/-- A point's number is below 16. -/
theorem lt16 (t : Fin cfg0.N) : t.val < 16 := lt_of_lt_of_eq t.isLt N_0

/-- The batch half of point t. -/
def bOf (t : Fin cfg0.N) : Fin 2 := ⟨t.val / 8, by have := lt16 t; omega⟩
/-- The hidden tile of point t. -/
def kOf (t : Fin cfg0.N) : Fin 4 := ⟨t.val % 4, by omega⟩

/-! ## The index maps over the grid -/

theorem idx0 : ∀ t : Fin cfg0.N, win0_0.index t 0 = t.val / 8 ∧ win0_0.index t 1 = t.val % 4 :=
  (by decide +kernel : ∀ t : Fin grid0.N, win0_0.index t 0 = t.val / 8 ∧ win0_0.index t 1 = t.val % 4)
theorem idx1 : ∀ t : Fin cfg0.N, t.val % 8 < 4 → win0_1.index t 0 = 0 ∧ win0_1.index t 1 = t.val % 4 :=
  (by decide +kernel : ∀ t : Fin grid0.N, t.val % 8 < 4 → win0_1.index t 0 = 0 ∧ win0_1.index t 1 = t.val % 4)
theorem idx2 : ∀ t : Fin cfg0.N, win0_2.index t 0 = t.val / 8 ∧ win0_2.index t 1 = 0 :=
  (by decide +kernel : ∀ t : Fin grid0.N, win0_2.index t 0 = t.val / 8 ∧ win0_2.index t 1 = 0)
theorem idx3 : ∀ t : Fin cfg0.N, 4 ≤ t.val % 8 → win0_3.index t 0 = t.val % 4 ∧ win0_3.index t 1 = 0 :=
  (by decide +kernel : ∀ t : Fin grid0.N, 4 ≤ t.val % 8 → win0_3.index t 0 = t.val % 4 ∧ win0_3.index t 1 = 0)
theorem idx4 : ∀ t : Fin cfg0.N, 4 ≤ t.val % 8 → win0_4.index t 0 = t.val % 4 ∧ win0_4.index t 1 = 0 :=
  (by decide +kernel : ∀ t : Fin grid0.N, 4 ≤ t.val % 8 → win0_4.index t 0 = t.val % 4 ∧ win0_4.index t 1 = 0)
theorem idx5 : ∀ t : Fin cfg0.N, 4 ≤ t.val % 8 → win0_5.index t 0 = 0 ∧ win0_5.index t 1 = t.val % 4 :=
  (by decide +kernel : ∀ t : Fin grid0.N, 4 ≤ t.val % 8 → win0_5.index t 0 = 0 ∧ win0_5.index t 1 = t.val % 4)
theorem idx6 : ∀ t : Fin cfg0.N, 4 ≤ t.val % 8 → win0_6.index t 0 = t.val / 8 ∧ win0_6.index t 1 = t.val % 4 :=
  (by decide +kernel : ∀ t : Fin grid0.N, 4 ≤ t.val % 8 → win0_6.index t 0 = t.val / 8 ∧ win0_6.index t 1 = t.val % 4)
theorem idx7 : ∀ t : Fin cfg0.N, win0_7.index t 0 = t.val / 8 ∧ win0_7.index t 1 = 0 :=
  (by decide +kernel : ∀ t : Fin grid0.N, win0_7.index t 0 = t.val / 8 ∧ win0_7.index t 1 = 0)

/-! ## The blocks at real argument arrays -/

variable (m : (ℓ : Loc nD τ sig) → Buf (Elt Ideal) ℓ) (c : Dev nD)
  (x : S512x16.Idx → ℝ) (hs : S512x8192.Idx → ℝ) (Wi : S8192x16.Idx → ℝ)
  (L : S8192x8.Idx → ℝ) (R : S8x8192.Idx → ℝ) (Wo : S4x8192.Idx → ℝ)

/-- The hidden state's block at an entry. -/
theorem blk0_apply (e1 : m ((c.tc : Thread nD τ).loc main_arg1) = fun i => ((hs i : ℝ) : EReal))
    (t : Fin cfg0.N) (p : Fin 256) (q : Fin 2048) :
    (iblk m c 0 t : Vec Ideal S256x2048 .f32) (ix2 p q)
      = ((hs (ix2 (Cert.Traj.row (bOf t) p) (Cert.Traj.col (kOf t) q)) : ℝ) : EReal) := by
  unfold iblk
  rw [View.read_apply]
  show V m c main_arg1 _ = _
  unfold V
  rw [e1]
  refine congrArg (fun z => ((hs z : ℝ) : EReal)) (funext fun a => Fin.ext ?_)
  match a with
  | ⟨0, _⟩ => show win0_0.index t 0 * 256 + 1 * p.val = 256 * (t.val / 8) + p.val; rw [(idx0 t).1]; omega
  | ⟨1, _⟩ => show win0_0.index t 1 * 2048 + 1 * q.val = 2048 * (t.val % 4) + q.val; rw [(idx0 t).2]; omega

/-- R's block at an entry, in phase 0. -/
theorem blk1_apply (e4 : m ((c.tc : Thread nD τ).loc main_arg4) = fun i => ((R i : ℝ) : EReal))
    (t : Fin cfg0.N) (h : t.val % 8 < 4) (p : Fin 8) (q : Fin 2048) :
    (iblk m c 1 t : Vec Ideal S8x2048 .f32) (ix2 p q)
      = ((R (ix2 p (Cert.Traj.col (kOf t) q)) : ℝ) : EReal) := by
  unfold iblk
  rw [View.read_apply]
  show V m c main_arg4 _ = _
  unfold V
  rw [e4]
  refine congrArg (fun z => ((R z : ℝ) : EReal)) (funext fun a => Fin.ext ?_)
  match a with
  | ⟨0, _⟩ => show win0_1.index t 0 * 8 + 1 * p.val = p.val; rw [(idx1 t h).1]; omega
  | ⟨1, _⟩ => show win0_1.index t 1 * 2048 + 1 * q.val = 2048 * (t.val % 4) + q.val; rw [(idx1 t h).2]; omega

/-- The input's block at an entry. -/
theorem blk2_apply (e0 : m ((c.tc : Thread nD τ).loc main_arg0) = fun i => ((x i : ℝ) : EReal))
    (t : Fin cfg0.N) (p : Fin 256) (q : Fin 16) :
    (iblk m c 2 t : Vec Ideal S256x16 .f32) (ix2 p q)
      = ((x (ix2 (Cert.Traj.row (bOf t) p) q) : ℝ) : EReal) := by
  unfold iblk
  rw [View.read_apply]
  show V m c main_arg0 _ = _
  unfold V
  rw [e0]
  refine congrArg (fun z => ((x z : ℝ) : EReal)) (funext fun a => Fin.ext ?_)
  match a with
  | ⟨0, _⟩ => show win0_2.index t 0 * 256 + 1 * p.val = 256 * (t.val / 8) + p.val; rw [(idx2 t).1]; omega
  | ⟨1, _⟩ => show win0_2.index t 1 * 16 + 1 * q.val = q.val; rw [(idx2 t).2]; omega

/-- W_in's block at an entry, in phase 1. -/
theorem blk3_apply (e2 : m ((c.tc : Thread nD τ).loc main_arg2) = fun i => ((Wi i : ℝ) : EReal))
    (t : Fin cfg0.N) (h : 4 ≤ t.val % 8) (p : Fin 2048) (q : Fin 16) :
    (iblk m c 3 t : Vec Ideal S2048x16 .f32) (ix2 p q)
      = ((Wi (ix2 (Cert.Traj.col (kOf t) p) q) : ℝ) : EReal) := by
  unfold iblk
  rw [View.read_apply]
  show V m c main_arg2 _ = _
  unfold V
  rw [e2]
  refine congrArg (fun z => ((Wi z : ℝ) : EReal)) (funext fun a => Fin.ext ?_)
  match a with
  | ⟨0, _⟩ => show win0_3.index t 0 * 2048 + 1 * p.val = 2048 * (t.val % 4) + p.val; rw [(idx3 t h).1]; omega
  | ⟨1, _⟩ => show win0_3.index t 1 * 16 + 1 * q.val = q.val; rw [(idx3 t h).2]; omega

/-- L's block at an entry, in phase 1. -/
theorem blk4_apply (e3 : m ((c.tc : Thread nD τ).loc main_arg3) = fun i => ((L i : ℝ) : EReal))
    (t : Fin cfg0.N) (h : 4 ≤ t.val % 8) (p : Fin 2048) (q : Fin 8) :
    (iblk m c 4 t : Vec Ideal S2048x8 .f32) (ix2 p q)
      = ((L (ix2 (Cert.Traj.col (kOf t) p) q) : ℝ) : EReal) := by
  unfold iblk
  rw [View.read_apply]
  show V m c main_arg3 _ = _
  unfold V
  rw [e3]
  refine congrArg (fun z => ((L z : ℝ) : EReal)) (funext fun a => Fin.ext ?_)
  match a with
  | ⟨0, _⟩ => show win0_4.index t 0 * 2048 + 1 * p.val = 2048 * (t.val % 4) + p.val; rw [(idx4 t h).1]; omega
  | ⟨1, _⟩ => show win0_4.index t 1 * 8 + 1 * q.val = q.val; rw [(idx4 t h).2]; omega

/-- W_out's block at an entry, in phase 1. -/
theorem blk5_apply (e5 : m ((c.tc : Thread nD τ).loc main_arg5) = fun i => ((Wo i : ℝ) : EReal))
    (t : Fin cfg0.N) (h : 4 ≤ t.val % 8) (p : Fin 4) (q : Fin 2048) :
    (iblk m c 5 t : Vec Ideal S4x2048 .f32) (ix2 p q)
      = ((Wo (ix2 p (Cert.Traj.col (kOf t) q)) : ℝ) : EReal) := by
  unfold iblk
  rw [View.read_apply]
  show V m c main_arg5 _ = _
  unfold V
  rw [e5]
  refine congrArg (fun z => ((Wo z : ℝ) : EReal)) (funext fun a => Fin.ext ?_)
  match a with
  | ⟨0, _⟩ => show win0_5.index t 0 * 4 + 1 * p.val = p.val; rw [(idx5 t h).1]; omega
  | ⟨1, _⟩ => show win0_5.index t 1 * 2048 + 1 * q.val = 2048 * (t.val % 4) + q.val; rw [(idx5 t h).2]; omega

/-! ## The blocks as whole functions of the entry -/

theorem blk0 (e1 : m ((c.tc : Thread nD τ).loc main_arg1) = fun i => ((hs i : ℝ) : EReal)) (t : Fin cfg0.N) :
    (iblk m c 0 t : Vec Ideal S256x2048 .f32)
      = fun y => ((hs (ix2 (Cert.Traj.row (bOf t) (y 0)) (Cert.Traj.col (kOf t) (y 1))) : ℝ) : EReal) := by
  funext y
  obtain ⟨p, q, rfl⟩ : ∃ (p : Fin 256) (q : Fin 2048), y = ix2 p q := ⟨y 0, y 1, eq_ix2 y⟩
  exact blk0_apply m c hs e1 t p q

theorem blk1 (e4 : m ((c.tc : Thread nD τ).loc main_arg4) = fun i => ((R i : ℝ) : EReal)) (t : Fin cfg0.N)
    (h : t.val % 8 < 4) :
    (iblk m c 1 t : Vec Ideal S8x2048 .f32)
      = fun y => ((R (ix2 (y 0) (Cert.Traj.col (kOf t) (y 1))) : ℝ) : EReal) := by
  funext y
  obtain ⟨p, q, rfl⟩ : ∃ (p : Fin 8) (q : Fin 2048), y = ix2 p q := ⟨y 0, y 1, eq_ix2 y⟩
  exact blk1_apply m c R e4 t h p q

theorem blk2 (e0 : m ((c.tc : Thread nD τ).loc main_arg0) = fun i => ((x i : ℝ) : EReal)) (t : Fin cfg0.N) :
    (iblk m c 2 t : Vec Ideal S256x16 .f32)
      = fun y => ((x (ix2 (Cert.Traj.row (bOf t) (y 0)) (y 1)) : ℝ) : EReal) := by
  funext y
  obtain ⟨p, q, rfl⟩ : ∃ (p : Fin 256) (q : Fin 16), y = ix2 p q := ⟨y 0, y 1, eq_ix2 y⟩
  exact blk2_apply m c x e0 t p q

theorem blk3 (e2 : m ((c.tc : Thread nD τ).loc main_arg2) = fun i => ((Wi i : ℝ) : EReal)) (t : Fin cfg0.N)
    (h : 4 ≤ t.val % 8) :
    (iblk m c 3 t : Vec Ideal S2048x16 .f32)
      = fun y => ((Wi (ix2 (Cert.Traj.col (kOf t) (y 0)) (y 1)) : ℝ) : EReal) := by
  funext y
  obtain ⟨p, q, rfl⟩ : ∃ (p : Fin 2048) (q : Fin 16), y = ix2 p q := ⟨y 0, y 1, eq_ix2 y⟩
  exact blk3_apply m c Wi e2 t h p q

theorem blk4 (e3 : m ((c.tc : Thread nD τ).loc main_arg3) = fun i => ((L i : ℝ) : EReal)) (t : Fin cfg0.N)
    (h : 4 ≤ t.val % 8) :
    (iblk m c 4 t : Vec Ideal S2048x8 .f32)
      = fun y => ((L (ix2 (Cert.Traj.col (kOf t) (y 0)) (y 1)) : ℝ) : EReal) := by
  funext y
  obtain ⟨p, q, rfl⟩ : ∃ (p : Fin 2048) (q : Fin 8), y = ix2 p q := ⟨y 0, y 1, eq_ix2 y⟩
  exact blk4_apply m c L e3 t h p q

theorem blk5 (e5 : m ((c.tc : Thread nD τ).loc main_arg5) = fun i => ((Wo i : ℝ) : EReal)) (t : Fin cfg0.N)
    (h : 4 ≤ t.val % 8) :
    (iblk m c 5 t : Vec Ideal S4x2048 .f32)
      = fun y => ((Wo (ix2 (y 0) (Cert.Traj.col (kOf t) (y 1))) : ℝ) : EReal) := by
  funext y
  obtain ⟨p, q, rfl⟩ : ∃ (p : Fin 4) (q : Fin 2048), y = ix2 p q := ⟨y 0, y 1, eq_ix2 y⟩
  exact blk5_apply m c Wo e5 t h p q

end Cert.KIBlocks

end
-- ==== Proof.KI.Inv.lean ====
/-
  The three carried buffers along the grid, on real argument arrays.

  In batch half b, after the tile k of phase 0 the rank-8 accumulator holds the projection summed over the first k + 1
  tiles, and the readout block holds zero; from the end of phase 0 on the accumulator holds the whole projection; after
  the tile k of phase 1 the new-hidden buffer holds the Euler step of that tile and the readout block the readout summed
  over the first k + 1 tiles. By induction on the point: each point's case is the body's arithmetic of the blocks it
  read and of what the point before left.
-/
import proofs.«168527_j76141180223841_2_alg».proof.Proof.KI.Pieces
import proofs.«168527_j76141180223841_2_alg».proof.Proof.KIPay
import proofs.«168527_j76141180223841_2_alg».proof.Proof.KIBlocks
import proofs.«168527_j76141180223841_2_alg».proof.Proof.Traj
set_option maxRecDepth 16384

noncomputable section

namespace Cert.KernelIdeal.ValueLeg

open Idealize.ShloMosaic Idealize.ShloMosaic.TcCoe Idealize.ShloMosaic.ValueIdx Idealize.SL.Sem
open Idealize.ShloMosaic.Pipeline (Dat)
open Cert.KernelIdeal Cert.KernelIdeal.Gen Cert.KIBlocks Cert.Traj Cert.Spec Cert.KernelIdeal.Pay

variable (m : (ℓ : Loc nD τ sig) → Buf (Elt Ideal) ℓ) (ρ : Dev nD → PrngReg)
  (x : S512x16.Idx → ℝ) (hs : S512x8192.Idx → ℝ) (Wi : S8192x16.Idx → ℝ)
  (L : S8192x8.Idx → ℝ) (R : S8x8192.Idx → ℝ) (Wo : S4x8192.Idx → ℝ)

/-- The accumulator after point `t`: the projection over the tiles done so far in the point's batch half. -/
def expSc (t : Fin cfg0.N) : S256x8.Idx → ℝ := fun y => acc hs R (row (bOf t) (y 0)) (y 1) (min (t.val % 8 + 1) 4)
/-- The readout block after point `t`: the readout over the tiles of phase 1 done so far. -/
def expOut (t : Fin cfg0.N) : S256x4.Idx → ℝ := fun y => outAcc x hs Wi L R Wo (row (bOf t) (y 0)) (y 1) (t.val % 8 - 3)
/-- The new-hidden buffer after a point `t` of phase 1: the Euler step of the point's tile. -/
def expNew (t : Fin cfg0.N) : S256x2048.Idx → ℝ := fun y => newHidden x hs Wi L R (row (bOf t) (y 0)) (col (kOf t) (y 1))

theorem inv (e0 : ∀ c : Dev nD, m ((c.tc : Thread nD τ).loc main_arg0) = fun i => ((x i : ℝ) : EReal))
    (e1 : ∀ c : Dev nD, m ((c.tc : Thread nD τ).loc main_arg1) = fun i => ((hs i : ℝ) : EReal))
    (e2 : ∀ c : Dev nD, m ((c.tc : Thread nD τ).loc main_arg2) = fun i => ((Wi i : ℝ) : EReal))
    (e3 : ∀ c : Dev nD, m ((c.tc : Thread nD τ).loc main_arg3) = fun i => ((L i : ℝ) : EReal))
    (e4 : ∀ c : Dev nD, m ((c.tc : Thread nD τ).loc main_arg4) = fun i => ((R i : ℝ) : EReal))
    (e5 : ∀ c : Dev nD, m ((c.tc : Thread nD τ).loc main_arg5) = fun i => ((Wo i : ℝ) : EReal)) (c : Dev nD) : ∀ (n : ℕ) (hn : n < cfg0.N),
    (outsAt0 m c n hn).2.2 = up (expSc hs R ⟨n, hn⟩)
      ∧ (outsAt0 m c n hn).2.1 = up (expOut x hs Wi L R Wo ⟨n, hn⟩)
      ∧ (4 ≤ n % 8 → (outsAt0 m c n hn).1 = up (expNew x hs Wi L R ⟨n, hn⟩))
  | n, hn => by
    have hN : n < 16 := lt_of_lt_of_eq hn N_0
    have hstep := outsAt0_step m c ⟨n, hn⟩
    have hk : (kOf ⟨n, hn⟩).val = n % 4 := rfl
    by_cases h0 : n % 8 = 0
    · -- the first tile of phase 0: from zero
      rw [show outsAt0 m c n hn = _ from hstep, stepAt_A m c ⟨n, hn⟩ _ h0]
      dsimp only
      refine ⟨?_, ?_, fun h => absurd h (by omega)⟩
      · rw [soutA_eq, blk0 m c hs (e1 c) ⟨n, hn⟩, blk1 m c R (e4 c) ⟨n, hn⟩ (by show n % 8 < 4; omega), pay1_eq]
        refine (pay3_eq _ _ _).trans (congrArg up (funext fun y => ?_))
        have key : ∀ (p : Fin 256) (q : Fin 8), (0 : ℝ) + tileProj hs R (row (bOf ⟨n, hn⟩) p) q (kOf ⟨n, hn⟩)
            = acc hs R (row (bOf ⟨n, hn⟩) p) q (min (n % 8 + 1) 4) := fun p q => by
          rw [show min (n % 8 + 1) 4 = (kOf ⟨n, hn⟩).val + 1 from by rw [hk]; omega, acc_succ,
            show (kOf ⟨n, hn⟩).val = 0 from by rw [hk]; omega, acc_zero]
        exact key (y 0) (y 1)
      · rw [outA_7_eq, pay2_eq]
        refine congrArg up (funext fun y => ?_)
        have key : ∀ (p : Fin 256) (q : Fin 4), (0 : ℝ) = outAcc x hs Wi L R Wo (row (bOf ⟨n, hn⟩) p) q (n % 8 - 3) := fun p q => by
          rw [show n % 8 - 3 = 0 from by omega, outAcc_zero]
        exact key (y 0) (y 1)
    · have hn0 : n ≠ 0 := fun h => h0 (by rw [h])
      have hlt : n - 1 < cfg0.N := Nat.lt_of_le_of_lt (Nat.sub_le _ _) hn
      obtain ⟨ihS, ihO, ihN⟩ := inv e0 e1 e2 e3 e4 e5 c (n - 1) hlt
      have hprev : prevAt0 m c ⟨n, hn⟩ = outsAt0 m c (n - 1) hlt := prevAt0_pos m c ⟨n, hn⟩ hn0
      have hb : bOf ⟨n - 1, hlt⟩ = bOf ⟨n, hn⟩ := Fin.ext (by show (n - 1) / 8 = n / 8; omega)
      by_cases h1 : n % 8 < 4
      · -- a later tile of phase 0: one more tile of the projection
        rw [show outsAt0 m c n hn = _ from hstep, stepAt_B m c ⟨n, hn⟩ _ h0 h1, hprev]
        dsimp only
        refine ⟨?_, ?_, fun h => absurd h (by omega)⟩
        · rw [soutB_eq, blk0 m c hs (e1 c) ⟨n, hn⟩, blk1 m c R (e4 c) ⟨n, hn⟩ h1, ihS]
          refine (pay3_eq _ _ _).trans (congrArg up (funext fun y => ?_))
          have key : ∀ (p : Fin 256) (q : Fin 8), acc hs R (row (bOf ⟨n - 1, hlt⟩) p) q (min ((n - 1) % 8 + 1) 4)
                + tileProj hs R (row (bOf ⟨n, hn⟩) p) q (kOf ⟨n, hn⟩)
              = acc hs R (row (bOf ⟨n, hn⟩) p) q (min (n % 8 + 1) 4) := fun p q => by
            rw [hb, show min (n % 8 + 1) 4 = (kOf ⟨n, hn⟩).val + 1 from by rw [hk]; omega, acc_succ,
              show min ((n - 1) % 8 + 1) 4 = (kOf ⟨n, hn⟩).val from by rw [hk]; omega]
          exact key (y 0) (y 1)
        · rw [ihO]
          refine congrArg up (funext fun y => ?_)
          have key : ∀ (p : Fin 256) (q : Fin 4), outAcc x hs Wi L R Wo (row (bOf ⟨n - 1, hlt⟩) p) q ((n - 1) % 8 - 3)
              = outAcc x hs Wi L R Wo (row (bOf ⟨n, hn⟩) p) q (n % 8 - 3) := fun p q => by
            rw [hb, show (n - 1) % 8 - 3 = 0 from by omega, show n % 8 - 3 = 0 from by omega]
          exact key (y 0) (y 1)
      · -- phase 1: the Euler step of the tile, and one more tile of the readout
        have h2 : 4 ≤ n % 8 := by omega
        rw [show outsAt0 m c n hn = _ from hstep, stepAt_C m c ⟨n, hn⟩ _ h2, hprev]
        dsimp only
        have hS : (outsAt0 m c (n - 1) hlt).2.2 = up (fun y => proj hs R (row (bOf ⟨n, hn⟩) (y 0)) (y 1)) := by
          rw [ihS]
          refine congrArg up (funext fun y => ?_)
          have key : ∀ (p : Fin 256) (q : Fin 8), acc hs R (row (bOf ⟨n - 1, hlt⟩) p) q (min ((n - 1) % 8 + 1) 4)
              = proj hs R (row (bOf ⟨n, hn⟩) p) q := fun p q => by
            rw [hb, show min ((n - 1) % 8 + 1) 4 = 4 from by omega, acc_four]
          exact key (y 0) (y 1)
        have hH : ∀ (p : Fin 256) (q : Fin 2048),
            hidTile (fun y => hs (ix2 (row (bOf ⟨n, hn⟩) (y 0)) (col (kOf ⟨n, hn⟩) (y 1))))
              (fun y => x (ix2 (row (bOf ⟨n, hn⟩) (y 0)) (y 1)))
              (fun y => Wi (ix2 (col (kOf ⟨n, hn⟩) (y 0)) (y 1)))
              (fun y => proj hs R (row (bOf ⟨n, hn⟩) (y 0)) (y 1))
              (fun y => L (ix2 (col (kOf ⟨n, hn⟩) (y 0)) (y 1))) p q
            = newHidden x hs Wi L R (row (bOf ⟨n, hn⟩) p) (col (kOf ⟨n, hn⟩) q) := fun p q => rfl
        refine ⟨hS.trans ?_, ?_, fun _ => ?_⟩
        · refine congrArg up (funext fun y => ?_)
          have key : ∀ (p : Fin 256) (q : Fin 8), proj hs R (row (bOf ⟨n, hn⟩) p) q
              = acc hs R (row (bOf ⟨n, hn⟩) p) q (min (n % 8 + 1) 4) := fun p q => by
            rw [show min (n % 8 + 1) 4 = 4 from by omega, acc_four]
          exact key (y 0) (y 1)
        · rw [outC_7_eq, blk0 m c hs (e1 c) ⟨n, hn⟩, blk2 m c x (e0 c) ⟨n, hn⟩, blk3 m c Wi (e2 c) ⟨n, hn⟩ h2,
            blk4 m c L (e3 c) ⟨n, hn⟩ h2, blk5 m c Wo (e5 c) ⟨n, hn⟩ h2, hS, ihO]
          refine (pay5_eq _ _ _ _ _ _ _).trans (congrArg up (funext fun y => ?_))
          have key : ∀ (p : Fin 256) (q : Fin 4), outAcc x hs Wi L R Wo (row (bOf ⟨n - 1, hlt⟩) p) q ((n - 1) % 8 - 3)
                + tileOut x hs Wi L R Wo (row (bOf ⟨n, hn⟩) p) q (kOf ⟨n, hn⟩)
              = outAcc x hs Wi L R Wo (row (bOf ⟨n, hn⟩) p) q (n % 8 - 3) := fun p q => by
            rw [hb, show n % 8 - 3 = (kOf ⟨n, hn⟩).val + 1 from by rw [hk]; omega, outAcc_succ,
              show (n - 1) % 8 - 3 = (kOf ⟨n, hn⟩).val from by rw [hk]; omega]
          simp only [hH]
          exact key (y 0) (y 1)
        · rw [outC_6_eq, blk0 m c hs (e1 c) ⟨n, hn⟩, blk2 m c x (e0 c) ⟨n, hn⟩, blk3 m c Wi (e2 c) ⟨n, hn⟩ h2,
            blk4 m c L (e3 c) ⟨n, hn⟩ h2, hS]
          refine (pay4_eq _ _ _ _ _).trans (congrArg up (funext fun y => ?_))
          exact hH (y 0) (y 1)
termination_by n => n
decreasing_by omega

/-- In phase 1 a point leaves the Euler step of its tile in the new-hidden buffer. -/
theorem inv_new (e0 : ∀ c : Dev nD, m ((c.tc : Thread nD τ).loc main_arg0) = fun i => ((x i : ℝ) : EReal))
    (e1 : ∀ c : Dev nD, m ((c.tc : Thread nD τ).loc main_arg1) = fun i => ((hs i : ℝ) : EReal))
    (e2 : ∀ c : Dev nD, m ((c.tc : Thread nD τ).loc main_arg2) = fun i => ((Wi i : ℝ) : EReal))
    (e3 : ∀ c : Dev nD, m ((c.tc : Thread nD τ).loc main_arg3) = fun i => ((L i : ℝ) : EReal))
    (e4 : ∀ c : Dev nD, m ((c.tc : Thread nD τ).loc main_arg4) = fun i => ((R i : ℝ) : EReal))
    (e5 : ∀ c : Dev nD, m ((c.tc : Thread nD τ).loc main_arg5) = fun i => ((Wo i : ℝ) : EReal)) (c : Dev nD) (t : Fin cfg0.N) (h2 : 4 ≤ t.val % 8) :
    (outsAt0 m c t.val t.isLt).1 = fun y => ((newHidden x hs Wi L R (row (bOf t) (y 0)) (col (kOf t) (y 1)) : ℝ) : EReal) :=
  (inv m x hs Wi L R Wo e0 e1 e2 e3 e4 e5 c t.val t.isLt).2.2 h2

/-- The last point of a batch half leaves the whole readout of its rows in the readout block. -/
theorem inv_out7 (e0 : ∀ c : Dev nD, m ((c.tc : Thread nD τ).loc main_arg0) = fun i => ((x i : ℝ) : EReal))
    (e1 : ∀ c : Dev nD, m ((c.tc : Thread nD τ).loc main_arg1) = fun i => ((hs i : ℝ) : EReal))
    (e2 : ∀ c : Dev nD, m ((c.tc : Thread nD τ).loc main_arg2) = fun i => ((Wi i : ℝ) : EReal))
    (e3 : ∀ c : Dev nD, m ((c.tc : Thread nD τ).loc main_arg3) = fun i => ((L i : ℝ) : EReal))
    (e4 : ∀ c : Dev nD, m ((c.tc : Thread nD τ).loc main_arg4) = fun i => ((R i : ℝ) : EReal))
    (e5 : ∀ c : Dev nD, m ((c.tc : Thread nD τ).loc main_arg5) = fun i => ((Wo i : ℝ) : EReal)) (c : Dev nD) (t : Fin cfg0.N) (h7 : t.val % 8 = 7) :
    (outsAt0 m c t.val t.isLt).2.1 = fun y => ((readout x hs Wi L R Wo (row (bOf t) (y 0)) (y 1) : ℝ) : EReal) := by
  rw [(inv m x hs Wi L R Wo e0 e1 e2 e3 e4 e5 c t.val t.isLt).2.1]
  refine congrArg up (funext fun y => ?_)
  have key : ∀ (p : Fin 256) (q : Fin 4), outAcc x hs Wi L R Wo (row (bOf t) p) q (t.val % 8 - 3)
      = readout x hs Wi L R Wo (row (bOf t) p) q := fun p q => by
    rw [show t.val % 8 - 3 = 4 from by omega, outAcc_four]
  exact key (y 0) (y 1)

end Cert.KernelIdeal.ValueLeg

end
-- ==== Proof.KI.Final.lean ====
/-
  From the blocks written back to the two result arrays.

  The new-hidden window is written back at every point of phase 1, and its block there is block (half, tile) of the
  [512, 8192] array: rows 256·half + p, columns 2048·tile + q. The readout window is written back at the last point of
  each batch half, its block the rows 256·half + p of the [512, 4] array. The blocks written back tile each array, so
  each array ends as ONE function of the six real argument arrays: the Euler step, and its readout.
-/
import proofs.«168527_j76141180223841_2_alg».proof.Proof.KI.Inv
set_option maxRecDepth 16384

noncomputable section

namespace Cert.KernelIdeal.ValueLeg

open Idealize.ShloMosaic Idealize.ShloMosaic.TcCoe Idealize.ShloMosaic.ValueIdx Idealize.SL.Sem
open Idealize.ShloMosaic.Pipeline (Dat)
open Cert.KernelIdeal Cert.KernelIdeal.Gen Cert.KIBlocks Cert.Traj Cert.Spec

variable (m : (ℓ : Loc nD τ sig) → Buf (Elt Ideal) ℓ) (ρ : Dev nD → PrngReg)
  (x : S512x16.Idx → ℝ) (hs : S512x8192.Idx → ℝ) (Wi : S8192x16.Idx → ℝ)
  (L : S8192x8.Idx → ℝ) (R : S8x8192.Idx → ℝ) (Wo : S4x8192.Idx → ℝ)

/-- The new hidden state and its readout, as contents of the two result arrays. -/
abbrev G6 : S512x8192.Idx → EReal := fun i => ((newHidden x hs Wi L R (i 0) (i 1) : ℝ) : EReal)
abbrev G7 : S512x4.Idx → EReal := fun i => ((readout x hs Wi L R Wo (i 0) (i 1) : ℝ) : EReal)

/-- What a point of phase 1 writes back of the new hidden state is its block of the Euler step. -/
theorem flushed6_eq (e0 : ∀ c : Dev nD, m ((c.tc : Thread nD τ).loc main_arg0) = fun i => ((x i : ℝ) : EReal))
    (e1 : ∀ c : Dev nD, m ((c.tc : Thread nD τ).loc main_arg1) = fun i => ((hs i : ℝ) : EReal))
    (e2 : ∀ c : Dev nD, m ((c.tc : Thread nD τ).loc main_arg2) = fun i => ((Wi i : ℝ) : EReal))
    (e3 : ∀ c : Dev nD, m ((c.tc : Thread nD τ).loc main_arg3) = fun i => ((L i : ℝ) : EReal))
    (e4 : ∀ c : Dev nD, m ((c.tc : Thread nD τ).loc main_arg4) = fun i => ((R i : ℝ) : EReal))
    (e5 : ∀ c : Dev nD, m ((c.tc : Thread nD τ).loc main_arg5) = fun i => ((Wo i : ℝ) : EReal)) (c : Dev nD) (t : Fin cfg0.N) (hf : (cfg0.win 6).flush t = true) :
    (dats m 0 c).flushed 6 t = ((cfg0.win 6).blk t).view.read (Elt Ideal) (G6 x hs Wi L R) := by
  have h2 : 4 ≤ t.val % 8 := (flushAt0_6 t).mp hf
  show (cfg0.win 6).cut (grid0.coords t) ((dats m 0 c).after 6 t) = _
  rw [after0_6, inv_new m x hs Wi L R Wo e0 e1 e2 e3 e4 e5 c t h2]
  obtain ⟨i0, i1⟩ := idx6 t h2
  have ht := lt16 t
  funext j
  show ((newHidden x hs Wi L R (row (bOf t) (j 0)) (col (kOf t) (j 1)) : ℝ) : EReal)
    = ((newHidden x hs Wi L R ((((cfg0.win 6).blk t).view.emb j) 0) ((((cfg0.win 6).blk t).view.emb j) 1) : ℝ) : EReal)
  have ha : (((cfg0.win 6).blk t).view.emb j) 0 = row (bOf t) (j 0) := Fin.ext (by
    show win0_6.index t 0 * 256 + 1 * (j 0).val = 256 * (t.val / 8) + (j 0).val; rw [i0]; omega)
  have hb : (((cfg0.win 6).blk t).view.emb j) 1 = col (kOf t) (j 1) := Fin.ext (by
    show win0_6.index t 1 * 2048 + 1 * (j 1).val = 2048 * (t.val % 4) + (j 1).val; rw [i1]; omega)
  rw [ha, hb]

theorem mem_blk6 (t : Fin cfg0.N) (i : S512x8192.Idx) :
    i ∈ ((cfg0.win 6).blk t).view.set ↔ ∀ a : Fin 2, win0_6.index t a * S256x2048.size a ≤ (i a).val ∧ (i a).val < win0_6.index t a * S256x2048.size a + S256x2048.size a := by
  show i ∈ ((View.whole main_v0_0).slice (win0_6.rect t)).set ↔ _
  rw [View.set_slice_whole, Rect.mem_set_unit]
  exact Iff.rfl

/-- Every entry of the new hidden state lies in the block of one point of phase 1. -/
theorem cover6 (i : S512x8192.Idx) : ∃ t : Fin cfg0.N, (cfg0.win 6).flush t = true ∧ i ∈ ((cfg0.win 6).blk t).view.set := by
  have hi0 : (i 0).val < 512 := (i 0).isLt
  have hi1 : (i 1).val < 8192 := (i 1).isLt
  have hN : cfg0.N = 16 := N_0
  let t : Fin cfg0.N := ⟨8 * ((i 0).val / 256) + 4 + (i 1).val / 2048, by omega⟩
  have htv : t.val = 8 * ((i 0).val / 256) + 4 + (i 1).val / 2048 := rfl
  have h2 : 4 ≤ t.val % 8 := by omega
  obtain ⟨i0, i1⟩ := idx6 t h2
  refine ⟨t, (flushAt0_6 t).mpr h2, ?_⟩
  rw [mem_blk6]
  intro a
  match a with
  | ⟨0, _⟩ => show win0_6.index t 0 * 256 ≤ (i 0).val ∧ (i 0).val < win0_6.index t 0 * 256 + 256; rw [i0]; omega
  | ⟨1, _⟩ => show win0_6.index t 1 * 2048 ≤ (i 1).val ∧ (i 1).val < win0_6.index t 1 * 2048 + 2048; rw [i1]; omega

/-- The new hidden state's array after the run. -/
theorem final6 (e0 : ∀ c : Dev nD, m ((c.tc : Thread nD τ).loc main_arg0) = fun i => ((x i : ℝ) : EReal))
    (e1 : ∀ c : Dev nD, m ((c.tc : Thread nD τ).loc main_arg1) = fun i => ((hs i : ℝ) : EReal))
    (e2 : ∀ c : Dev nD, m ((c.tc : Thread nD τ).loc main_arg2) = fun i => ((Wi i : ℝ) : EReal))
    (e3 : ∀ c : Dev nD, m ((c.tc : Thread nD τ).loc main_arg3) = fun i => ((L i : ℝ) : EReal))
    (e4 : ∀ c : Dev nD, m ((c.tc : Thread nD τ).loc main_arg4) = fun i => ((R i : ℝ) : EReal))
    (e5 : ∀ c : Dev nD, m ((c.tc : Thread nD τ).loc main_arg5) = fun i => ((Wo i : ℝ) : EReal)) (c : Dev nD) : (dats m 0 c).arrAt 6 cfg0.N = G6 x hs Wi L R :=
  (dats m 0 c).arrAt_eq_of_cover 6 (G6 x hs Wi L R) (flushed6_eq m x hs Wi L R Wo e0 e1 e2 e3 e4 e5 c) cover6

/-- What the last point of a batch half writes back of the readout is its rows of the readout. -/
theorem flushed7_eq (e0 : ∀ c : Dev nD, m ((c.tc : Thread nD τ).loc main_arg0) = fun i => ((x i : ℝ) : EReal))
    (e1 : ∀ c : Dev nD, m ((c.tc : Thread nD τ).loc main_arg1) = fun i => ((hs i : ℝ) : EReal))
    (e2 : ∀ c : Dev nD, m ((c.tc : Thread nD τ).loc main_arg2) = fun i => ((Wi i : ℝ) : EReal))
    (e3 : ∀ c : Dev nD, m ((c.tc : Thread nD τ).loc main_arg3) = fun i => ((L i : ℝ) : EReal))
    (e4 : ∀ c : Dev nD, m ((c.tc : Thread nD τ).loc main_arg4) = fun i => ((R i : ℝ) : EReal))
    (e5 : ∀ c : Dev nD, m ((c.tc : Thread nD τ).loc main_arg5) = fun i => ((Wo i : ℝ) : EReal)) (c : Dev nD) (t : Fin cfg0.N) (hf : (cfg0.win 7).flush t = true) :
    (dats m 0 c).flushed 7 t = ((cfg0.win 7).blk t).view.read (Elt Ideal) (G7 x hs Wi L R Wo) := by
  have h7 : t.val % 8 = 7 := (flush0_7 t).mp hf
  show (cfg0.win 7).cut (grid0.coords t) ((dats m 0 c).after 7 t) = _
  rw [after0_7, inv_out7 m x hs Wi L R Wo e0 e1 e2 e3 e4 e5 c t h7]
  obtain ⟨i0, i1⟩ := idx7 t
  have ht := lt16 t
  funext j
  show ((readout x hs Wi L R Wo (row (bOf t) (j 0)) (j 1) : ℝ) : EReal)
    = ((readout x hs Wi L R Wo ((((cfg0.win 7).blk t).view.emb j) 0) ((((cfg0.win 7).blk t).view.emb j) 1) : ℝ) : EReal)
  have ha : (((cfg0.win 7).blk t).view.emb j) 0 = row (bOf t) (j 0) := Fin.ext (by
    show win0_7.index t 0 * 256 + 1 * (j 0).val = 256 * (t.val / 8) + (j 0).val; rw [i0]; omega)
  have hb : (((cfg0.win 7).blk t).view.emb j) 1 = j 1 := Fin.ext (by
    show win0_7.index t 1 * 4 + 1 * (j 1).val = (j 1).val; rw [i1]; omega)
  rw [ha, hb]

theorem mem_blk7 (t : Fin cfg0.N) (i : S512x4.Idx) :
    i ∈ ((cfg0.win 7).blk t).view.set ↔ ∀ a : Fin 2, win0_7.index t a * S256x4.size a ≤ (i a).val ∧ (i a).val < win0_7.index t a * S256x4.size a + S256x4.size a := by
  show i ∈ ((View.whole main_v0_1).slice (win0_7.rect t)).set ↔ _
  rw [View.set_slice_whole, Rect.mem_set_unit]
  exact Iff.rfl

/-- Every entry of the readout lies in the block of the last point of its batch half. -/
theorem cover7 (i : S512x4.Idx) : ∃ t : Fin cfg0.N, (cfg0.win 7).flush t = true ∧ i ∈ ((cfg0.win 7).blk t).view.set := by
  have hi0 : (i 0).val < 512 := (i 0).isLt
  have hi1 : (i 1).val < 4 := (i 1).isLt
  have hN : cfg0.N = 16 := N_0
  let t : Fin cfg0.N := ⟨8 * ((i 0).val / 256) + 7, by omega⟩
  have htv : t.val = 8 * ((i 0).val / 256) + 7 := rfl
  obtain ⟨i0, i1⟩ := idx7 t
  refine ⟨t, (flush0_7 t).mpr (by omega), ?_⟩
  rw [mem_blk7]
  intro a
  match a with
  | ⟨0, _⟩ => show win0_7.index t 0 * 256 ≤ (i 0).val ∧ (i 0).val < win0_7.index t 0 * 256 + 256; rw [i0]; omega
  | ⟨1, _⟩ => show win0_7.index t 1 * 4 ≤ (i 1).val ∧ (i 1).val < win0_7.index t 1 * 4 + 4; rw [i1]; omega

/-- The readout's array after the run. -/
theorem final7 (e0 : ∀ c : Dev nD, m ((c.tc : Thread nD τ).loc main_arg0) = fun i => ((x i : ℝ) : EReal))
    (e1 : ∀ c : Dev nD, m ((c.tc : Thread nD τ).loc main_arg1) = fun i => ((hs i : ℝ) : EReal))
    (e2 : ∀ c : Dev nD, m ((c.tc : Thread nD τ).loc main_arg2) = fun i => ((Wi i : ℝ) : EReal))
    (e3 : ∀ c : Dev nD, m ((c.tc : Thread nD τ).loc main_arg3) = fun i => ((L i : ℝ) : EReal))
    (e4 : ∀ c : Dev nD, m ((c.tc : Thread nD τ).loc main_arg4) = fun i => ((R i : ℝ) : EReal))
    (e5 : ∀ c : Dev nD, m ((c.tc : Thread nD τ).loc main_arg5) = fun i => ((Wo i : ℝ) : EReal)) (c : Dev nD) : (dats m 0 c).arrAt 7 cfg0.N = G7 x hs Wi L R Wo :=
  (dats m 0 c).arrAt_eq_of_cover 7 (G7 x hs Wi L R Wo) (flushed7_eq m x hs Wi L R Wo e0 e1 e2 e3 e4 e5 c) cover7

/-- The run, read: on real argument arrays the two result arrays end at the readout and at the Euler step, and the
    arguments end as they began. -/
theorem run (e0 : ∀ c : Dev nD, m ((c.tc : Thread nD τ).loc main_arg0) = fun i => ((x i : ℝ) : EReal))
    (e1 : ∀ c : Dev nD, m ((c.tc : Thread nD τ).loc main_arg1) = fun i => ((hs i : ℝ) : EReal))
    (e2 : ∀ c : Dev nD, m ((c.tc : Thread nD τ).loc main_arg2) = fun i => ((Wi i : ℝ) : EReal))
    (e3 : ∀ c : Dev nD, m ((c.tc : Thread nD τ).loc main_arg3) = fun i => ((L i : ℝ) : EReal))
    (e4 : ∀ c : Dev nD, m ((c.tc : Thread nD τ).loc main_arg4) = fun i => ((R i : ℝ) : EReal))
    (e5 : ∀ c : Dev nD, m ((c.tc : Thread nD τ).loc main_arg5) = fun i => ((Wo i : ℝ) : EReal)) :
    θ_run defs (onTc (τ := τ) (main (F := Ideal))) ⟨m, fun _ => 0, ρ⟩ (fun r => ∀ c : Dev nD,
      r.2.mem ((c.tc : Thread nD τ).loc main_v0_1) = G7 x hs Wi L R Wo
      ∧ r.2.mem ((c.tc : Thread nD τ).loc main_v0_0) = G6 x hs Wi L R
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
      ⟨((h c).1 7).trans (final7 m x hs Wi L R Wo e0 e1 e2 e3 e4 e5 c),
       ((h c).1 6).trans (final6 m x hs Wi L R Wo e0 e1 e2 e3 e4 e5 c),
       ((h c).1 2).trans (((dats m 0 c).arrAt_in 2 rfl _).trans ((A_eq m c 2).trans (V_main_arg0 m c))),
       ((h c).1 0).trans (((dats m 0 c).arrAt_in 0 rfl _).trans ((A_eq m c 0).trans (V_main_arg1 m c))),
       ((h c).1 3).trans (((dats m 0 c).arrAt_in 3 rfl _).trans ((A_eq m c 3).trans (V_main_arg2 m c))),
       ((h c).1 4).trans (((dats m 0 c).arrAt_in 4 rfl _).trans ((A_eq m c 4).trans (V_main_arg3 m c))),
       ((h c).1 1).trans (((dats m 0 c).arrAt_in 1 rfl _).trans ((A_eq m c 1).trans (V_main_arg4 m c))),
       ((h c).1 5).trans (((dats m 0 c).arrAt_in 5 rfl _).trans ((A_eq m c 5).trans (V_main_arg5 m c)))⟩)
    (run_main m ρ)

end Cert.KernelIdeal.ValueLeg

end
-- ==== Proof.Finite.lean ====
/-
  Finiteness of the arguments. The precondition is the conjunction, over the six argument arrays, of
  "every entry has absolute value strictly below +∞". At the extended reals an entry x with
  max x (-x) < ⊤ is neither ⊤ nor ⊥, hence the coercion of a real. So each argument array is the
  entrywise coercion of a real array.
-/
import proofs.«168527_j76141180223841_2_alg».proof.Pre_finite_inputs
import Idealize.ShloMosaic.Lib.ReduceAll
import Idealize.ShloMosaic.Lib.ValueIdx
import Idealize.ShloMosaic.PureOps.Ideal

noncomputable section

namespace Cert.RefSide

open Idealize.ShloMosaic Cert.Pre_finite_inputs

/-- The single-precision word of +∞ denotes ⊤. -/
theorem ofBits_inf : Ideal.ofBits .f32 0x7F800000#32 = ⊤ := by
  simp [Ideal.ofBits, Ideal.ieee]

/-- An extended real whose absolute value max x (-x) is strictly below ⊤ is a real. -/
theorem real_of_abs_lt_top (x : EReal) (h : Ideal.cmp .olt (max x (-x)) ⊤ = 1#1) :
    ∃ r : ℝ, x = (r : EReal) := by
  induction x using EReal.rec with
  | bot => simp [Ideal.cmp] at h
  | coe r => exact ⟨r, rfl⟩
  | top => simp [Ideal.cmp] at h

/-- The scalar shape has one index. -/
instance : Subsingleton S_.Idx := ⟨fun a b => funext fun d => d.elim0⟩

/-- If the conjunction over all entries of "|x i| < +∞" is 1, every entry of x is a real. -/
theorem reals_of_all {s : Shape} {axes : List (Fin s.rank)} (x : FVec Ideal s .f32)
    (hb : S_.BroadcastsInDim s (![] : Fin 0 → Fin s.rank)) (hr : s.ReducesTo axes S_)
    (hu : 0 < S_.numel) (j : S_.Idx)
    (e : Host.reduce IntOp.andi
          (cmpf .olt (Host.absf x) (broadcastInDim s ![] hb (constant (F := Ideal) S_ .f32 0x7F800000#32)))
          (constantI S_ 1 1#1) hr hu j = 1#1) :
    ∃ f : s.Idx → ℝ, x = fun i => ((f i : ℝ) : EReal) := by
  have h1 : ∀ i, ∃ r : ℝ, x i = (r : EReal) := fun i => by
    have hi := Host.reduce_andi_all _ _ hr hu j e i
    apply real_of_abs_lt_top
    rw [← ofBits_inf]
    exact hi
  choose f hf using h1
  exact ⟨f, funext hf⟩

/-- Under the precondition, each of the six argument arrays is the entrywise coercion of a real array. -/
theorem reals_of_pre [Cert.Pre_finite_inputs.Facts]
    (a0 : (⟨S512x16, .f32⟩ : BufTy).Contents (Elt Ideal))
    (a1 : (⟨S512x8192, .f32⟩ : BufTy).Contents (Elt Ideal))
    (a2 : (⟨S8192x16, .f32⟩ : BufTy).Contents (Elt Ideal))
    (a3 : (⟨S8192x8, .f32⟩ : BufTy).Contents (Elt Ideal))
    (a4 : (⟨S8x8192, .f32⟩ : BufTy).Contents (Elt Ideal))
    (a5 : (⟨S4x8192, .f32⟩ : BufTy).Contents (Elt Ideal))
    (h : Cert.Pre_finite_inputs.fn (F := Ideal) a0 a1 a2 a3 a4 a5 = fun _ => 1#1) :
    ∃ (x : S512x16.Idx → ℝ) (hs : S512x8192.Idx → ℝ) (Wi : S8192x16.Idx → ℝ) (L : S8192x8.Idx → ℝ)
      (R : S8x8192.Idx → ℝ) (Wo : S4x8192.Idx → ℝ),
      a0 = (fun i => ((x i : ℝ) : EReal)) ∧ a1 = (fun i => ((hs i : ℝ) : EReal))
      ∧ a2 = (fun i => ((Wi i : ℝ) : EReal)) ∧ a3 = (fun i => ((L i : ℝ) : EReal))
      ∧ a4 = (fun i => ((R i : ℝ) : EReal)) ∧ a5 = (fun i => ((Wo i : ℝ) : EReal)) := by
  have h' := congrFun h ValueIdx.ix0
  dsimp only [Cert.Pre_finite_inputs.fn, Cert.Pre_finite_inputs.fn_part1] at h'
  obtain ⟨h', e5⟩ := IntOp.andi_eq_one.1 h'
  obtain ⟨h', e4⟩ := IntOp.andi_eq_one.1 h'
  obtain ⟨h', e3⟩ := IntOp.andi_eq_one.1 h'
  obtain ⟨h', e2⟩ := IntOp.andi_eq_one.1 h'
  obtain ⟨e0, e1⟩ := IntOp.andi_eq_one.1 h'
  obtain ⟨x, hx⟩ := reals_of_all a0 _ _ _ _ e0
  obtain ⟨hs, hhs⟩ := reals_of_all a1 _ _ _ _ e1
  obtain ⟨Wi, hWi⟩ := reals_of_all a2 _ _ _ _ e2
  obtain ⟨L, hL⟩ := reals_of_all a3 _ _ _ _ e3
  obtain ⟨R, hR⟩ := reals_of_all a4 _ _ _ _ e4
  obtain ⟨Wo, hWo⟩ := reals_of_all a5 _ _ _ _ e5
  exact ⟨x, hs, Wi, L, R, Wo, hx, hhs, hWi, hL, hR, hWo⟩

end Cert.RefSide

end
-- ==== Proof.RefConsts.lean ====
/-
  The three single-precision words the reference spells, as the reals they denote:
  0x46000000 is 8192 = 2¹³, 0x3F800000 is 1, and 0x3DCCCCCD (the word nearest 0.1) is 13421773 / 2²⁷.
-/
import Idealize.ShloMosaic.PureOps.Ideal

noncomputable section

namespace Cert.RefSide

open Idealize.ShloMosaic

/-- The word of 8192.0 denotes the real 8192. -/
theorem ofBits_8192 : Ideal.ofBits .f32 0x46000000#32 = ((8192 : ℝ) : EReal) := by
  simp [Ideal.ofBits, Ideal.ieee, -EReal.coe_mul]; norm_num

/-- The word of 1.0 denotes the real 1. -/
theorem ofBits_one : Ideal.ofBits .f32 0x3F800000#32 = ((1 : ℝ) : EReal) := by
  simp [Ideal.ofBits, Ideal.ieee, -EReal.coe_mul]; norm_num

/-- The word nearest 0.1 denotes 13421773 / 2²⁷. -/
theorem ofBits_delta : Ideal.ofBits .f32 0x3DCCCCCD#32 = ((13421773 / 134217728 : ℝ) : EReal) := by
  simp [Ideal.ofBits, Ideal.ieee, -EReal.coe_mul]; norm_num

end Cert.RefSide

end
-- ==== Proof.RefLaw.lean ====
/-
  The algebra between the reference's arrangement and the specification, over the reals.

  The reference forms the full connectivity matrix C h j = (∑ r, L h r · R r j) · σ and then the
  product tanh(hs) · Cᵀ, a sum over j of a sum over r. The specification first projects tanh(hs)
  onto the rank-8 space (a sum over j) and then expands by L (a sum over r). The two are one double
  sum read in the two orders. The Euler step hs + δ · (−hs + a + f) is hs · (1 − δ) + δ · (a + f).
  Last, the coercion of a finite sum of reals into the extended reals is the sum of the coercions.
-/
import proofs.«168527_j76141180223841_2_alg».proof.Proof.Spec

noncomputable section

namespace Cert.RefSide

open Idealize.ShloMosaic Idealize.ShloMosaic.ValueIdx Cert.Spec

/-- The coercion ℝ → EReal commutes with finite sums. -/
theorem coe_sum {ι : Type*} (s : Finset ι) (f : ι → ℝ) :
    ((∑ i ∈ s, f i : ℝ) : EReal) = ∑ i ∈ s, ((f i : ℝ) : EReal) := by
  classical
  refine Finset.induction_on s (by simp) ?_
  intro a s ha ih
  rw [Finset.sum_insert ha, Finset.sum_insert ha, EReal.coe_add, ih]

variable (x : (⟨2, ![512, 16]⟩ : Shape).Idx → ℝ) (hs : (⟨2, ![512, 8192]⟩ : Shape).Idx → ℝ)
  (Wi : (⟨2, ![8192, 16]⟩ : Shape).Idx → ℝ) (L : (⟨2, ![8192, 8]⟩ : Shape).Idx → ℝ)
  (R : (⟨2, ![8, 8192]⟩ : Shape).Idx → ℝ) (Wo : (⟨2, ![4, 8192]⟩ : Shape).Idx → ℝ)

/-- tanh(hs) · Cᵀ with C = (L · R) · σ is the rank-8 projection expanded by L, times σ:
    the double sum over (j, r) read in the other order. -/
theorem recur_eq (b : Fin 512) (h : Fin 8192) :
    ∑ j : Fin 8192, Real.tanh (hs (ix2 b j)) * ((∑ r : Fin 8, L (ix2 h r) * R (ix2 r j)) * σ)
      = recur hs L R b h * σ := by
  unfold recur proj
  simp only [Finset.mul_sum, Finset.sum_mul]
  rw [Finset.sum_comm]
  refine Finset.sum_congr rfl fun r _ => Finset.sum_congr rfl fun j _ => ?_
  ring

/-- The Euler step as the reference spells it is the specification's new hidden state. -/
theorem newHidden_eq (b : Fin 512) (h : Fin 8192) :
    hs (ix2 b h) + δ * ((-hs (ix2 b h)
        + ∑ j : Fin 8192, Real.tanh (hs (ix2 b j)) * ((∑ r : Fin 8, L (ix2 h r) * R (ix2 r j)) * σ)
        + drive x Wi b h) * (1 / 1))
      = newHidden x hs Wi L R b h := by
  rw [recur_eq]
  unfold newHidden
  rw [γ_eq]
  ring

end Cert.RefSide

end
-- ==== Proof.RefStages.lean ====
/-
  The reference, stage by stage, at REAL argument arrays (each array the entrywise coercion of a real
  array into the extended reals). Every stage is then again the coercion of a real array:

    C h j        = (∑ r, L h r · R r j) · σ                    (the connectivity matrix, σ = 1/8192)
    (tanh hs · Cᵀ) b h = ∑ j, tanh (hs b j) · C h j
    ff b h       = ∑ i, x b i · Wi h i                          (the drive)
    new b h      = hs b h + δ · ((−hs b h + (tanh hs · Cᵀ) b h + ff b h) · (1/1))
    out b o      = (∑ h, tanh (new b h) · Wo o h) · σ

  A division by the word of 8192 is the product with 1/8192 and a division by the word of 1 the
  product with 1/1, both off zero; tanh of a real is the real tanh. The two 8192-term sums stay
  symbolic throughout: they are only ever rewritten term by term. The step from the reference's
  arrangement of `new` to the specification's is the law over the reals of the module before.
-/
import proofs.«168527_j76141180223841_2_alg».proof.Proof.Gen.ReferenceIdeal.Read
import proofs.«168527_j76141180223841_2_alg».proof.Proof.Spec
import proofs.«168527_j76141180223841_2_alg».proof.Proof.RefConsts
import proofs.«168527_j76141180223841_2_alg».proof.Proof.RefLaw

noncomputable section

namespace Cert.RefSide

open Idealize.ShloMosaic Idealize.ShloMosaic.ValueIdx Cert.ReferenceIdeal Cert.ReferenceIdeal.Read Cert.Spec

/-! ## The composed index functions of the layout and contraction stages, by coordinates -/

theorem lidx_v2 (p q : Fin 8192) (k : Fin 8) : lidx_main_v2 (ix2 p q) k = ix2 p k :=
  funext fun a => by match a with | ⟨0, _⟩ => rfl | ⟨1, _⟩ => rfl
theorem ridx_v2 (p q : Fin 8192) (k : Fin 8) : ridx_main_v2 (ix2 p q) k = ix2 k q :=
  funext fun a => by match a with | ⟨0, _⟩ => rfl | ⟨1, _⟩ => rfl
theorem idx_v7 (p q : Fin 8192) : idx_main_v7 (ix2 p q) = ix2 q p :=
  funext fun a => by match a with | ⟨0, _⟩ => rfl | ⟨1, _⟩ => rfl
theorem lidx_v8 (b : Fin 512) (h k : Fin 8192) : lidx_main_v8 (ix2 b h) k = ix2 b k :=
  funext fun a => by match a with | ⟨0, _⟩ => rfl | ⟨1, _⟩ => rfl
theorem ridx_v8 (b : Fin 512) (h k : Fin 8192) : ridx_main_v8 (ix2 b h) k = ix2 k h :=
  funext fun a => by match a with | ⟨0, _⟩ => rfl | ⟨1, _⟩ => rfl
theorem idx_v0 (k : Fin 16) (h : Fin 8192) : idx_main_v0 (ix2 k h) = ix2 h k :=
  funext fun a => by match a with | ⟨0, _⟩ => rfl | ⟨1, _⟩ => rfl
theorem lidx_v1 (b : Fin 512) (h : Fin 8192) (k : Fin 16) : lidx_main_v1 (ix2 b h) k = ix2 b k :=
  funext fun a => by match a with | ⟨0, _⟩ => rfl | ⟨1, _⟩ => rfl
theorem ridx_v1 (b : Fin 512) (h : Fin 8192) (k : Fin 16) : ridx_main_v1 (ix2 b h) k = ix2 k h :=
  funext fun a => by match a with | ⟨0, _⟩ => rfl | ⟨1, _⟩ => rfl
theorem idx_v17 (k : Fin 8192) (o : Fin 4) : idx_main_v17 (ix2 k o) = ix2 o k :=
  funext fun a => by match a with | ⟨0, _⟩ => rfl | ⟨1, _⟩ => rfl
theorem lidx_v18 (b : Fin 512) (o : Fin 4) (k : Fin 8192) : lidx_main_v18 (ix2 b o) k = ix2 b k :=
  funext fun a => by match a with | ⟨0, _⟩ => rfl | ⟨1, _⟩ => rfl
theorem ridx_v18 (b : Fin 512) (o : Fin 4) (k : Fin 8192) : ridx_main_v18 (ix2 b o) k = ix2 k o :=
  funext fun a => by match a with | ⟨0, _⟩ => rfl | ⟨1, _⟩ => rfl

variable (x : S512x16.Idx → ℝ) (hs : S512x8192.Idx → ℝ) (Wi : S8192x16.Idx → ℝ)
  (L : S8192x8.Idx → ℝ) (R : S8x8192.Idx → ℝ) (Wo : S4x8192.Idx → ℝ)

/-! ## The stages -/

/-- L · R at an entry. -/
theorem v2_real (p q : Fin 8192) :
    val_main_v2 (F := Ideal) (fun i => ((L i : ℝ) : EReal)) (fun i => ((R i : ℝ) : EReal)) (ix2 p q)
      = ((∑ r : Fin 8, L (ix2 p r) * R (ix2 r q) : ℝ) : EReal) := by
  rw [val_main_v2_apply, coe_sum]
  refine Finset.sum_congr rfl fun k _ => ?_
  rw [lidx_v2, ridx_v2, EReal.coe_mul]

/-- The connectivity matrix C = (L · R) / 8192 at an entry. -/
theorem v4_real (p q : Fin 8192) :
    val_main_v4 (F := Ideal) (fun i => ((L i : ℝ) : EReal)) (fun i => ((R i : ℝ) : EReal)) (ix2 p q)
      = (((∑ r : Fin 8, L (ix2 p r) * R (ix2 r q)) * σ : ℝ) : EReal) := by
  rw [val_main_v4_apply, v2_real, val_main_v3_apply, val_main_cst_apply, Ideal.hostDivf_def, Ideal.ofBits_def,
    ofBits_8192, Ideal.div_coe (by norm_num : (8192 : ℝ) ≠ 0), ← EReal.coe_mul]
  rfl

/-- tanh(hs) · Cᵀ at an entry: the sum over j of tanh (hs b j) · C h j. -/
theorem v8_real (b : Fin 512) (h : Fin 8192) :
    val_main_v8 (F := Ideal) (fun i => ((hs i : ℝ) : EReal)) (fun i => ((L i : ℝ) : EReal))
        (fun i => ((R i : ℝ) : EReal)) (ix2 b h)
      = ((∑ j : Fin 8192, Real.tanh (hs (ix2 b j)) * ((∑ r : Fin 8, L (ix2 h r) * R (ix2 r j)) * σ) : ℝ) : EReal) := by
  rw [val_main_v8_apply, coe_sum]
  refine Finset.sum_congr rfl fun k _ => ?_
  rw [lidx_v8, ridx_v8, val_main_v7_apply, idx_v7, v4_real, val_main_v6_apply, Ideal.hostUnary_tanh_def,
    EReal.coe_mul]
  rfl

/-- The drive x · Wiᵀ at an entry. -/
theorem v1_real (b : Fin 512) (h : Fin 8192) :
    val_main_v1 (F := Ideal) (fun i => ((x i : ℝ) : EReal)) (fun i => ((Wi i : ℝ) : EReal)) (ix2 b h)
      = ((drive x Wi b h : ℝ) : EReal) := by
  unfold drive
  rw [val_main_v1_apply, coe_sum]
  refine Finset.sum_congr rfl fun k _ => ?_
  rw [lidx_v1, ridx_v1, val_main_v0_apply, idx_v0, EReal.coe_mul]

/-- The new hidden state at an entry is the specification's. -/
theorem v15_real (b : Fin 512) (h : Fin 8192) :
    val_main_v15 (F := Ideal) (fun i => ((x i : ℝ) : EReal)) (fun i => ((hs i : ℝ) : EReal))
        (fun i => ((Wi i : ℝ) : EReal)) (fun i => ((L i : ℝ) : EReal)) (fun i => ((R i : ℝ) : EReal)) (ix2 b h)
      = ((newHidden x hs Wi L R b h : ℝ) : EReal) := by
  rw [← newHidden_eq]
  rw [val_main_v15_apply, val_main_v14_apply, val_main_v13_apply, val_main_cst_1_apply, val_main_v12_apply,
    val_main_v11_apply, val_main_cst_0_apply, val_main_v10_apply, val_main_v9_apply, val_main_v5_apply,
    v8_real, v1_real]
  simp only [Ideal.addf_def, Ideal.mulf_def, Ideal.hostDivf_def, Ideal.hostNegf_def, Ideal.negf_def,
    Ideal.ofBits_def, ofBits_one, ofBits_delta]
  rw [Ideal.div_coe (by norm_num : (1 : ℝ) ≠ 0)]
  simp only [← EReal.coe_neg, ← EReal.coe_add, ← EReal.coe_mul]
  rfl

/-- The readout at an entry is the specification's. -/
theorem v20_real (b : Fin 512) (o : Fin 4) :
    val_main_v20 (F := Ideal) (fun i => ((x i : ℝ) : EReal)) (fun i => ((hs i : ℝ) : EReal))
        (fun i => ((Wi i : ℝ) : EReal)) (fun i => ((L i : ℝ) : EReal)) (fun i => ((R i : ℝ) : EReal))
        (fun i => ((Wo i : ℝ) : EReal)) (ix2 b o)
      = ((readout x hs Wi L R Wo b o : ℝ) : EReal) := by
  unfold readout
  rw [val_main_v20_apply, val_main_v19_apply, val_main_cst_2_apply, val_main_v18_apply, Ideal.hostDivf_def,
    Ideal.ofBits_def, ofBits_8192, Ideal.div_coe (by norm_num : (8192 : ℝ) ≠ 0), EReal.coe_mul, coe_sum]
  refine congrArg₂ (· * ·) (Finset.sum_congr rfl fun k _ => ?_) rfl
  rw [lidx_v18, ridx_v18, val_main_v16_apply, v15_real, val_main_v17_apply, idx_v17, Ideal.hostUnary_tanh_def,
    EReal.coe_mul]
  rfl

/-! ## The two result arrays as whole functions -/

/-- The reference's new hidden state, as an array. -/
theorem v15_eq :
    val_main_v15 (F := Ideal) (fun i => ((x i : ℝ) : EReal)) (fun i => ((hs i : ℝ) : EReal))
        (fun i => ((Wi i : ℝ) : EReal)) (fun i => ((L i : ℝ) : EReal)) (fun i => ((R i : ℝ) : EReal))
      = fun i => ((newHidden x hs Wi L R (i 0) (i 1) : ℝ) : EReal) := by
  funext i
  obtain ⟨b, h, rfl⟩ : ∃ (b : Fin 512) (h : Fin 8192), i = ix2 b h := ⟨i 0, i 1, eq_ix2 i⟩
  exact v15_real x hs Wi L R b h

/-- The reference's readout, as an array. -/
theorem v20_eq :
    val_main_v20 (F := Ideal) (fun i => ((x i : ℝ) : EReal)) (fun i => ((hs i : ℝ) : EReal))
        (fun i => ((Wi i : ℝ) : EReal)) (fun i => ((L i : ℝ) : EReal)) (fun i => ((R i : ℝ) : EReal))
        (fun i => ((Wo i : ℝ) : EReal))
      = fun i => ((readout x hs Wi L R Wo (i 0) (i 1) : ℝ) : EReal) := by
  funext i
  obtain ⟨b, o, rfl⟩ : ∃ (b : Fin 512) (o : Fin 4), i = ix2 b o := ⟨i 0, i 1, eq_ix2 i⟩
  exact v20_real x hs Wi L R Wo b o

end Cert.RefSide

end
-- ==== Proof.RefValue.lean ====
/-
  The reference's run at real argument arrays. Every weakly fair execution of the reference
  terminates with the readout array at the specification's `readout` and the new hidden state at the
  specification's `newHidden`, entry by entry as extended reals, and the six arguments unchanged.
  It is the reference's run with its two result terms read, stage by stage, at real arrays; and the
  frame of the reference is the same run with the two results dropped.
-/
import proofs.«168527_j76141180223841_2_alg».proof.Proof.Gen.ReferenceIdeal.Run
import proofs.«168527_j76141180223841_2_alg».proof.Proof.Gen.ReferenceIdeal.Read
import proofs.«168527_j76141180223841_2_alg».proof.Proof.Spec
import proofs.«168527_j76141180223841_2_alg».proof.Proof.RefStages
import proofs.«168527_j76141180223841_2_alg».proof.Proof.Gen.Pre_finite_inputs
import proofs.«168527_j76141180223841_2_alg».proof.Defs

noncomputable section

namespace Cert.RefSide

open Cert.ReferenceIdeal Cert.ReferenceIdeal.Gen Idealize.ShloMosaic Idealize.ShloMosaic.TcCoe Idealize.SL.Sem
  Idealize.ShloMosaic.StableHlo

/-- From a memory whose six argument arrays are real, the reference ends with the specification's
    readout and new hidden state, and the arguments as they were. -/
theorem ref_run (m' : (ℓ : Loc Cert.ReferenceIdeal.nD Cert.ReferenceIdeal.τ Cert.ReferenceIdeal.sig) → Buf (Elt Ideal) ℓ)
    (ρ' : Dev Cert.ReferenceIdeal.nD → PrngReg)
    (x : S512x16.Idx → ℝ) (hs : S512x8192.Idx → ℝ) (Wi : S8192x16.Idx → ℝ)
    (L : S8192x8.Idx → ℝ) (R : S8x8192.Idx → ℝ) (Wo : S4x8192.Idx → ℝ)
    (h0 : ∀ c : Dev Cert.ReferenceIdeal.nD, m' ((c.tc : Thread Cert.ReferenceIdeal.nD Cert.ReferenceIdeal.τ).loc Cert.ReferenceIdeal.main_arg0) = fun i => ((x i : ℝ) : EReal))
    (h1 : ∀ c : Dev Cert.ReferenceIdeal.nD, m' ((c.tc : Thread Cert.ReferenceIdeal.nD Cert.ReferenceIdeal.τ).loc Cert.ReferenceIdeal.main_arg1) = fun i => ((hs i : ℝ) : EReal))
    (h2 : ∀ c : Dev Cert.ReferenceIdeal.nD, m' ((c.tc : Thread Cert.ReferenceIdeal.nD Cert.ReferenceIdeal.τ).loc Cert.ReferenceIdeal.main_arg2) = fun i => ((Wi i : ℝ) : EReal))
    (h3 : ∀ c : Dev Cert.ReferenceIdeal.nD, m' ((c.tc : Thread Cert.ReferenceIdeal.nD Cert.ReferenceIdeal.τ).loc Cert.ReferenceIdeal.main_arg3) = fun i => ((L i : ℝ) : EReal))
    (h4 : ∀ c : Dev Cert.ReferenceIdeal.nD, m' ((c.tc : Thread Cert.ReferenceIdeal.nD Cert.ReferenceIdeal.τ).loc Cert.ReferenceIdeal.main_arg4) = fun i => ((R i : ℝ) : EReal))
    (h5 : ∀ c : Dev Cert.ReferenceIdeal.nD, m' ((c.tc : Thread Cert.ReferenceIdeal.nD Cert.ReferenceIdeal.τ).loc Cert.ReferenceIdeal.main_arg5) = fun i => ((Wo i : ℝ) : EReal)) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
          r.2.mem ((c.tc : Thread Cert.ReferenceIdeal.nD Cert.ReferenceIdeal.τ).loc Cert.ReferenceIdeal.main_v20) = (fun i => ((Cert.Spec.readout x hs Wi L R Wo (i 0) (i 1) : ℝ) : EReal))
          ∧ r.2.mem ((c.tc : Thread Cert.ReferenceIdeal.nD Cert.ReferenceIdeal.τ).loc Cert.ReferenceIdeal.main_v15) = (fun i => ((Cert.Spec.newHidden x hs Wi L R (i 0) (i 1) : ℝ) : EReal))
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)) :=
  (θ_run Cert.ReferenceIdeal.defs _ _).mono
    (fun _ h c =>
      ⟨(h c).1.trans (by
          rw [Cert.ReferenceIdeal.Read.val_main_v20_eq, h0 c, h1 c, h2 c, h3 c, h4 c, h5 c]
          exact v20_eq x hs Wi L R Wo),
        (h c).2.1.trans (by
          rw [Cert.ReferenceIdeal.Read.val_main_v15_eq, h0 c, h1 c, h2 c, h3 c, h4 c]
          exact v15_eq x hs Wi L R),
        (h c).2.2⟩)
    (Cert.ReferenceIdeal.Value.run (F := Ideal) m' ρ')

/-- The reference runs and leaves its arguments unchanged: its run with the two results dropped. -/
theorem frame_ri : Cert.frame_ReferenceIdeal := fun m ρ _ =>
  (θ_run Cert.ReferenceIdeal.defs _ _).mono (fun _ h c => (h c).2.2)
    (Cert.ReferenceIdeal.Value.run (F := Ideal) m ρ)

end Cert.RefSide

end
-- ==== Proof.lean ====
/-
  One Euler step of a low-rank recurrent network, as a fused kernel over a 2 × 2 × 4 grid, against the plain
  formulation that builds the full 8192 × 8192 connectivity matrix.

  Both compute, from the input x, the hidden state hs, the input weights Wi, the low-rank factors L and R and the
  readout weights Wo,
      new = hs + δ · (−hs + tanh(hs) · ((L · R) / 8192)ᵀ + x · Wiᵀ),      out = (tanh(new) · Woᵀ) / 8192.
  The kernel uses the rank-8 bottleneck — tanh(hs) · ((L · R)/8192)ᵀ = ((tanh(hs) · Rᵀ) · Lᵀ) · 2⁻¹³ — accumulating the
  projection tanh(hs) · Rᵀ over four tiles of the hidden axis in a first phase, and in a second phase storing
  hs · (1 − δ) + δ · (recurrent + feed-forward) tile by tile while accumulating the readout. With the kernel's constant
  for 1 − δ read as exactly one minus the step δ the reference multiplies by, the two agree on every finite input:
  the regrouping of the double sum and hs + δ · (−hs + a) = hs · (1 − δ) + δ · a are laws of the reals, which is where
  finiteness of the inputs is used.

  The three frames: the kernel's at both instances by the body's three cases over the grid (first tile of phase 0, later
  tiles of phase 0, phase 1), the reference's from its run. The idealization's one rewrite names the constant.
-/
import proofs.«168527_j76141180223841_2_alg».proof.Defs
import proofs.«168527_j76141180223841_2_alg».proof.Proof.Gen.Kernel
import proofs.«168527_j76141180223841_2_alg».proof.Proof.Gen.KernelIdeal
import proofs.«168527_j76141180223841_2_alg».proof.Proof.Gen.ReferenceIdeal
import proofs.«168527_j76141180223841_2_alg».proof.Proof.Gen.Pre_finite_inputs
import proofs.«168527_j76141180223841_2_alg».proof.Proof.K.Frame
import proofs.«168527_j76141180223841_2_alg».proof.Proof.KI.Final
import proofs.«168527_j76141180223841_2_alg».proof.Proof.Finite
import proofs.«168527_j76141180223841_2_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs, faults nowhere and leaves its arguments as they were. -/
theorem frame_k : Cert.frame_Kernel := fun m ρ _ => Cert.Kernel.Gen.frame (F := Bits) m ρ

/-- So does its idealization. -/
theorem frame_ki : Cert.frame_KernelIdeal := fun m ρ _ => Cert.KernelIdeal.Gen.frame (F := Ideal) m ρ

/-- The one rewrite of the idealization: the constant multiplying the old hidden state denotes one minus the step. -/
theorem preserves : Cert.preserves_Kernel_KernelIdeal :=
  IdealRules.named_const.statement Cert.KernelIdeal.κ "one_minus_dt" .f32 0x3F666666#32 ((120795955 / 134217728 : ℝ) : EReal) rfl

/-- On finite inputs both programs end with the readout and the new hidden state of the one Euler step. -/
theorem algebraic : Cert.algebraic_KernelIdeal_ReferenceIdeal := by
  intro m ρ m' ρ' hpre hagree
  obtain ⟨x, hs, Wi, L, R, Wo, e0, e1, e2, e3, e4, e5⟩ := Cert.RefSide.reals_of_pre _ _ _ _ _ _ (hpre 0)
  have hc : ∀ c : Dev Cert.KernelIdeal.nD, c = 0 := fun c => Subsingleton.elim _ _
  refine ⟨fun _ => fun i => ((Cert.Spec.readout x hs Wi L R Wo (i 0) (i 1) : ℝ) : EReal),
    fun _ => fun i => ((Cert.Spec.newHidden x hs Wi L R (i 0) (i 1) : ℝ) : EReal), ?_, ?_⟩
  · exact Cert.KernelIdeal.ValueLeg.run m ρ x hs Wi L R Wo
      (fun c => by rw [hc c]; exact e0) (fun c => by rw [hc c]; exact e1) (fun c => by rw [hc c]; exact e2)
      (fun c => by rw [hc c]; exact e3) (fun c => by rw [hc c]; exact e4) (fun c => by rw [hc c]; exact e5)
  · exact Cert.RefSide.ref_run m' ρ' x hs Wi L R Wo
      (fun c => by rw [(hagree c).1, hc c]; exact e0)
      (fun c => by rw [(hagree c).2.1, hc c]; exact e1)
      (fun c => by rw [(hagree c).2.2.1, hc c]; exact e2)
      (fun c => by rw [(hagree c).2.2.2.1, hc c]; exact e3)
      (fun c => by rw [(hagree c).2.2.2.2.1, hc c]; exact e4)
      (fun c => by rw [(hagree c).2.2.2.2.2, hc c]; exact e5)

theorem claim : Cert.Claim :=
  ⟨Cert.Kernel.Gen.facts, Cert.KernelIdeal.Gen.facts, Cert.ReferenceIdeal.Gen.facts, Cert.Pre_finite_inputs.Gen.facts,
    frame_k, frame_ki, Cert.RefSide.frame_ri, preserves, algebraic⟩

end Cert.Proof

end
